-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x128 : Shape := ⟨2, ![50000, 128]⟩
abbrev S100000x2 : Shape := ⟨2, ![100000, 2]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S256x1 .f32) (main_arg8 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x1 .f32 := Host.absf main_arg7
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : IVec S2x800000 32) (main_arg1 : FVec F S50000x128 .f32) (main_arg2 : IVec S100000x2 32) (main_arg3 : FVec F S128x256 .f32) (main_arg4 : FVec F S256 .f32) (main_arg5 : FVec F S256x128 .f32) (main_arg6 : FVec F S128 .f32) (main_arg7 : FVec F S256x1 .f32) (main_arg8 : FVec F S1 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_v13 main_v16
-- ==== Kernel.lean ====
abbrev S2x800000 : Shape := ⟨2, ![2, 800000]⟩
abbrev S50000x128 : Shape := ⟨2, ![50000, 128]⟩
abbrev S100000x2 : Shape := ⟨2, ![100000, 2]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x256 : Shape := ⟨2, ![50000, 256]⟩
abbrev S5000x128 : Shape := ⟨2, ![5000, 128]⟩
abbrev S5000x1 : Shape := ⟨2, ![5000, 1]⟩
abbrev S5000x256 : Shape := ⟨2, ![5000, 256]⟩
abbrev S850000x256 : Shape := ⟨2, ![850000, 256]⟩
abbrev S1x256 : Shape := ⟨2, ![1, 256]⟩
abbrev S850000x128 : Shape := ⟨2, ![850000, 128]⟩
abbrev S128x1 : Shape := ⟨2, ![128, 1]⟩
abbrev S1x128 : Shape := ⟨2, ![1, 128]⟩
abbrev S5000 : Shape := ⟨1, ![5000]⟩
abbrev S100000x1 : Shape := ⟨2, ![100000, 1]⟩
abbrev S100000 : Shape := ⟨1, ![100000]⟩

abbrev nBuf : Space → Nat
  | .hbm => 104
  | .vmem => 26
  | .smem => 0
  | _ => 0

abbrev bufTy : (tb : Table) → Fin (tcTables nBuf tb) → BufTy
  | .hbm, ⟨0, _⟩ => ⟨S2x800000, .i32⟩
  | .hbm, ⟨1, _⟩ => ⟨S50000x128, .f32⟩
  | .hbm, ⟨2, _⟩ => ⟨S100000x2, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S256x1, .f32⟩
  | .hbm, ⟨8, _⟩ => ⟨S1, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x256, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x256, .f32⟩
  | .hbm, ⟨41, _⟩ => ⟨S_, .f32⟩
  | .hbm, ⟨42, _⟩ => ⟨S50000x256, .f32⟩
  | .hbm, ⟨43, _⟩ => ⟨S850000x1, .i32⟩
  | .hbm, ⟨44, _⟩ => ⟨S50000x256, .f32⟩
  | .hbm, ⟨45, _⟩ => ⟨S1x256, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S128x1, .f32⟩
  | .hbm, ⟨61, _⟩ => ⟨S1x128, .f32⟩
  | .hbm, ⟨62, _⟩ => ⟨S128x1, .f32⟩
  | .hbm, ⟨63, _⟩ => ⟨S1x128, .f32⟩
  | .hbm, ⟨64, _⟩ => ⟨S1x128, .f32⟩
  | .hbm, ⟨65, _⟩ => ⟨S50000x1, .f32⟩
  | .hbm, ⟨66, _⟩ => ⟨S50000x1, .f32⟩
  | .hbm, ⟨67, _⟩ => ⟨S100000x1, .i32⟩
  | .hbm, ⟨68, _⟩ => ⟨S100000, .i32⟩
  | .hbm, ⟨69, _⟩ => ⟨S100000x1, .i32⟩
  | .hbm, ⟨70, _⟩ => ⟨S100000, .i32⟩
  | .hbm, ⟨71, _⟩ => ⟨S50000, .f32⟩
  | .hbm, ⟨72, _⟩ => ⟨S_, .i32⟩
  | .hbm, ⟨73, _⟩ => ⟨S100000, .i32⟩
  | .hbm, ⟨74, _⟩ => ⟨S100000, .i1⟩
  | .hbm, ⟨75, _⟩ => ⟨S_, .i32⟩
  | .hbm, ⟨76, _⟩ => ⟨S100000, .i32⟩
  | .hbm, ⟨77, _⟩ => ⟨S100000, .i32⟩
  | .hbm, ⟨78, _⟩ => ⟨S100000, .i32⟩
  | .hbm, ⟨79, _⟩ => ⟨S100000x1, .i32⟩
  | .hbm, ⟨80, _⟩ => ⟨S100000, .f32⟩
  | .hbm, ⟨81, _⟩ => ⟨S50000, .f32⟩
  | .hbm, ⟨82, _⟩ => ⟨S_, .i32⟩
  | .hbm, ⟨83, _⟩ => ⟨S100000, .i32⟩
  | .hbm, ⟨84, _⟩ => ⟨S100000, .i1⟩
  | .hbm, ⟨85, _⟩ => ⟨S_, .i32⟩
  | .hbm, ⟨86, _⟩ => ⟨S100000, .i32⟩
  | .hbm, ⟨87, _⟩ => ⟨S100000, .i32⟩
  | .hbm, ⟨88, _⟩ => ⟨S100000, .i32⟩
  | .hbm, ⟨89, _⟩ => ⟨S100000x1, .i32⟩
  | .hbm, ⟨90, _⟩ => ⟨S100000, .f32⟩
  | .hbm, ⟨91, _⟩ => ⟨S100000, .f32⟩
  | .hbm, ⟨92, _⟩ => ⟨S_, .f32⟩
  | .hbm, ⟨93, _⟩ => ⟨S100000, .f32⟩
  | .hbm, ⟨94, _⟩ => ⟨S100000, .f32⟩
  | .hbm, ⟨95, _⟩ => ⟨S100000, .f32⟩
  | .hbm, ⟨96, _⟩ => ⟨S100000, .f32⟩
  | .hbm, ⟨97, _⟩ => ⟨S_, .f32⟩
  | .hbm, ⟨98, _⟩ => ⟨S100000, .f32⟩
  | .hbm, ⟨99, _⟩ => ⟨S100000, .f32⟩
  | .hbm, ⟨100, _⟩ => ⟨S_, .f32⟩
  | .hbm, ⟨101, _⟩ => ⟨S100000, .f32⟩
  | .hbm, ⟨102, _⟩ => ⟨S100000, .f32⟩
  | .hbm, ⟨103, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x1, .f32⟩
  | .local _ .vmem, ⟨4, _⟩ => ⟨S5000x1, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x1, .f32⟩
  | .local _ .vmem, ⟨10, _⟩ => ⟨S5000x1, .f32⟩
  | .local _ .vmem, ⟨11, _⟩ => ⟨S1x256, .f32⟩
  | .local _ .vmem, ⟨12, _⟩ => ⟨S256x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x1, .f32⟩
  | .local _ .vmem, ⟨23, _⟩ => ⟨S5000x1, .f32⟩
  | .local _ .vmem, ⟨24, _⟩ => ⟨S5000x1, .f32⟩
  | .local _ .vmem, ⟨25, _⟩ => ⟨S5000x1, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44_0 : Ref sig .tc := ⟨.hbm, 65, rfl⟩
abbrev main_v44_1 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_10 : Ref sig .tc := ⟨.hbm, 82, rfl⟩
abbrev main_v58 : Ref sig .tc := ⟨.hbm, 83, rfl⟩
abbrev main_v59 : Ref sig .tc := ⟨.hbm, 84, rfl⟩
abbrev main_c_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_12 : Ref sig .tc := ⟨.hbm, 97, rfl⟩
abbrev main_v71 : Ref sig .tc := ⟨.hbm, 98, rfl⟩
abbrev main_v72 : Ref sig .tc := ⟨.hbm, 99, rfl⟩
abbrev main_cst_13 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem6_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  broadcasts_S5000x1_S5000x128 : S5000x1.Broadcasts S5000x128
  bcast_S_S50000x128 : S_.BroadcastsInDim S50000x128 (![] : Fin 0 → Fin S50000x128.rank)
  slices_S256x1_S128x1_0_0 : S256x1.Slices ![0, 0] S128x1
  shapeCasts_S128x1_S1x128 : S128x1.ShapeCasts S1x128
  slices_S256x1_S128x1_128_0 : S256x1.Slices ![128, 0] S128x1
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  slices_S100000x2_S100000x1_0_0 : S100000x2.Slices ![0, 0] S100000x1
  shapeCasts_S100000x1_S100000 : S100000x1.ShapeCasts S100000
  slices_S100000x2_S100000x1_0_1 : S100000x2.Slices ![0, 1] S100000x1
  shapeCasts_S50000x1_S50000 : S50000x1.ShapeCasts S50000
  bcast_S_S100000 : S_.BroadcastsInDim S100000 (![] : Fin 0 → Fin S100000.rank)
  bcast_S100000_S100000x1_0 : S100000.BroadcastsInDim S100000x1 (![0] : Fin 1 → Fin S100000x1.rank)
  shapeCasts_S1_S_ : S1.ShapeCasts S_
  shapeCasts_S100000_S100000x1 : S100000.ShapeCasts S100000x1
  scatter_S50000_S850000x1_S850000_n_0_0_1_wf : ScatterDims.WF S50000 S850000x1 S850000 [] [0] [0] 1
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000_S100000x1_S100000_n_0_n_n_0_1_1_wf : GatherDims.WF S50000 S100000x1 S100000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S50000x1.size a
  hwx2_5 : ∀ i : grid2.Coords, EltTy.bits .f32 = 32 ∨ (Rect.block (s := S50000x1) S5000x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x1.size a ≤ S50000x1.size a
  hwx2_6 : ∀ i : grid2.Coords, EltTy.bits .f32 = 32 ∨ (Rect.block (s := S50000x1) S5000x1.size (cc2_transform_6 i) (hinb2_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000_S100000x1_S100000_n_0_n_n_0_1_1 : GatherDims S50000 S100000x1 S100000 where
  offsetDims := []
  collapsedSliceDims := [0]
  operandBatchingDims := []
  startIndicesBatchingDims := []
  startIndexMap := [0]
  indexVectorDim := 1
  sliceSizes := ![1]
  wf := gather_S50000_S100000x1_S100000_n_0_n_n_0_1_1_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44_0) S5000x1.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v44_1) S5000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S2x800000 : Shape := ⟨2, ![2, 800000]⟩
abbrev S50000x128 : Shape := ⟨2, ![50000, 128]⟩
abbrev S100000x2 : Shape := ⟨2, ![100000, 2]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩
abbrev S2x100000 : Shape := ⟨2, ![2, 100000]⟩
abbrev S1x100000 : Shape := ⟨2, ![1, 100000]⟩
abbrev S100000 : Shape := ⟨1, ![100000]⟩
abbrev S100000x1 : Shape := ⟨2, ![100000, 1]⟩
abbrev S100000x128 : Shape := ⟨2, ![100000, 128]⟩
abbrev S100000x256 : Shape := ⟨2, ![100000, 256]⟩
abbrev S1x1 : Shape := ⟨2, ![1, 1]⟩

abbrev nBuf : Space → Nat
  | .hbm => 128
  | .vmem => 0
  | .smem => 0
  | _ => 0

abbrev bufTy : (tb : Table) → Fin (tcTables nBuf tb) → BufTy
  | .hbm, ⟨0, _⟩ => ⟨S2x800000, .i32⟩
  | .hbm, ⟨1, _⟩ => ⟨S50000x128, .f32⟩
  | .hbm, ⟨2, _⟩ => ⟨S100000x2, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S256x1, .f32⟩
  | .hbm, ⟨8, _⟩ => ⟨S1, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x128, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x128, .f32⟩
  | .hbm, ⟨82, _⟩ => ⟨S850000x1, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S2x100000, .i32⟩
  | .hbm, ⟨93, _⟩ => ⟨S1x100000, .i32⟩
  | .hbm, ⟨94, _⟩ => ⟨S100000, .i32⟩
  | .hbm, ⟨95, _⟩ => ⟨S_, .i32⟩
  | .hbm, ⟨96, _⟩ => ⟨S100000, .i32⟩
  | .hbm, ⟨97, _⟩ => ⟨S100000, .i1⟩
  | .hbm, ⟨98, _⟩ => ⟨S_, .i32⟩
  | .hbm, ⟨99, _⟩ => ⟨S100000, .i32⟩
  | .hbm, ⟨100, _⟩ => ⟨S100000, .i32⟩
  | .hbm, ⟨101, _⟩ => ⟨S100000, .i32⟩
  | .hbm, ⟨102, _⟩ => ⟨S100000x1, .i32⟩
  | .hbm, ⟨103, _⟩ => ⟨S100000x128, .f32⟩
  | .hbm, ⟨104, _⟩ => ⟨S1x100000, .i32⟩
  | .hbm, ⟨105, _⟩ => ⟨S100000, .i32⟩
  | .hbm, ⟨106, _⟩ => ⟨S_, .i32⟩
  | .hbm, ⟨107, _⟩ => ⟨S100000, .i32⟩
  | .hbm, ⟨108, _⟩ => ⟨S100000, .i1⟩
  | .hbm, ⟨109, _⟩ => ⟨S_, .i32⟩
  | .hbm, ⟨110, _⟩ => ⟨S100000, .i32⟩
  | .hbm, ⟨111, _⟩ => ⟨S100000, .i32⟩
  | .hbm, ⟨112, _⟩ => ⟨S100000, .i32⟩
  | .hbm, ⟨113, _⟩ => ⟨S100000x1, .i32⟩
  | .hbm, ⟨114, _⟩ => ⟨S100000x128, .f32⟩
  | .hbm, ⟨115, _⟩ => ⟨S100000x256, .f32⟩
  | .hbm, ⟨116, _⟩ => ⟨S100000x1, .f32⟩
  | .hbm, ⟨117, _⟩ => ⟨S1x1, .f32⟩
  | .hbm, ⟨118, _⟩ => ⟨S100000x1, .f32⟩
  | .hbm, ⟨119, _⟩ => ⟨S100000x1, .f32⟩
  | .hbm, ⟨120, _⟩ => ⟨S100000x1, .f32⟩
  | .hbm, ⟨121, _⟩ => ⟨S100000x1, .f32⟩
  | .hbm, ⟨122, _⟩ => ⟨S_, .f32⟩
  | .hbm, ⟨123, _⟩ => ⟨S100000x1, .f32⟩
  | .hbm, ⟨124, _⟩ => ⟨S100000x1, .f32⟩
  | .hbm, ⟨125, _⟩ => ⟨S_, .f32⟩
  | .hbm, ⟨126, _⟩ => ⟨S100000x1, .f32⟩
  | .hbm, ⟨127, _⟩ => ⟨S100000x1, .f32⟩
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_12 : Ref sig .tc := ⟨.hbm, 95, rfl⟩
abbrev main_v68 : Ref sig .tc := ⟨.hbm, 96, rfl⟩
abbrev main_v69 : Ref sig .tc := ⟨.hbm, 97, rfl⟩
abbrev main_c_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_14 : Ref sig .tc := ⟨.hbm, 106, rfl⟩
abbrev main_v77 : Ref sig .tc := ⟨.hbm, 107, rfl⟩
abbrev main_v78 : Ref sig .tc := ⟨.hbm, 108, rfl⟩
abbrev main_c_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_16 : Ref sig .tc := ⟨.hbm, 122, rfl⟩
abbrev main_v91 : Ref sig .tc := ⟨.hbm, 123, rfl⟩
abbrev main_v92 : Ref sig .tc := ⟨.hbm, 124, rfl⟩
abbrev main_cst_17 : Ref sig .tc := ⟨.hbm, 125, rfl⟩
abbrev main_v93 : Ref sig .tc := ⟨.hbm, 126, rfl⟩
abbrev main_v94 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S100000x2_S2x100000_1_0 : S100000x2.Transposes [1, 0] S2x100000
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  concatenates_S100000x128_S100000x128_S100000x256_d1 : Shape.Concatenates [S100000x128, S100000x128] S100000x256 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S100000x1_S100000x128_1_0_n_n_0_1_1128_wf : GatherDims.WF S50000x128 S100000x1 S100000x128 [1] [0] [] [0] [] 1 ![1, 128]
  dot_S100000x256_S256x1_S100000x1_1_0_0_1_n_n_wf : DotDims.WF S100000x256 S256x1 S100000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.KernelRun.lean ====
/-
  The idealized kernel's run with its result named.  @main is nine segments: host stretches and three pipelined
  regions.  The buffer contents at each segment boundary are a fold from the launch memory (each stretch applies
  its operations; each region leaves its arrays at what its write-backs produce and every other buffer as it was).
  Every weakly fair execution terminates with every unscoped buffer at the last boundary's contents; read at the
  result buffer this names the result, and read at an argument it walks back to the launch memory.
-/
import proofs.«130974_j17119739641949_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v75) = W9 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v75 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.RunValue

end
-- ==== Proof.RefRunS.lean ====
/-
  The reference program's run, read in seven steps.  @main is a straight line of 119 host operations; run from any memory every
  weakly fair execution terminates with each buffer at the fold of the operations' results over the launch contents.  The line
  is cut where a later part reads an array an earlier part computed — the two index vectors and the node factor; the edge weight;
  the first layer's edge sum; the second dense product; the second layer's features; the two gathered rows of every query — and each part is read over an arbitrary
  valuation that holds those arrays, so that no part is walked through twice.  The result buffer then holds the last stage
  (the stages are the read-at-an-index module's `val_main_vN`) and every argument array what it held at launch.
-/
import proofs.«130974_j17119739641949_2_alg».proof.Proof.Gen.ReferenceIdeal
import proofs.«130974_j17119739641949_2_alg».proof.Proof.RefReadP
import Idealize.ShloMosaic.Lib.StableHlo.Run

noncomputable section

namespace Cert.ReferenceIdeal.RunS

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- The contents after two lines in a row: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- No operation of the named line writes the buffer in question. -/
syntax "ref_not_written " ident : tactic
macro_rules
  | `(tactic| ref_not_written $ops:ident) => `(tactic|
      (simp only [$ops:ident, List.Forall, StableHlo.nullary_writes, StableHlo.unary_writes, StableHlo.binary_writes,
          StableHlo.ternary_writes, StableHlo.quaternary_writes, StableHlo.reshape_writes, StableHlo.binaryIndexed_writes,
          Finset.mem_singleton]
       repeat' apply And.intro
       all_goals exact StableHlo.devRef_ne_of_ne (by decide)))

/-- A line none of whose operations writes the buffer leaves it as it was. -/
syntax "ref_skip " ident : tactic
macro_rules
  | `(tactic| ref_skip $ops:ident) => `(tactic|
      exact StableHlo.after_of_forall_not_mem _ _ (List.forall_iff_forall_mem.mp (by ref_not_written $ops)))

/-! ### @main's operations, whole and in seven consecutive parts -/

/-- @main's 119 operations, in order (a called function's operations in its call's place). -/
abbrev ops : List (HloOp τ sig (Elt F)) :=
  [ nullary main_v0 (iotaInDim S50000 32 0),
    unary main_arg0 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg0 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    binary main_arg1 main_arg3 main_v30 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x256 ![0, 1] bcast_S850000x1_S850000x256_0_1 : (⟨S850000x1, .f32⟩ : BufTy).Contents (Elt F) → (⟨S850000x256, .f32⟩ : BufTy).Contents (Elt F)),
    binary main_v37 main_v39 main_v40 (mulf : (⟨S850000x256, .f32⟩ : BufTy).Contents (Elt F) → (⟨S850000x256, .f32⟩ : BufTy).Contents (Elt F) → (⟨S850000x256, .f32⟩ : BufTy).Contents (Elt F)),
    nullary main_cst_8 (constant S_ .f32 0x00000000#32),
    unary main_cst_8 main_v41 (broadcastInDim S50000x256 ![] bcast_S_S50000x256 : (⟨S_, .f32⟩ : BufTy).Contents (Elt F) → (⟨S50000x256, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg4 main_v44 (broadcastInDim S1x256 ![1] bcast_S256_S1x256_1 : (⟨S256, .f32⟩ : BufTy).Contents (Elt F) → (⟨S1x256, .f32⟩ : BufTy).Contents (Elt F)),
    unary main_v44 main_v45 (broadcastInDim S50000x256 ![0, 1] bcast_S1x256_S50000x256_0_1 : (⟨S1x256, .f32⟩ : BufTy).Contents (Elt F) → (⟨S50000x256, .f32⟩ : BufTy).Contents (Elt F)),
    binary main_v43 main_v45 main_v46 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v46) (TRef.of (T := ⟨S50000x256, .f32⟩) main_call1_v0) (TRef.of (T := ⟨S50000x256, .f32⟩) main_v47) maximumf,
    binary main_v47 main_arg5 main_v48 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x128 ![0, 1] bcast_S850000x1_S850000x128_0_1 : (⟨S850000x1, .f32⟩ : BufTy).Contents (Elt F) → (⟨S850000x128, .f32⟩ : BufTy).Contents (Elt F)),
    binary main_v55 main_v57 main_v58 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v59 (broadcastInDim S50000x128 ![] bcast_S_S50000x128 : (⟨S_, .f32⟩ : BufTy).Contents (Elt F) → (⟨S50000x128, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg6 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)),
    unary main_arg2 main_v65 ((transpose S2x100000 [1, 0] · transposes_S100000x2_S2x100000_1_0) : (⟨S100000x2, .i32⟩ : BufTy).Contents (Elt F) → (⟨S2x100000, .i32⟩ : BufTy).Contents (Elt F)),
    unary main_v65 main_v66 ((extractStridedSlice S1x100000 ![0, 0] · slices_S2x100000_S1x100000_0_0) : (⟨S2x100000, .i32⟩ : BufTy).Contents (Elt F) → (⟨S1x100000, .i32⟩ : BufTy).Contents (Elt F)),
    reshape main_v66 main_v67 rfl shapeCasts_S1x100000_S100000,
    nullary main_c_12 (constantI S_ 32 0#32),
    unary main_c_12 main_v68 (broadcastInDim S100000 ![] bcast_S_S100000 : (⟨S_, .i32⟩ : BufTy).Contents (Elt F) → (⟨S100000, .i32⟩ : BufTy).Contents (Elt F)),
    binary main_v67 main_v68 main_v69 (cmpi .slt : (⟨S100000, .i32⟩ : BufTy).Contents (Elt F) → (⟨S100000, .i32⟩ : BufTy).Contents (Elt F) → (⟨S100000, .i1⟩ : BufTy).Contents (Elt F)),
    nullary main_c_13 (constantI S_ 32 50000#32),
    unary main_c_13 main_v70 (broadcastInDim S100000 ![] bcast_S_S100000 : (⟨S_, .i32⟩ : BufTy).Contents (Elt F) → (⟨S100000, .i32⟩ : BufTy).Contents (Elt F)),
    binary main_v67 main_v70 main_v71 (addi : (⟨S100000, .i32⟩ : BufTy).Contents (Elt F) → (⟨S100000, .i32⟩ : BufTy).Contents (Elt F) → (⟨S100000, .i32⟩ : BufTy).Contents (Elt F)),
    ternary main_v69 main_v71 main_v67 main_v72 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v72 main_v73 (broadcastInDim S100000x1 ![0] bcast_S100000_S100000x1_0 : (⟨S100000, .i32⟩ : BufTy).Contents (Elt F) → (⟨S100000x1, .i32⟩ : BufTy).Contents (Elt F)),
    binary main_v64 main_v73 main_v74 ((fun x i => Host.gather gather_S50000x128_S100000x1_S100000x128_1_0_n_n_0_1_1128 x i) : (⟨S50000x128, .f32⟩ : BufTy).Contents (Elt F) → (⟨S100000x1, .i32⟩ : BufTy).Contents (Elt F) → (⟨S100000x128, .f32⟩ : BufTy).Contents (Elt F)),
    unary main_v65 main_v75 ((extractStridedSlice S1x100000 ![1, 0] · slices_S2x100000_S1x100000_1_0) : (⟨S2x100000, .i32⟩ : BufTy).Contents (Elt F) → (⟨S1x100000, .i32⟩ : BufTy).Contents (Elt F)),
    reshape main_v75 main_v76 rfl shapeCasts_S1x100000_S100000,
    nullary main_c_14 (constantI S_ 32 0#32),
    unary main_c_14 main_v77 (broadcastInDim S100000 ![] bcast_S_S100000 : (⟨S_, .i32⟩ : BufTy).Contents (Elt F) → (⟨S100000, .i32⟩ : BufTy).Contents (Elt F)),
    binary main_v76 main_v77 main_v78 (cmpi .slt : (⟨S100000, .i32⟩ : BufTy).Contents (Elt F) → (⟨S100000, .i32⟩ : BufTy).Contents (Elt F) → (⟨S100000, .i1⟩ : BufTy).Contents (Elt F)),
    nullary main_c_15 (constantI S_ 32 50000#32),
    unary main_c_15 main_v79 (broadcastInDim S100000 ![] bcast_S_S100000 : (⟨S_, .i32⟩ : BufTy).Contents (Elt F) → (⟨S100000, .i32⟩ : BufTy).Contents (Elt F)),
    binary main_v76 main_v79 main_v80 (addi : (⟨S100000, .i32⟩ : BufTy).Contents (Elt F) → (⟨S100000, .i32⟩ : BufTy).Contents (Elt F) → (⟨S100000, .i32⟩ : BufTy).Contents (Elt F)),
    ternary main_v78 main_v80 main_v76 main_v81 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v81 main_v82 (broadcastInDim S100000x1 ![0] bcast_S100000_S100000x1_0 : (⟨S100000, .i32⟩ : BufTy).Contents (Elt F) → (⟨S100000x1, .i32⟩ : BufTy).Contents (Elt F)),
    binary main_v64 main_v82 main_v83 ((fun x i => Host.gather gather_S50000x128_S100000x1_S100000x128_1_0_n_n_0_1_1128 x i) : (⟨S50000x128, .f32⟩ : BufTy).Contents (Elt F) → (⟨S100000x1, .i32⟩ : BufTy).Contents (Elt F) → (⟨S100000x128, .f32⟩ : BufTy).Contents (Elt F)),
    binary main_v74 main_v83 main_v84 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v84 main_arg7 main_v85 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    unary main_arg8 main_v86 (broadcastInDim S1x1 ![1] bcast_S1_S1x1_1 : (⟨S1, .f32⟩ : BufTy).Contents (Elt F) → (⟨S1x1, .f32⟩ : BufTy).Contents (Elt F)),
    unary main_v86 main_v87 (broadcastInDim S100000x1 ![0, 1] bcast_S1x1_S100000x1_0_1 : (⟨S1x1, .f32⟩ : BufTy).Contents (Elt F) → (⟨S100000x1, .f32⟩ : BufTy).Contents (Elt F)),
    binary main_v85 main_v87 main_v88 (addf : (⟨S100000x1, .f32⟩ : BufTy).Contents (Elt F) → (⟨S100000x1, .f32⟩ : BufTy).Contents (Elt F) → (⟨S100000x1, .f32⟩ : BufTy).Contents (Elt F)),
    unary main_v88 main_v89 (Host.negf : (⟨S100000x1, .f32⟩ : BufTy).Contents (Elt F) → (⟨S100000x1, .f32⟩ : BufTy).Contents (Elt F)),
    unary main_v89 main_v90 (Host.exp : (⟨S100000x1, .f32⟩ : BufTy).Contents (Elt F) → (⟨S100000x1, .f32⟩ : BufTy).Contents (Elt F)),
    nullary main_cst_16 (constant S_ .f32 0x3F800000#32),
    unary main_cst_16 main_v91 (broadcastInDim S100000x1 ![] bcast_S_S100000x1 : (⟨S_, .f32⟩ : BufTy).Contents (Elt F) → (⟨S100000x1, .f32⟩ : BufTy).Contents (Elt F)),
    binary main_v91 main_v90 main_v92 (addf : (⟨S100000x1, .f32⟩ : BufTy).Contents (Elt F) → (⟨S100000x1, .f32⟩ : BufTy).Contents (Elt F) → (⟨S100000x1, .f32⟩ : BufTy).Contents (Elt F)),
    nullary main_cst_17 (constant S_ .f32 0x3F800000#32),
    unary main_cst_17 main_v93 (broadcastInDim S100000x1 ![] bcast_S_S100000x1 : (⟨S_, .f32⟩ : BufTy).Contents (Elt F) → (⟨S100000x1, .f32⟩ : BufTy).Contents (Elt F)),
    binary main_v93 main_v92 main_v94 (Host.divf : (⟨S100000x1, .f32⟩ : BufTy).Contents (Elt F) → (⟨S100000x1, .f32⟩ : BufTy).Contents (Elt F) → (⟨S100000x1, .f32⟩ : BufTy).Contents (Elt F)) ]

/-- Operations 1 … 21. -/
abbrev opsA : List (HloOp τ sig (Elt F)) :=
  [ nullary main_v0 (iotaInDim S50000 32 0),
    unary main_arg0 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg0 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- Operations 22 … 40. -/
abbrev opsB : List (HloOp τ sig (Elt F)) :=
  [ nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]

/-- Operations 41 … 57. -/
abbrev opsC : List (HloOp τ sig (Elt F)) :=
  [ binary main_arg1 main_arg3 main_v30 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x256 ![0, 1] bcast_S850000x1_S850000x256_0_1 : (⟨S850000x1, .f32⟩ : BufTy).Contents (Elt F) → (⟨S850000x256, .f32⟩ : BufTy).Contents (Elt F)),
    binary main_v37 main_v39 main_v40 (mulf : (⟨S850000x256, .f32⟩ : BufTy).Contents (Elt F) → (⟨S850000x256, .f32⟩ : BufTy).Contents (Elt F) → (⟨S850000x256, .f32⟩ : BufTy).Contents (Elt F)),
    nullary main_cst_8 (constant S_ .f32 0x00000000#32),
    unary main_cst_8 main_v41 (broadcastInDim S50000x256 ![] bcast_S_S50000x256 : (⟨S_, .f32⟩ : BufTy).Contents (Elt F) → (⟨S50000x256, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)) ]

/-- Operations 58 … 64. -/
abbrev opsD : List (HloOp τ sig (Elt F)) :=
  [ unary main_arg4 main_v44 (broadcastInDim S1x256 ![1] bcast_S256_S1x256_1 : (⟨S256, .f32⟩ : BufTy).Contents (Elt F) → (⟨S1x256, .f32⟩ : BufTy).Contents (Elt F)),
    unary main_v44 main_v45 (broadcastInDim S50000x256 ![0, 1] bcast_S1x256_S50000x256_0_1 : (⟨S1x256, .f32⟩ : BufTy).Contents (Elt F) → (⟨S50000x256, .f32⟩ : BufTy).Contents (Elt F)),
    binary main_v43 main_v45 main_v46 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v46) (TRef.of (T := ⟨S50000x256, .f32⟩) main_call1_v0) (TRef.of (T := ⟨S50000x256, .f32⟩) main_v47) maximumf,
    binary main_v47 main_arg5 main_v48 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ]

/-- Operations 65 … 83. -/
abbrev opsE : List (HloOp τ sig (Elt F)) :=
  [ nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x128 ![0, 1] bcast_S850000x1_S850000x128_0_1 : (⟨S850000x1, .f32⟩ : BufTy).Contents (Elt F) → (⟨S850000x128, .f32⟩ : BufTy).Contents (Elt F)),
    binary main_v55 main_v57 main_v58 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v59 (broadcastInDim S50000x128 ![] bcast_S_S50000x128 : (⟨S_, .f32⟩ : BufTy).Contents (Elt F) → (⟨S50000x128, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg6 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)) ]

/-- Operations 84 … 106. -/
abbrev opsF : List (HloOp τ sig (Elt F)) :=
  [ unary main_arg2 main_v65 ((transpose S2x100000 [1, 0] · transposes_S100000x2_S2x100000_1_0) : (⟨S100000x2, .i32⟩ : BufTy).Contents (Elt F) → (⟨S2x100000, .i32⟩ : BufTy).Contents (Elt F)),
    unary main_v65 main_v66 ((extractStridedSlice S1x100000 ![0, 0] · slices_S2x100000_S1x100000_0_0) : (⟨S2x100000, .i32⟩ : BufTy).Contents (Elt F) → (⟨S1x100000, .i32⟩ : BufTy).Contents (Elt F)),
    reshape main_v66 main_v67 rfl shapeCasts_S1x100000_S100000,
    nullary main_c_12 (constantI S_ 32 0#32),
    unary main_c_12 main_v68 (broadcastInDim S100000 ![] bcast_S_S100000 : (⟨S_, .i32⟩ : BufTy).Contents (Elt F) → (⟨S100000, .i32⟩ : BufTy).Contents (Elt F)),
    binary main_v67 main_v68 main_v69 (cmpi .slt : (⟨S100000, .i32⟩ : BufTy).Contents (Elt F) → (⟨S100000, .i32⟩ : BufTy).Contents (Elt F) → (⟨S100000, .i1⟩ : BufTy).Contents (Elt F)),
    nullary main_c_13 (constantI S_ 32 50000#32),
    unary main_c_13 main_v70 (broadcastInDim S100000 ![] bcast_S_S100000 : (⟨S_, .i32⟩ : BufTy).Contents (Elt F) → (⟨S100000, .i32⟩ : BufTy).Contents (Elt F)),
    binary main_v67 main_v70 main_v71 (addi : (⟨S100000, .i32⟩ : BufTy).Contents (Elt F) → (⟨S100000, .i32⟩ : BufTy).Contents (Elt F) → (⟨S100000, .i32⟩ : BufTy).Contents (Elt F)),
    ternary main_v69 main_v71 main_v67 main_v72 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v72 main_v73 (broadcastInDim S100000x1 ![0] bcast_S100000_S100000x1_0 : (⟨S100000, .i32⟩ : BufTy).Contents (Elt F) → (⟨S100000x1, .i32⟩ : BufTy).Contents (Elt F)),
    binary main_v64 main_v73 main_v74 ((fun x i => Host.gather gather_S50000x128_S100000x1_S100000x128_1_0_n_n_0_1_1128 x i) : (⟨S50000x128, .f32⟩ : BufTy).Contents (Elt F) → (⟨S100000x1, .i32⟩ : BufTy).Contents (Elt F) → (⟨S100000x128, .f32⟩ : BufTy).Contents (Elt F)),
    unary main_v65 main_v75 ((extractStridedSlice S1x100000 ![1, 0] · slices_S2x100000_S1x100000_1_0) : (⟨S2x100000, .i32⟩ : BufTy).Contents (Elt F) → (⟨S1x100000, .i32⟩ : BufTy).Contents (Elt F)),
    reshape main_v75 main_v76 rfl shapeCasts_S1x100000_S100000,
    nullary main_c_14 (constantI S_ 32 0#32),
    unary main_c_14 main_v77 (broadcastInDim S100000 ![] bcast_S_S100000 : (⟨S_, .i32⟩ : BufTy).Contents (Elt F) → (⟨S100000, .i32⟩ : BufTy).Contents (Elt F)),
    binary main_v76 main_v77 main_v78 (cmpi .slt : (⟨S100000, .i32⟩ : BufTy).Contents (Elt F) → (⟨S100000, .i32⟩ : BufTy).Contents (Elt F) → (⟨S100000, .i1⟩ : BufTy).Contents (Elt F)),
    nullary main_c_15 (constantI S_ 32 50000#32),
    unary main_c_15 main_v79 (broadcastInDim S100000 ![] bcast_S_S100000 : (⟨S_, .i32⟩ : BufTy).Contents (Elt F) → (⟨S100000, .i32⟩ : BufTy).Contents (Elt F)),
    binary main_v76 main_v79 main_v80 (addi : (⟨S100000, .i32⟩ : BufTy).Contents (Elt F) → (⟨S100000, .i32⟩ : BufTy).Contents (Elt F) → (⟨S100000, .i32⟩ : BufTy).Contents (Elt F)),
    ternary main_v78 main_v80 main_v76 main_v81 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v81 main_v82 (broadcastInDim S100000x1 ![0] bcast_S100000_S100000x1_0 : (⟨S100000, .i32⟩ : BufTy).Contents (Elt F) → (⟨S100000x1, .i32⟩ : BufTy).Contents (Elt F)),
    binary main_v64 main_v82 main_v83 ((fun x i => Host.gather gather_S50000x128_S100000x1_S100000x128_1_0_n_n_0_1_1128 x i) : (⟨S50000x128, .f32⟩ : BufTy).Contents (Elt F) → (⟨S100000x1, .i32⟩ : BufTy).Contents (Elt F) → (⟨S100000x128, .f32⟩ : BufTy).Contents (Elt F)) ]

/-- Operations 107 … 119. -/
abbrev opsG : List (HloOp τ sig (Elt F)) :=
  [ binary main_v74 main_v83 main_v84 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v84 main_arg7 main_v85 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    unary main_arg8 main_v86 (broadcastInDim S1x1 ![1] bcast_S1_S1x1_1 : (⟨S1, .f32⟩ : BufTy).Contents (Elt F) → (⟨S1x1, .f32⟩ : BufTy).Contents (Elt F)),
    unary main_v86 main_v87 (broadcastInDim S100000x1 ![0, 1] bcast_S1x1_S100000x1_0_1 : (⟨S1x1, .f32⟩ : BufTy).Contents (Elt F) → (⟨S100000x1, .f32⟩ : BufTy).Contents (Elt F)),
    binary main_v85 main_v87 main_v88 (addf : (⟨S100000x1, .f32⟩ : BufTy).Contents (Elt F) → (⟨S100000x1, .f32⟩ : BufTy).Contents (Elt F) → (⟨S100000x1, .f32⟩ : BufTy).Contents (Elt F)),
    unary main_v88 main_v89 (Host.negf : (⟨S100000x1, .f32⟩ : BufTy).Contents (Elt F) → (⟨S100000x1, .f32⟩ : BufTy).Contents (Elt F)),
    unary main_v89 main_v90 (Host.exp : (⟨S100000x1, .f32⟩ : BufTy).Contents (Elt F) → (⟨S100000x1, .f32⟩ : BufTy).Contents (Elt F)),
    nullary main_cst_16 (constant S_ .f32 0x3F800000#32),
    unary main_cst_16 main_v91 (broadcastInDim S100000x1 ![] bcast_S_S100000x1 : (⟨S_, .f32⟩ : BufTy).Contents (Elt F) → (⟨S100000x1, .f32⟩ : BufTy).Contents (Elt F)),
    binary main_v91 main_v90 main_v92 (addf : (⟨S100000x1, .f32⟩ : BufTy).Contents (Elt F) → (⟨S100000x1, .f32⟩ : BufTy).Contents (Elt F) → (⟨S100000x1, .f32⟩ : BufTy).Contents (Elt F)),
    nullary main_cst_17 (constant S_ .f32 0x3F800000#32),
    unary main_cst_17 main_v93 (broadcastInDim S100000x1 ![] bcast_S_S100000x1 : (⟨S_, .f32⟩ : BufTy).Contents (Elt F) → (⟨S100000x1, .f32⟩ : BufTy).Contents (Elt F)),
    binary main_v93 main_v92 main_v94 (Host.divf : (⟨S100000x1, .f32⟩ : BufTy).Contents (Elt F) → (⟨S100000x1, .f32⟩ : BufTy).Contents (Elt F) → (⟨S100000x1, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-! ### Each part read over a valuation that holds what it needs -/

set_option maxHeartbeats 4000000 in
/-- The source index vector: the edge list's first row, then the self loops. -/
theorem A_v3 (x0 : (⟨S2x800000, .i32⟩ : BufTy).Contents (Elt F)) (U : Valuation τ sig (Elt F)) (h0 : U (Proc.devRef .tc main_arg0) = x0) :
    after opsA U (Proc.devRef .tc main_v3) = val_main_v3 (F := F) x0 := by
  after_results
  rw [h0]
  rfl
set_option maxHeartbeats 4000000 in
/-- The target index vector: the edge list's second row, then the self loops. -/
theorem A_v6 (x0 : (⟨S2x800000, .i32⟩ : BufTy).Contents (Elt F)) (U : Valuation τ sig (Elt F)) (h0 : U (Proc.devRef .tc main_arg0) = x0) :
    after opsA U (Proc.devRef .tc main_v6) = val_main_v6 (F := F) x0 := by
  after_results
  rw [h0]
  rfl
set_option maxHeartbeats 4000000 in
/-- The per-node factor: the degree's inverse square root where the degree is positive, else zero. -/
theorem A_v14 (x0 : (⟨S2x800000, .i32⟩ : BufTy).Contents (Elt F)) (U : Valuation τ sig (Elt F)) (h0 : U (Proc.devRef .tc main_arg0) = x0) :
    after opsA U (Proc.devRef .tc main_v14) = val_main_v14 (F := F) x0 := by
  after_results
  rw [h0]
  rfl
set_option maxHeartbeats 4000000 in
/-- Each edge's weight: the product of its two nodes' factors. -/
theorem B_v29 (x0 : (⟨S2x800000, .i32⟩ : BufTy).Contents (Elt F)) (U : Valuation τ sig (Elt F)) (h0 : U (Proc.devRef .tc main_v3) = val_main_v3 (F := F) x0) (h1 : U (Proc.devRef .tc main_v6) = val_main_v6 (F := F) x0) (h2 : U (Proc.devRef .tc main_v14) = val_main_v14 (F := F) x0) :
    after opsB U (Proc.devRef .tc main_v29) = val_main_v29 (F := F) x0 := by
  after_results
  rw [h0, h1, h2]
  rfl
set_option maxHeartbeats 4000000 in
/-- The first layer's weighted edge sum. -/
theorem C_v43 (x0 : (⟨S2x800000, .i32⟩ : BufTy).Contents (Elt F)) (x1 : (⟨S50000x128, .f32⟩ : BufTy).Contents (Elt F)) (x3 : (⟨S128x256, .f32⟩ : BufTy).Contents (Elt F)) (U : Valuation τ sig (Elt F)) (h0 : U (Proc.devRef .tc main_arg1) = x1) (h1 : U (Proc.devRef .tc main_arg3) = x3) (h2 : U (Proc.devRef .tc main_v3) = val_main_v3 (F := F) x0) (h3 : U (Proc.devRef .tc main_v29) = val_main_v29 (F := F) x0) (h4 : U (Proc.devRef .tc main_v6) = val_main_v6 (F := F) x0) :
    after opsC U (Proc.devRef .tc main_v43) = val_main_v43 (F := F) x0 x1 x3 := by
  after_results
  rw [h0, h1, h2, h3, h4]
  rfl
set_option maxHeartbeats 4000000 in
/-- Bias, rectifier and the second dense product. -/
theorem D_v48 (x0 : (⟨S2x800000, .i32⟩ : BufTy).Contents (Elt F)) (x1 : (⟨S50000x128, .f32⟩ : BufTy).Contents (Elt F)) (x3 : (⟨S128x256, .f32⟩ : BufTy).Contents (Elt F)) (x4 : (⟨S256, .f32⟩ : BufTy).Contents (Elt F)) (x5 : (⟨S256x128, .f32⟩ : BufTy).Contents (Elt F)) (U : Valuation τ sig (Elt F)) (h0 : U (Proc.devRef .tc main_arg4) = x4) (h1 : U (Proc.devRef .tc main_v43) = val_main_v43 (F := F) x0 x1 x3) (h2 : U (Proc.devRef .tc main_arg5) = x5) :
    after opsD U (Proc.devRef .tc main_v48) = val_main_v48 (F := F) x0 x1 x3 x4 x5 := by
  after_results
  rw [h0, h1, h2]
  rfl
set_option maxHeartbeats 4000000 in
/-- The second layer's weighted edge sum plus its bias. -/
theorem E_v64 (x0 : (⟨S2x800000, .i32⟩ : BufTy).Contents (Elt F)) (x1 : (⟨S50000x128, .f32⟩ : BufTy).Contents (Elt F)) (x3 : (⟨S128x256, .f32⟩ : BufTy).Contents (Elt F)) (x4 : (⟨S256, .f32⟩ : BufTy).Contents (Elt F)) (x5 : (⟨S256x128, .f32⟩ : BufTy).Contents (Elt F)) (x6 : (⟨S128, .f32⟩ : BufTy).Contents (Elt F)) (U : Valuation τ sig (Elt F)) (h0 : U (Proc.devRef .tc main_v3) = val_main_v3 (F := F) x0) (h1 : U (Proc.devRef .tc main_v48) = val_main_v48 (F := F) x0 x1 x3 x4 x5) (h2 : U (Proc.devRef .tc main_v29) = val_main_v29 (F := F) x0) (h3 : U (Proc.devRef .tc main_v6) = val_main_v6 (F := F) x0) (h4 : U (Proc.devRef .tc main_arg6) = x6) :
    after opsE U (Proc.devRef .tc main_v64) = val_main_v64 (F := F) x0 x1 x3 x4 x5 x6 := by
  after_results
  rw [h0, h1, h2, h3, h4]
  rfl
set_option maxHeartbeats 4000000 in
/-- The rows of the queries' first nodes. -/
theorem F_v74 (x0 : (⟨S2x800000, .i32⟩ : BufTy).Contents (Elt F)) (x1 : (⟨S50000x128, .f32⟩ : BufTy).Contents (Elt F)) (x2 : (⟨S100000x2, .i32⟩ : BufTy).Contents (Elt F)) (x3 : (⟨S128x256, .f32⟩ : BufTy).Contents (Elt F)) (x4 : (⟨S256, .f32⟩ : BufTy).Contents (Elt F)) (x5 : (⟨S256x128, .f32⟩ : BufTy).Contents (Elt F)) (x6 : (⟨S128, .f32⟩ : BufTy).Contents (Elt F)) (U : Valuation τ sig (Elt F)) (h0 : U (Proc.devRef .tc main_arg2) = x2) (h1 : U (Proc.devRef .tc main_v64) = val_main_v64 (F := F) x0 x1 x3 x4 x5 x6) :
    after opsF U (Proc.devRef .tc main_v74) = val_main_v74 (F := F) x0 x1 x2 x3 x4 x5 x6 := by
  after_results
  rw [h0, h1]
  rfl
set_option maxHeartbeats 4000000 in
/-- The rows of the queries' second nodes. -/
theorem F_v83 (x0 : (⟨S2x800000, .i32⟩ : BufTy).Contents (Elt F)) (x1 : (⟨S50000x128, .f32⟩ : BufTy).Contents (Elt F)) (x2 : (⟨S100000x2, .i32⟩ : BufTy).Contents (Elt F)) (x3 : (⟨S128x256, .f32⟩ : BufTy).Contents (Elt F)) (x4 : (⟨S256, .f32⟩ : BufTy).Contents (Elt F)) (x5 : (⟨S256x128, .f32⟩ : BufTy).Contents (Elt F)) (x6 : (⟨S128, .f32⟩ : BufTy).Contents (Elt F)) (U : Valuation τ sig (Elt F)) (h0 : U (Proc.devRef .tc main_arg2) = x2) (h1 : U (Proc.devRef .tc main_v64) = val_main_v64 (F := F) x0 x1 x3 x4 x5 x6) :
    after opsF U (Proc.devRef .tc main_v83) = val_main_v83 (F := F) x0 x1 x2 x3 x4 x5 x6 := by
  after_results
  rw [h0, h1]
  rfl
set_option maxHeartbeats 4000000 in
/-- The pair rows side by side, contracted with the head weights, and the logistic function. -/
theorem G_v94 (x0 : (⟨S2x800000, .i32⟩ : BufTy).Contents (Elt F)) (x1 : (⟨S50000x128, .f32⟩ : BufTy).Contents (Elt F)) (x2 : (⟨S100000x2, .i32⟩ : BufTy).Contents (Elt F)) (x3 : (⟨S128x256, .f32⟩ : BufTy).Contents (Elt F)) (x4 : (⟨S256, .f32⟩ : BufTy).Contents (Elt F)) (x5 : (⟨S256x128, .f32⟩ : BufTy).Contents (Elt F)) (x6 : (⟨S128, .f32⟩ : BufTy).Contents (Elt F)) (x7 : (⟨S256x1, .f32⟩ : BufTy).Contents (Elt F)) (x8 : (⟨S1, .f32⟩ : BufTy).Contents (Elt F)) (U : Valuation τ sig (Elt F)) (h0 : U (Proc.devRef .tc main_v74) = val_main_v74 (F := F) x0 x1 x2 x3 x4 x5 x6) (h1 : U (Proc.devRef .tc main_v83) = val_main_v83 (F := F) x0 x1 x2 x3 x4 x5 x6) (h2 : U (Proc.devRef .tc main_arg7) = x7) (h3 : U (Proc.devRef .tc main_arg8) = x8) :
    after opsG U (Proc.devRef .tc main_v94) = val_main_v94 (F := F) x0 x1 x2 x3 x4 x5 x6 x7 x8 := by
  after_results
  rw [h0, h1, h2, h3]
  rfl

/-! ### What each part leaves alone -/

theorem skipA_arg1 (U : Valuation τ sig (Elt F)) : after opsA U (Proc.devRef .tc main_arg1) = U (Proc.devRef .tc main_arg1) := by ref_skip opsA
theorem skipA_arg2 (U : Valuation τ sig (Elt F)) : after opsA U (Proc.devRef .tc main_arg2) = U (Proc.devRef .tc main_arg2) := by ref_skip opsA
theorem skipA_arg3 (U : Valuation τ sig (Elt F)) : after opsA U (Proc.devRef .tc main_arg3) = U (Proc.devRef .tc main_arg3) := by ref_skip opsA
theorem skipA_arg4 (U : Valuation τ sig (Elt F)) : after opsA U (Proc.devRef .tc main_arg4) = U (Proc.devRef .tc main_arg4) := by ref_skip opsA
theorem skipA_arg5 (U : Valuation τ sig (Elt F)) : after opsA U (Proc.devRef .tc main_arg5) = U (Proc.devRef .tc main_arg5) := by ref_skip opsA
theorem skipA_arg6 (U : Valuation τ sig (Elt F)) : after opsA U (Proc.devRef .tc main_arg6) = U (Proc.devRef .tc main_arg6) := by ref_skip opsA
theorem skipA_arg7 (U : Valuation τ sig (Elt F)) : after opsA U (Proc.devRef .tc main_arg7) = U (Proc.devRef .tc main_arg7) := by ref_skip opsA
theorem skipA_arg8 (U : Valuation τ sig (Elt F)) : after opsA U (Proc.devRef .tc main_arg8) = U (Proc.devRef .tc main_arg8) := by ref_skip opsA
theorem skipB_v3 (U : Valuation τ sig (Elt F)) : after opsB U (Proc.devRef .tc main_v3) = U (Proc.devRef .tc main_v3) := by ref_skip opsB
theorem skipB_v6 (U : Valuation τ sig (Elt F)) : after opsB U (Proc.devRef .tc main_v6) = U (Proc.devRef .tc main_v6) := by ref_skip opsB
theorem skipB_arg1 (U : Valuation τ sig (Elt F)) : after opsB U (Proc.devRef .tc main_arg1) = U (Proc.devRef .tc main_arg1) := by ref_skip opsB
theorem skipB_arg2 (U : Valuation τ sig (Elt F)) : after opsB U (Proc.devRef .tc main_arg2) = U (Proc.devRef .tc main_arg2) := by ref_skip opsB
theorem skipB_arg3 (U : Valuation τ sig (Elt F)) : after opsB U (Proc.devRef .tc main_arg3) = U (Proc.devRef .tc main_arg3) := by ref_skip opsB
theorem skipB_arg4 (U : Valuation τ sig (Elt F)) : after opsB U (Proc.devRef .tc main_arg4) = U (Proc.devRef .tc main_arg4) := by ref_skip opsB
theorem skipB_arg5 (U : Valuation τ sig (Elt F)) : after opsB U (Proc.devRef .tc main_arg5) = U (Proc.devRef .tc main_arg5) := by ref_skip opsB
theorem skipB_arg6 (U : Valuation τ sig (Elt F)) : after opsB U (Proc.devRef .tc main_arg6) = U (Proc.devRef .tc main_arg6) := by ref_skip opsB
theorem skipB_arg7 (U : Valuation τ sig (Elt F)) : after opsB U (Proc.devRef .tc main_arg7) = U (Proc.devRef .tc main_arg7) := by ref_skip opsB
theorem skipB_arg8 (U : Valuation τ sig (Elt F)) : after opsB U (Proc.devRef .tc main_arg8) = U (Proc.devRef .tc main_arg8) := by ref_skip opsB
theorem skipC_v3 (U : Valuation τ sig (Elt F)) : after opsC U (Proc.devRef .tc main_v3) = U (Proc.devRef .tc main_v3) := by ref_skip opsC
theorem skipC_v6 (U : Valuation τ sig (Elt F)) : after opsC U (Proc.devRef .tc main_v6) = U (Proc.devRef .tc main_v6) := by ref_skip opsC
theorem skipC_v29 (U : Valuation τ sig (Elt F)) : after opsC U (Proc.devRef .tc main_v29) = U (Proc.devRef .tc main_v29) := by ref_skip opsC
theorem skipC_arg2 (U : Valuation τ sig (Elt F)) : after opsC U (Proc.devRef .tc main_arg2) = U (Proc.devRef .tc main_arg2) := by ref_skip opsC
theorem skipC_arg4 (U : Valuation τ sig (Elt F)) : after opsC U (Proc.devRef .tc main_arg4) = U (Proc.devRef .tc main_arg4) := by ref_skip opsC
theorem skipC_arg5 (U : Valuation τ sig (Elt F)) : after opsC U (Proc.devRef .tc main_arg5) = U (Proc.devRef .tc main_arg5) := by ref_skip opsC
theorem skipC_arg6 (U : Valuation τ sig (Elt F)) : after opsC U (Proc.devRef .tc main_arg6) = U (Proc.devRef .tc main_arg6) := by ref_skip opsC
theorem skipC_arg7 (U : Valuation τ sig (Elt F)) : after opsC U (Proc.devRef .tc main_arg7) = U (Proc.devRef .tc main_arg7) := by ref_skip opsC
theorem skipC_arg8 (U : Valuation τ sig (Elt F)) : after opsC U (Proc.devRef .tc main_arg8) = U (Proc.devRef .tc main_arg8) := by ref_skip opsC
theorem skipD_v3 (U : Valuation τ sig (Elt F)) : after opsD U (Proc.devRef .tc main_v3) = U (Proc.devRef .tc main_v3) := by ref_skip opsD
theorem skipD_v6 (U : Valuation τ sig (Elt F)) : after opsD U (Proc.devRef .tc main_v6) = U (Proc.devRef .tc main_v6) := by ref_skip opsD
theorem skipD_v29 (U : Valuation τ sig (Elt F)) : after opsD U (Proc.devRef .tc main_v29) = U (Proc.devRef .tc main_v29) := by ref_skip opsD
theorem skipD_arg2 (U : Valuation τ sig (Elt F)) : after opsD U (Proc.devRef .tc main_arg2) = U (Proc.devRef .tc main_arg2) := by ref_skip opsD
theorem skipD_arg6 (U : Valuation τ sig (Elt F)) : after opsD U (Proc.devRef .tc main_arg6) = U (Proc.devRef .tc main_arg6) := by ref_skip opsD
theorem skipD_arg7 (U : Valuation τ sig (Elt F)) : after opsD U (Proc.devRef .tc main_arg7) = U (Proc.devRef .tc main_arg7) := by ref_skip opsD
theorem skipD_arg8 (U : Valuation τ sig (Elt F)) : after opsD U (Proc.devRef .tc main_arg8) = U (Proc.devRef .tc main_arg8) := by ref_skip opsD
theorem skipE_arg2 (U : Valuation τ sig (Elt F)) : after opsE U (Proc.devRef .tc main_arg2) = U (Proc.devRef .tc main_arg2) := by ref_skip opsE
theorem skipE_arg7 (U : Valuation τ sig (Elt F)) : after opsE U (Proc.devRef .tc main_arg7) = U (Proc.devRef .tc main_arg7) := by ref_skip opsE
theorem skipE_arg8 (U : Valuation τ sig (Elt F)) : after opsE U (Proc.devRef .tc main_arg8) = U (Proc.devRef .tc main_arg8) := by ref_skip opsE
theorem skipF_arg7 (U : Valuation τ sig (Elt F)) : after opsF U (Proc.devRef .tc main_arg7) = U (Proc.devRef .tc main_arg7) := by ref_skip opsF
theorem skipF_arg8 (U : Valuation τ sig (Elt F)) : after opsF U (Proc.devRef .tc main_arg8) = U (Proc.devRef .tc main_arg8) := by ref_skip opsF

/-! ### The contents at the chunk boundaries -/

variable (m : (ℓ : Loc nD τ sig) → Buf (Elt F) ℓ) (c : Dev nD)

abbrev U1 : Valuation τ sig (Elt F) := after opsA (launchContents m c)
abbrev U2 : Valuation τ sig (Elt F) := after opsB (U1 m c)
abbrev U3 : Valuation τ sig (Elt F) := after opsC (U2 m c)
abbrev U4 : Valuation τ sig (Elt F) := after opsD (U3 m c)
abbrev U5 : Valuation τ sig (Elt F) := after opsE (U4 m c)
abbrev U6 : Valuation τ sig (Elt F) := after opsF (U5 m c)

theorem U1_arg1 : U1 m c (Proc.devRef .tc main_arg1) = m ((c.tc : Thread nD τ).loc main_arg1) := (skipA_arg1 _).trans rfl
theorem U1_arg2 : U1 m c (Proc.devRef .tc main_arg2) = m ((c.tc : Thread nD τ).loc main_arg2) := (skipA_arg2 _).trans rfl
theorem U1_arg3 : U1 m c (Proc.devRef .tc main_arg3) = m ((c.tc : Thread nD τ).loc main_arg3) := (skipA_arg3 _).trans rfl
theorem U1_arg4 : U1 m c (Proc.devRef .tc main_arg4) = m ((c.tc : Thread nD τ).loc main_arg4) := (skipA_arg4 _).trans rfl
theorem U1_arg5 : U1 m c (Proc.devRef .tc main_arg5) = m ((c.tc : Thread nD τ).loc main_arg5) := (skipA_arg5 _).trans rfl
theorem U1_arg6 : U1 m c (Proc.devRef .tc main_arg6) = m ((c.tc : Thread nD τ).loc main_arg6) := (skipA_arg6 _).trans rfl
theorem U1_arg7 : U1 m c (Proc.devRef .tc main_arg7) = m ((c.tc : Thread nD τ).loc main_arg7) := (skipA_arg7 _).trans rfl
theorem U1_arg8 : U1 m c (Proc.devRef .tc main_arg8) = m ((c.tc : Thread nD τ).loc main_arg8) := (skipA_arg8 _).trans rfl
theorem U2_arg1 : U2 m c (Proc.devRef .tc main_arg1) = m ((c.tc : Thread nD τ).loc main_arg1) := (skipB_arg1 _).trans (U1_arg1 m c)
theorem U2_arg2 : U2 m c (Proc.devRef .tc main_arg2) = m ((c.tc : Thread nD τ).loc main_arg2) := (skipB_arg2 _).trans (U1_arg2 m c)
theorem U2_arg3 : U2 m c (Proc.devRef .tc main_arg3) = m ((c.tc : Thread nD τ).loc main_arg3) := (skipB_arg3 _).trans (U1_arg3 m c)
theorem U2_arg4 : U2 m c (Proc.devRef .tc main_arg4) = m ((c.tc : Thread nD τ).loc main_arg4) := (skipB_arg4 _).trans (U1_arg4 m c)
theorem U2_arg5 : U2 m c (Proc.devRef .tc main_arg5) = m ((c.tc : Thread nD τ).loc main_arg5) := (skipB_arg5 _).trans (U1_arg5 m c)
theorem U2_arg6 : U2 m c (Proc.devRef .tc main_arg6) = m ((c.tc : Thread nD τ).loc main_arg6) := (skipB_arg6 _).trans (U1_arg6 m c)
theorem U2_arg7 : U2 m c (Proc.devRef .tc main_arg7) = m ((c.tc : Thread nD τ).loc main_arg7) := (skipB_arg7 _).trans (U1_arg7 m c)
theorem U2_arg8 : U2 m c (Proc.devRef .tc main_arg8) = m ((c.tc : Thread nD τ).loc main_arg8) := (skipB_arg8 _).trans (U1_arg8 m c)
theorem U3_arg2 : U3 m c (Proc.devRef .tc main_arg2) = m ((c.tc : Thread nD τ).loc main_arg2) := (skipC_arg2 _).trans (U2_arg2 m c)
theorem U3_arg4 : U3 m c (Proc.devRef .tc main_arg4) = m ((c.tc : Thread nD τ).loc main_arg4) := (skipC_arg4 _).trans (U2_arg4 m c)
theorem U3_arg5 : U3 m c (Proc.devRef .tc main_arg5) = m ((c.tc : Thread nD τ).loc main_arg5) := (skipC_arg5 _).trans (U2_arg5 m c)
theorem U3_arg6 : U3 m c (Proc.devRef .tc main_arg6) = m ((c.tc : Thread nD τ).loc main_arg6) := (skipC_arg6 _).trans (U2_arg6 m c)
theorem U3_arg7 : U3 m c (Proc.devRef .tc main_arg7) = m ((c.tc : Thread nD τ).loc main_arg7) := (skipC_arg7 _).trans (U2_arg7 m c)
theorem U3_arg8 : U3 m c (Proc.devRef .tc main_arg8) = m ((c.tc : Thread nD τ).loc main_arg8) := (skipC_arg8 _).trans (U2_arg8 m c)
theorem U4_arg2 : U4 m c (Proc.devRef .tc main_arg2) = m ((c.tc : Thread nD τ).loc main_arg2) := (skipD_arg2 _).trans (U3_arg2 m c)
theorem U4_arg6 : U4 m c (Proc.devRef .tc main_arg6) = m ((c.tc : Thread nD τ).loc main_arg6) := (skipD_arg6 _).trans (U3_arg6 m c)
theorem U4_arg7 : U4 m c (Proc.devRef .tc main_arg7) = m ((c.tc : Thread nD τ).loc main_arg7) := (skipD_arg7 _).trans (U3_arg7 m c)
theorem U4_arg8 : U4 m c (Proc.devRef .tc main_arg8) = m ((c.tc : Thread nD τ).loc main_arg8) := (skipD_arg8 _).trans (U3_arg8 m c)
theorem U5_arg2 : U5 m c (Proc.devRef .tc main_arg2) = m ((c.tc : Thread nD τ).loc main_arg2) := (skipE_arg2 _).trans (U4_arg2 m c)
theorem U5_arg7 : U5 m c (Proc.devRef .tc main_arg7) = m ((c.tc : Thread nD τ).loc main_arg7) := (skipE_arg7 _).trans (U4_arg7 m c)
theorem U5_arg8 : U5 m c (Proc.devRef .tc main_arg8) = m ((c.tc : Thread nD τ).loc main_arg8) := (skipE_arg8 _).trans (U4_arg8 m c)
theorem U1_v3 : U1 m c (Proc.devRef .tc main_v3) = val_main_v3 (F := F) (m ((c.tc : Thread nD τ).loc main_arg0)) := A_v3 _ _ rfl
theorem U1_v6 : U1 m c (Proc.devRef .tc main_v6) = val_main_v6 (F := F) (m ((c.tc : Thread nD τ).loc main_arg0)) := A_v6 _ _ rfl
theorem U1_v14 : U1 m c (Proc.devRef .tc main_v14) = val_main_v14 (F := F) (m ((c.tc : Thread nD τ).loc main_arg0)) := A_v14 _ _ rfl
theorem U2_v3 : U2 m c (Proc.devRef .tc main_v3) = val_main_v3 (F := F) (m ((c.tc : Thread nD τ).loc main_arg0)) := (skipB_v3 _).trans (U1_v3 m c)
theorem U2_v6 : U2 m c (Proc.devRef .tc main_v6) = val_main_v6 (F := F) (m ((c.tc : Thread nD τ).loc main_arg0)) := (skipB_v6 _).trans (U1_v6 m c)
theorem U3_v3 : U3 m c (Proc.devRef .tc main_v3) = val_main_v3 (F := F) (m ((c.tc : Thread nD τ).loc main_arg0)) := (skipC_v3 _).trans (U2_v3 m c)
theorem U3_v6 : U3 m c (Proc.devRef .tc main_v6) = val_main_v6 (F := F) (m ((c.tc : Thread nD τ).loc main_arg0)) := (skipC_v6 _).trans (U2_v6 m c)
theorem U4_v3 : U4 m c (Proc.devRef .tc main_v3) = val_main_v3 (F := F) (m ((c.tc : Thread nD τ).loc main_arg0)) := (skipD_v3 _).trans (U3_v3 m c)
theorem U4_v6 : U4 m c (Proc.devRef .tc main_v6) = val_main_v6 (F := F) (m ((c.tc : Thread nD τ).loc main_arg0)) := (skipD_v6 _).trans (U3_v6 m c)
theorem U2_v29 : U2 m c (Proc.devRef .tc main_v29) = val_main_v29 (F := F) (m ((c.tc : Thread nD τ).loc main_arg0)) := B_v29 _ _ (U1_v3 m c) (U1_v6 m c) (U1_v14 m c)
theorem U3_v29 : U3 m c (Proc.devRef .tc main_v29) = val_main_v29 (F := F) (m ((c.tc : Thread nD τ).loc main_arg0)) := (skipC_v29 _).trans (U2_v29 m c)
theorem U4_v29 : U4 m c (Proc.devRef .tc main_v29) = val_main_v29 (F := F) (m ((c.tc : Thread nD τ).loc main_arg0)) := (skipD_v29 _).trans (U3_v29 m c)
theorem U3_v43 : U3 m c (Proc.devRef .tc main_v43) = val_main_v43 (F := F) (m ((c.tc : Thread nD τ).loc main_arg0)) (m ((c.tc : Thread nD τ).loc main_arg1)) (m ((c.tc : Thread nD τ).loc main_arg3)) := C_v43 _ _ _ _ (U2_arg1 m c) (U2_arg3 m c) (U2_v3 m c) (U2_v29 m c) (U2_v6 m c)
theorem U4_v48 : U4 m c (Proc.devRef .tc main_v48) = val_main_v48 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := D_v48 _ _ _ _ _ _ (U3_arg4 m c) (U3_v43 m c) (U3_arg5 m c)
theorem U5_v64 : U5 m c (Proc.devRef .tc main_v64) = val_main_v64 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := E_v64 _ _ _ _ _ _ _ (U4_v3 m c) (U4_v48 m c) (U4_v29 m c) (U4_v6 m c) (U4_arg6 m c)

theorem U6_arg7 : U6 m c (Proc.devRef .tc main_arg7) = m ((c.tc : Thread nD τ).loc main_arg7) := (skipF_arg7 _).trans (U5_arg7 m c)
theorem U6_arg8 : U6 m c (Proc.devRef .tc main_arg8) = m ((c.tc : Thread nD τ).loc main_arg8) := (skipF_arg8 _).trans (U5_arg8 m c)
theorem U6_v74 : U6 m c (Proc.devRef .tc main_v74) = val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := F_v74 _ _ _ _ _ _ _ _ (U5_arg2 m c) (U5_v64 m c)
theorem U6_v83 : U6 m c (Proc.devRef .tc main_v83) = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := F_v83 _ _ _ _ _ _ _ _ (U5_arg2 m c) (U5_v64 m c)

/-- The operation list is its seven parts in order. -/
theorem ops_split : (ops : List (HloOp τ sig (Elt F))) = opsA ++ (opsB ++ (opsC ++ (opsD ++ (opsE ++ (opsF ++ opsG))))) := rfl

/-- The result buffer after the whole line: the last stage of the argument arrays. -/
theorem result_eq : after ops (launchContents m c) (Proc.devRef .tc main_v94) = val_main_v94 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [ops_split, after_append, after_append, after_append, after_append, after_append, after_append]
  exact G_v94 _ _ _ _ _ _ _ _ _ _ (U6_v74 m c) (U6_v83 m c) (U6_arg7 m c) (U6_arg8 m c)

theorem arg0_eq : after ops (launchContents m c) (Proc.devRef .tc main_arg0) = m ((c.tc : Thread nD τ).loc main_arg0) :=
  (after_of_forall_not_mem (b := (Proc.devRef .tc main_arg0)) _ _ (List.forall_iff_forall_mem.mp (by ref_not_written ops))).trans rfl
theorem arg1_eq : after ops (launchContents m c) (Proc.devRef .tc main_arg1) = m ((c.tc : Thread nD τ).loc main_arg1) :=
  (after_of_forall_not_mem (b := (Proc.devRef .tc main_arg1)) _ _ (List.forall_iff_forall_mem.mp (by ref_not_written ops))).trans rfl
theorem arg2_eq : after ops (launchContents m c) (Proc.devRef .tc main_arg2) = m ((c.tc : Thread nD τ).loc main_arg2) :=
  (after_of_forall_not_mem (b := (Proc.devRef .tc main_arg2)) _ _ (List.forall_iff_forall_mem.mp (by ref_not_written ops))).trans rfl
theorem arg3_eq : after ops (launchContents m c) (Proc.devRef .tc main_arg3) = m ((c.tc : Thread nD τ).loc main_arg3) :=
  (after_of_forall_not_mem (b := (Proc.devRef .tc main_arg3)) _ _ (List.forall_iff_forall_mem.mp (by ref_not_written ops))).trans rfl
theorem arg4_eq : after ops (launchContents m c) (Proc.devRef .tc main_arg4) = m ((c.tc : Thread nD τ).loc main_arg4) :=
  (after_of_forall_not_mem (b := (Proc.devRef .tc main_arg4)) _ _ (List.forall_iff_forall_mem.mp (by ref_not_written ops))).trans rfl
theorem arg5_eq : after ops (launchContents m c) (Proc.devRef .tc main_arg5) = m ((c.tc : Thread nD τ).loc main_arg5) :=
  (after_of_forall_not_mem (b := (Proc.devRef .tc main_arg5)) _ _ (List.forall_iff_forall_mem.mp (by ref_not_written ops))).trans rfl
theorem arg6_eq : after ops (launchContents m c) (Proc.devRef .tc main_arg6) = m ((c.tc : Thread nD τ).loc main_arg6) :=
  (after_of_forall_not_mem (b := (Proc.devRef .tc main_arg6)) _ _ (List.forall_iff_forall_mem.mp (by ref_not_written ops))).trans rfl
theorem arg7_eq : after ops (launchContents m c) (Proc.devRef .tc main_arg7) = m ((c.tc : Thread nD τ).loc main_arg7) :=
  (after_of_forall_not_mem (b := (Proc.devRef .tc main_arg7)) _ _ (List.forall_iff_forall_mem.mp (by ref_not_written ops))).trans rfl
theorem arg8_eq : after ops (launchContents m c) (Proc.devRef .tc main_arg8) = m ((c.tc : Thread nD τ).loc main_arg8) :=
  (after_of_forall_not_mem (b := (Proc.devRef .tc main_arg8)) _ _ (List.forall_iff_forall_mem.mp (by ref_not_written ops))).trans rfl

/-- On every device, from any memory with zero counters: every weakly fair execution of @main terminates with the result at
    the last stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94) = val_main_v94 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v94).trans (result_eq m c),
      (h c main_arg0).trans (arg0_eq m c),
      (h c main_arg1).trans (arg1_eq m c),
      (h c main_arg2).trans (arg2_eq m c),
      (h c main_arg3).trans (arg3_eq m c),
      (h c main_arg4).trans (arg4_eq m c),
      (h c main_arg5).trans (arg5_eq m c),
      (h c main_arg6).trans (arg6_eq m c),
      (h c main_arg7).trans (arg7_eq m c),
      (h c main_arg8).trans (arg8_eq m c)⟩)
    (run_seq scopedRefs_eq scopedSems_eq defs main (fun _ => ops) main_eq (fun _ => ops_sub) m ρ)

end Cert.ReferenceIdeal.RunS

end
-- ==== Proof.Names.lean ====
/-
  Three functions of the edge list that both programs compute by the same operations, named once: the per-node factor,
  and the raw source and target index words of every edge.
-/
import proofs.«130974_j17119739641949_2_alg».proof.Proof.RefReadP
import Idealize.ShloMosaic.Lib.ValueIdx

noncomputable section

namespace Cert.Names

open Cert.ReferenceIdeal Cert.ReferenceIdeal.ReadP Idealize.ShloMosaic Idealize.ShloMosaic.ValueIdx

/-- The per-node factor: the inverse square root of the degree where the degree is positive, zero elsewhere. -/
def dNode (x0 : (⟨S2x800000, .i32⟩ : BufTy).Contents (Elt Ideal)) (n : Fin 50000) : EReal :=
  val_main_v14 (F := Ideal) x0 (ix1 n)

/-- The raw source index word of edge e (the listed edges, then one self loop per node). -/
def rowW (x0 : (⟨S2x800000, .i32⟩ : BufTy).Contents (Elt Ideal)) (e : Fin 850000) : BitVec 32 :=
  val_main_v3 (F := Ideal) x0 (ix1 e)

/-- The raw target index word of edge e. -/
def colW (x0 : (⟨S2x800000, .i32⟩ : BufTy).Contents (Elt Ideal)) (e : Fin 850000) : BitVec 32 :=
  val_main_v6 (F := Ideal) x0 (ix1 e)

end Cert.Names

end
-- ==== Proof.Spec.lean ====
/-
  The mathematics of the certificate, free of either program.

  A graph convolution over N = 50000 nodes and E = 850000 edges (the listed edges followed by one self loop per node).
  Each edge e carries a source index and a target index as signed 32-bit words.  Reading a node's row wraps a negative
  index by N and clamps the result into [0, N-1] (`node`, `wrap`); adding an edge's message into its target drops the edge
  unless the raw target index is a node (`agg`: the sum over the edges whose raw target index is n).

  With d the per-node factor (the inverse square root of the degree), one layer is written in two ways:
    (R)  sum over edges into n of   g(src e) * (d(src e) * d(tgt e))
    (K)  (sum over edges into n of  g(src e) * d(src e)) * d(n)
  An edge summed into n has raw target index n, so its wrapped and clamped target is n and d(tgt e) = d(n); the common factor
  d(n) then moves across the sum.  On the extended reals that step needs d(n) to be a non-negative real number
  (`sum_mul_of_nonneg_ne_top`), which is what an inverse square root guarded by "degree > 0, else 0" always is.

  The head pairs two nodes per query: (R) concatenates their two feature rows (2 x 128 entries) and contracts with the 256
  weights; (K) contracts each node's row with one half of the weights and adds the two scalars.  A sum over 256 = 128 + 128
  indices splits into the two halves (`Fin.sum_univ_add`).
-/
import Idealize.ShloMosaic.PureOps.Ideal
import Idealize.ShloMosaic.PureOps.Ideal.Laws

noncomputable section

namespace Cert.Spec

open Idealize.ShloMosaic

/-- A start index read signed and clamped into the node range [0, 49999]. -/
def node (v : BitVec 32) : Fin 50000 := ⟨min v.toInt.toNat 49999, by omega⟩

/-- A negative index wrapped by the number of nodes, as the host writes it: select (v <s 0) (v + 50000) v. -/
def wrap (v : BitVec 32) : BitVec 32 :=
  Scalar.select (IntOp.cmpi .slt v 0#32) (IntOp.addi v 50000#32) v

theorem wrap_of_nonneg {v : BitVec 32} (h : 0 ≤ v.toInt) : wrap v = v := by
  have hs : v.slt 0#32 = false := by
    simp only [BitVec.slt, BitVec.toInt_zero, decide_eq_false_iff_not, not_lt]
    exact h
  unfold wrap Scalar.select IntOp.cmpi
  simp only [hs]
  rfl

/-- An index word that IS node n reads node n after wrapping and clamping. -/
theorem node_wrap_of_eq {v : BitVec 32} {n : Fin 50000} (h : v.toInt = (n.val : Int)) : node (wrap v) = n := by
  have h0 : 0 ≤ v.toInt := by omega
  rw [wrap_of_nonneg h0]
  apply Fin.ext
  show min v.toInt.toNat 49999 = n.val
  have := n.isLt
  omega

/-- A non-negative real factor moves across a finite sum of extended reals. -/
theorem sum_mul_of_nonneg_ne_top {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- The sum, over the edges whose raw target index is node n, of the edge's message at feature k. -/
def agg {D : Nat} (colR : Fin 850000 → BitVec 32) (f : Fin 850000 → Fin D → EReal) (n : Fin 50000) (k : Fin D) : EReal :=
  ∑ e ∈ Finset.univ.filter (fun e : Fin 850000 => (colR e).toInt = (n.val : Int)), f e k

/-- THE LAYER LAW: weighting each edge by d(source)·d(target) is scaling by d(source) before the sum and by d(n) after it. -/
theorem agg_law {D : Nat} (d : Fin 50000 → EReal) (hd : ∀ n, 0 ≤ d n ∧ d n ≠ ⊤)
    (rowR colR : Fin 850000 → BitVec 32) (g : Fin 50000 → Fin D → EReal) (n : Fin 50000) (k : Fin D) :
    agg colR (fun e k => g (node (wrap (rowR e))) k * (d (node (wrap (rowR e))) * d (node (wrap (colR e))))) n k
      = agg colR (fun e k => g (node (wrap (rowR e))) k * d (node (wrap (rowR e)))) n k * d n := by
  unfold agg
  rw [sum_mul_of_nonneg_ne_top _ _ (hd n).1 (hd n).2]
  refine Finset.sum_congr rfl fun e he => ?_
  dsimp only
  rw [node_wrap_of_eq (Finset.mem_filter.mp he).2, mul_assoc]

section Chains

variable (d : Fin 50000 → EReal) (rowR colR : Fin 850000 → BitVec 32)
  (X : Fin 50000 → Fin 128 → EReal) (W1 : Fin 128 → Fin 256 → EReal) (b1 : Fin 256 → EReal)
  (W2 : Fin 256 → Fin 128 → EReal) (b2 : Fin 128 → EReal) (z : EReal)

/-- The source node of edge e. -/
abbrev src (e : Fin 850000) : Fin 50000 := node (wrap (rowR e))

/-- The first dense product: features times the first weights. -/
def lin1 (n : Fin 50000) (k : Fin 256) : EReal := ∑ q : Fin 128, X n q * W1 q k

/-! ### The chain with the factor split (K) -/

def scaled1 (n : Fin 50000) (k : Fin 256) : EReal := lin1 X W1 n k * d n
def agg1K (n : Fin 50000) (k : Fin 256) : EReal := agg colR (fun e k => scaled1 d X W1 (src rowR e) k) n k
def act1K (n : Fin 50000) (q : Fin 256) : EReal := max (agg1K d rowR colR X W1 n q * d n + b1 q) z
def scaled2 (n : Fin 50000) (k : Fin 128) : EReal := (∑ q : Fin 256, act1K d rowR colR X W1 b1 z n q * W2 q k) * d n
def agg2K (n : Fin 50000) (k : Fin 128) : EReal := agg colR (fun e k => scaled2 d rowR colR X W1 b1 W2 z (src rowR e) k) n k
def feat2K (n : Fin 50000) (q : Fin 128) : EReal := agg2K d rowR colR X W1 b1 W2 z n q * d n + b2 q

/-! ### The chain with the per-edge weight (R) -/

def agg1R (n : Fin 50000) (k : Fin 256) : EReal :=
  agg colR (fun e k => lin1 X W1 (src rowR e) k * (d (src rowR e) * d (node (wrap (colR e))))) n k
def act1R (n : Fin 50000) (q : Fin 256) : EReal := max (agg1R d rowR colR X W1 n q + b1 q) z
def lin2R (n : Fin 50000) (k : Fin 128) : EReal := ∑ q : Fin 256, act1R d rowR colR X W1 b1 z n q * W2 q k
def agg2R (n : Fin 50000) (k : Fin 128) : EReal :=
  agg colR (fun e k => lin2R d rowR colR X W1 b1 W2 z (src rowR e) k * (d (src rowR e) * d (node (wrap (colR e))))) n k
def feat2R (n : Fin 50000) (q : Fin 128) : EReal := agg2R d rowR colR X W1 b1 W2 z n q + b2 q

variable (hd : ∀ n, 0 ≤ d n ∧ d n ≠ ⊤)
include hd

theorem agg1R_eq (n : Fin 50000) (k : Fin 256) : agg1R d rowR colR X W1 n k = agg1K d rowR colR X W1 n k * d n := by
  unfold agg1R agg1K scaled1
  exact agg_law d hd rowR colR (lin1 X W1) n k

theorem act1_eq : act1R d rowR colR X W1 b1 z = act1K d rowR colR X W1 b1 z := by
  funext n q
  unfold act1R act1K
  rw [agg1R_eq d rowR colR X W1 hd]

theorem scaled2_eq (n : Fin 50000) (k : Fin 128) :
    scaled2 d rowR colR X W1 b1 W2 z n k = lin2R d rowR colR X W1 b1 W2 z n k * d n := by
  unfold scaled2 lin2R
  rw [act1_eq d rowR colR X W1 b1 z hd]

theorem agg2R_eq (n : Fin 50000) (k : Fin 128) :
    agg2R d rowR colR X W1 b1 W2 z n k = agg2K d rowR colR X W1 b1 W2 z n k * d n := by
  unfold agg2R agg2K
  simp only [scaled2_eq d rowR colR X W1 b1 W2 z hd]
  exact agg_law d hd rowR colR (lin2R d rowR colR X W1 b1 W2 z) n k

/-- After two layers the two chains hold the same features. -/
theorem feat2_eq : feat2R d rowR colR X W1 b1 W2 b2 z = feat2K d rowR colR X W1 b1 W2 b2 z := by
  funext n q
  unfold feat2R feat2K
  rw [agg2R_eq d rowR colR X W1 b1 W2 z hd]

end Chains

/-! ### The head -/

/-- A sum over 256 indices is the sum over the first 128 plus the sum over the last 128. -/
theorem sum_256_split (f : Fin 256 → EReal) :
    ∑ q : Fin 256, f q = (∑ q : Fin 128, f ⟨q.val, by omega⟩) + ∑ q : Fin 128, f ⟨128 + q.val, by omega⟩ := by
  have h := Fin.sum_univ_add (M := EReal) (a := 128) (b := 128) f
  rw [h]
  rfl

/-! ### The per-node factor -/

/-- An inverse square root guarded by "the degree is positive, else zero" is a non-negative real number, whatever extended
    real the degree is: at a positive real it is 1/sqrt, at +infinity it is 0, and everywhere else the guard gives 0. -/
theorem guarded_rsqrt (x : EReal) :
    0 ≤ Scalar.select (Ideal.cmp .ogt x 0) (Ideal.rsqrt x) (0 : EReal)
      ∧ Scalar.select (Ideal.cmp .ogt x 0) (Ideal.rsqrt x) (0 : EReal) ≠ ⊤ := by
  have hc : Ideal.cmp .ogt x 0 = BitVec.ofBool (decide ((0 : EReal) < x)) := rfl
  rw [hc]
  unfold Scalar.select
  by_cases h : (0 : EReal) < x
  · have h1 : BitVec.ofBool (decide ((0 : EReal) < x)) = 1 := by simp [h]
    rw [h1, if_pos rfl]
    induction x using EReal.rec with
    | bot => exact absurd h (by simp)
    | top => simp
    | coe r =>
      have hr : 0 < r := by exact_mod_cast h
      rw [Ideal.rsqrt_coe, if_neg (not_lt.mpr hr.le), if_neg hr.ne']
      exact ⟨by exact_mod_cast inv_nonneg.mpr (Real.sqrt_nonneg r), EReal.coe_ne_top _⟩
  · have h0 : BitVec.ofBool (decide ((0 : EReal) < x)) = 0 := by simp [h]
    rw [h0, if_neg (by decide)]
    exact ⟨le_refl _, EReal.zero_ne_top⟩

/-! ### The two scores of a query -/

section Head

variable (feat : Fin 50000 → Fin 128 → EReal) (Wl : Fin 256 → EReal) (bl : EReal) (m0 m1 : Fin 100000 → BitVec 32)

/-- Each node's row contracted with one half of the head weights. -/
def half0 (n : Fin 50000) : EReal := ∑ q : Fin 128, feat n q * Wl ⟨q.val, by omega⟩
def half1 (n : Fin 50000) : EReal := ∑ q : Fin 128, feat n q * Wl ⟨128 + q.val, by omega⟩

/-- (K) the two scalars of the query's two nodes, added, plus the bias. -/
def scoreK (p : Fin 100000) : EReal :=
  half0 feat Wl (node (wrap (m0 p))) + half1 feat Wl (node (wrap (m1 p))) + bl

/-- The two nodes' rows side by side. -/
def pair (p : Fin 100000) (q : Fin 256) : EReal :=
  if h : q.val < 128 then feat (node (wrap (m0 p))) ⟨q.val, h⟩ else feat (node (wrap (m1 p))) ⟨q.val - 128, by omega⟩

/-- (R) the concatenated row contracted with all 256 head weights, plus the bias. -/
def scoreR (p : Fin 100000) : EReal := (∑ q : Fin 256, pair feat m0 m1 p q * Wl q) + bl

theorem score_eq (p : Fin 100000) : scoreR feat Wl bl m0 m1 p = scoreK feat Wl bl m0 m1 p := by
  unfold scoreR scoreK half0 half1
  rw [sum_256_split]
  have e0 : ∀ q : Fin 128, pair feat m0 m1 p ⟨q.val, by omega⟩ = feat (node (wrap (m0 p))) q := fun q => by
    unfold pair
    rw [dif_pos q.isLt]
  have e1 : ∀ q : Fin 128, pair feat m0 m1 p ⟨128 + q.val, by omega⟩ = feat (node (wrap (m1 p))) q := fun q => by
    unfold pair
    rw [dif_neg (by show ¬ (128 + q.val < 128); omega)]
    exact congrArg _ (Fin.ext (by show 128 + q.val - 128 = q.val; omega))
  simp only [e0, e1]

end Head

end Cert.Spec

end
-- ==== Proof.KNames.lean ====
/-
  The kernel program's argument arrays as launched, read as plain functions of coordinates, and the mathematics' chain
  (Spec) instantiated at them: the interface every stage of the kernel's value is stated in.
-/
import proofs.«130974_j17119739641949_2_alg».proof.Proof.Gen.KernelIdeal.Frame
import proofs.«130974_j17119739641949_2_alg».proof.Proof.Names
import proofs.«130974_j17119739641949_2_alg».proof.Proof.Spec

noncomputable section

namespace Cert.KernelIdeal.KNames

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (c : Dev nD)

/-- The edge list. -/
abbrev a0 : (⟨S2x800000, .i32⟩ : BufTy).Contents (Elt Ideal) := m ((c : Thread nD τ).loc main_arg0)
/-- The node features. -/
abbrev a1 : (⟨S50000x128, .f32⟩ : BufTy).Contents (Elt Ideal) := m ((c : Thread nD τ).loc main_arg1)
/-- The query pairs. -/
abbrev a2 : (⟨S100000x2, .i32⟩ : BufTy).Contents (Elt Ideal) := m ((c : Thread nD τ).loc main_arg2)
/-- The first layer's weights and bias. -/
abbrev a3 : (⟨S128x256, .f32⟩ : BufTy).Contents (Elt Ideal) := m ((c : Thread nD τ).loc main_arg3)
abbrev a4 : (⟨S256, .f32⟩ : BufTy).Contents (Elt Ideal) := m ((c : Thread nD τ).loc main_arg4)
/-- The second layer's weights and bias. -/
abbrev a5 : (⟨S256x128, .f32⟩ : BufTy).Contents (Elt Ideal) := m ((c : Thread nD τ).loc main_arg5)
abbrev a6 : (⟨S128, .f32⟩ : BufTy).Contents (Elt Ideal) := m ((c : Thread nD τ).loc main_arg6)
/-- The head's weights and bias. -/
abbrev a7 : (⟨S256x1, .f32⟩ : BufTy).Contents (Elt Ideal) := m ((c : Thread nD τ).loc main_arg7)
abbrev a8 : (⟨S1, .f32⟩ : BufTy).Contents (Elt Ideal) := m ((c : Thread nD τ).loc main_arg8)

def dK (n : Fin 50000) : EReal := Cert.Names.dNode (a0 m c) n
def rowK (e : Fin 850000) : BitVec 32 := Cert.Names.rowW (a0 m c) e
def colK (e : Fin 850000) : BitVec 32 := Cert.Names.colW (a0 m c) e
def Xf (n : Fin 50000) (q : Fin 128) : EReal := a1 m c (ix2 n q)
def W1f (q : Fin 128) (k : Fin 256) : EReal := a3 m c (ix2 q k)
def b1f (k : Fin 256) : EReal := a4 m c (ix1 k)
def W2f (q : Fin 256) (k : Fin 128) : EReal := a5 m c (ix2 q k)
def b2f (k : Fin 128) : EReal := a6 m c (ix1 k)
def Wlf (q : Fin 256) : EReal := a7 m c (ix2 q (0 : Fin 1))
def blf : EReal := a8 m c (ix1 (0 : Fin 1))
def m0f (p : Fin 100000) : BitVec 32 := a2 m c (ix2 p (0 : Fin 2))
def m1f (p : Fin 100000) : BitVec 32 := a2 m c (ix2 p (1 : Fin 2))
/-- The zero the rectifier compares with. -/
def zf : EReal := Ideal.ofBits .f32 0x00000000#32

/-- The chain's stages at the launched arrays. -/
abbrev scaled1K := Cert.Spec.scaled1 (dK m c) (Xf m c) (W1f m c)
abbrev agg1KK := Cert.Spec.agg1K (dK m c) (rowK m c) (colK m c) (Xf m c) (W1f m c)
abbrev scaled2K := Cert.Spec.scaled2 (dK m c) (rowK m c) (colK m c) (Xf m c) (W1f m c) (b1f m c) (W2f m c) zf
abbrev agg2KK := Cert.Spec.agg2K (dK m c) (rowK m c) (colK m c) (Xf m c) (W1f m c) (b1f m c) (W2f m c) zf
abbrev featK := Cert.Spec.feat2K (dK m c) (rowK m c) (colK m c) (Xf m c) (W1f m c) (b1f m c) (W2f m c) (b2f m c) zf
abbrev scoreKK := Cert.Spec.scoreK (featK m c) (Wlf m c) (blf m c) (m0f m c) (m1f m c)

/-- The logistic function as both programs spell it: 1 / (1 + exp (−s)), the ones the float word of 1. -/
def logistic (s : EReal) : EReal :=
  FloatOps.hostDivf (F := Ideal) (φ := .f32) (Ideal.ofBits .f32 0x3F800000#32)
    (FloatOps.addf (F := Ideal) (φ := .f32) (Ideal.ofBits .f32 0x3F800000#32)
      (FloatOps.hostUnary (F := Ideal) (φ := .f32) .exp (FloatOps.hostNegf (F := Ideal) (φ := .f32) s)))

end Cert.KernelIdeal.KNames

end
-- ==== Proof.KernelWalk.lean ====
/-
  Which boundary each buffer was last written at.  A host stretch changes only the buffers its operations write, and a
  region changes only its windows' arrays; so a buffer read at a later boundary holds what it held at the last boundary
  before which it was written: an argument the launch memory, the node factor's column and the two index vectors what the
  first stretches computed.
-/
import proofs.«130974_j17119739641949_2_alg».proof.Proof.Gen.KernelIdeal.Frame

set_option maxRecDepth 16384

noncomputable section

namespace Cert.KernelIdeal.Walk

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A stretch none of whose operations writes `b` leaves `b` as it was. -/
syntax "host_skip " ident : tactic
macro_rules
  | `(tactic| host_skip $ops:ident) => `(tactic|
      exact StableHlo.after_of_forall_not_mem _ _ (List.forall_iff_forall_mem.mp (by
        simp only [$ops:ident, List.flatten_cons, List.flatten_nil, List.append_nil, List.cons_append,
          List.nil_append, List.Forall, StableHlo.nullary_writes, StableHlo.unary_writes, StableHlo.binary_writes,
          StableHlo.ternary_writes, StableHlo.quaternary_writes, StableHlo.reshape_writes, StableHlo.binaryIndexed_writes,
          Finset.mem_singleton]
        repeat' apply And.intro
        all_goals exact StableHlo.devRef_ne_of_ne (by decide))))

/-- The features, at the first region's entry, are the launch memory's. -/
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by host_skip hostOps0_2
    _ = W1 m ρ c (Proc.devRef .tc main_arg1) := by host_skip hostOps0_1
    _ = W0 m ρ c (Proc.devRef .tc main_arg1) := by host_skip hostOps0
    _ = m ((c : Thread nD τ).loc main_arg1) := rfl
/-- The first weights, at the first region's entry, are the launch memory's. -/
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by host_skip hostOps0_2
    _ = W1 m ρ c (Proc.devRef .tc main_arg3) := by host_skip hostOps0_1
    _ = W0 m ρ c (Proc.devRef .tc main_arg3) := by host_skip hostOps0
    _ = m ((c : Thread nD τ).loc main_arg3) := rfl
/-- The first bias, after the first region, is the launch memory's. -/
theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by host_skip hostOps0_2
    _ = W1 m ρ c (Proc.devRef .tc main_arg4) := by host_skip hostOps0_1
    _ = W0 m ρ c (Proc.devRef .tc main_arg4) := by host_skip hostOps0
    _ = m ((c : Thread nD τ).loc main_arg4) := rfl
/-- The second weights, at the second region's entry, are the launch memory's. -/
theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := by host_skip hostOps1
    _ = W3 m ρ c (Proc.devRef .tc main_arg5) := W4_of_ne m ρ c main_arg5 (by decide)
    _ = W2 m ρ c (Proc.devRef .tc main_arg5) := by host_skip hostOps0_2
    _ = W1 m ρ c (Proc.devRef .tc main_arg5) := by host_skip hostOps0_1
    _ = W0 m ρ c (Proc.devRef .tc main_arg5) := by host_skip hostOps0
    _ = m ((c : Thread nD τ).loc main_arg5) := rfl
/-- An argument no segment so far writes: the launch memory's. -/
theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by host_skip hostOps1
    _ = W3 m ρ c (Proc.devRef .tc main_arg6) := W4_of_ne m ρ c main_arg6 (by decide)
    _ = W2 m ρ c (Proc.devRef .tc main_arg6) := by host_skip hostOps0_2
    _ = W1 m ρ c (Proc.devRef .tc main_arg6) := by host_skip hostOps0_1
    _ = W0 m ρ c (Proc.devRef .tc main_arg6) := by host_skip hostOps0
    _ = m ((c : Thread nD τ).loc main_arg6) := rfl
/-- An argument no segment so far writes: the launch memory's. -/
theorem W6_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := by host_skip hostOps1
    _ = W3 m ρ c (Proc.devRef .tc main_arg7) := W4_of_ne m ρ c main_arg7 (by decide)
    _ = W2 m ρ c (Proc.devRef .tc main_arg7) := by host_skip hostOps0_2
    _ = W1 m ρ c (Proc.devRef .tc main_arg7) := by host_skip hostOps0_1
    _ = W0 m ρ c (Proc.devRef .tc main_arg7) := by host_skip hostOps0
    _ = m ((c : Thread nD τ).loc main_arg7) := rfl
/-- An argument no segment so far writes: the launch memory's. -/
theorem W8_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := by host_skip hostOps2
    _ = W5 m ρ c (Proc.devRef .tc main_arg2) := W6_of_ne m ρ c main_arg2 (by decide)
    _ = W4 m ρ c (Proc.devRef .tc main_arg2) := by host_skip hostOps1
    _ = W3 m ρ c (Proc.devRef .tc main_arg2) := W4_of_ne m ρ c main_arg2 (by decide)
    _ = W2 m ρ c (Proc.devRef .tc main_arg2) := by host_skip hostOps0_2
    _ = W1 m ρ c (Proc.devRef .tc main_arg2) := by host_skip hostOps0_1
    _ = W0 m ρ c (Proc.devRef .tc main_arg2) := by host_skip hostOps0
    _ = m ((c : Thread nD τ).loc main_arg2) := rfl
/-- An argument no segment so far writes: the launch memory's. -/
theorem W8_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := by host_skip hostOps2
    _ = W5 m ρ c (Proc.devRef .tc main_arg8) := W6_of_ne m ρ c main_arg8 (by decide)
    _ = W4 m ρ c (Proc.devRef .tc main_arg8) := by host_skip hostOps1
    _ = W3 m ρ c (Proc.devRef .tc main_arg8) := W4_of_ne m ρ c main_arg8 (by decide)
    _ = W2 m ρ c (Proc.devRef .tc main_arg8) := by host_skip hostOps0_2
    _ = W1 m ρ c (Proc.devRef .tc main_arg8) := by host_skip hostOps0_1
    _ = W0 m ρ c (Proc.devRef .tc main_arg8) := by host_skip hostOps0
    _ = m ((c : Thread nD τ).loc main_arg8) := rfl
/-- An index vector, after the first region, is what the first stretch computed. -/
theorem W4_v3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)
/-- An index vector, after the second region, is what the first stretch computed. -/
theorem W6_v3 (c : Dev nD) : W6 m ρ c (Proc.devRef .tc main_v3) = W3 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by host_skip hostOps1
    _ = W3 m ρ c (Proc.devRef .tc main_v3) := W4_of_ne m ρ c main_v3 (by decide)
/-- An index vector, after the first region, is what the first stretch computed. -/
theorem W4_v6 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)
/-- An index vector, after the second region, is what the first stretch computed. -/
theorem W6_v6 (c : Dev nD) : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by host_skip hostOps1
    _ = W3 m ρ c (Proc.devRef .tc main_v6) := W4_of_ne m ρ c main_v6 (by decide)
/-- The node factor's column is an input of the first region: unchanged by it. -/
theorem W4_v15 (c : Dev nD) : W4 m ρ c (Proc.devRef .tc main_v15) = W3 m ρ c (Proc.devRef .tc main_v15) :=
  calc W4 m ρ c (Proc.devRef .tc main_v15)
    _ = W3 m ρ c (Proc.devRef .tc main_v15) := (W4_arr m ρ c 2).trans (((dat0 (V3 m ρ) c).arrAt_in 2 rfl _).trans (A_eq0 (V3 m ρ) c 2))
/-- The node factor's column at the second region's entry. -/
theorem W5_v15 (c : Dev nD) : W5 m ρ c (Proc.devRef .tc main_v15) = W3 m ρ c (Proc.devRef .tc main_v15) :=
  calc W5 m ρ c (Proc.devRef .tc main_v15)
    _ = W4 m ρ c (Proc.devRef .tc main_v15) := by host_skip hostOps1
    _ = W3 m ρ c (Proc.devRef .tc main_v15) := W4_v15 m ρ c
/-- The node factor's column at the third region's entry. -/
theorem W7_v15 (c : Dev nD) : W7 m ρ c (Proc.devRef .tc main_v15) = W3 m ρ c (Proc.devRef .tc main_v15) :=
  calc W7 m ρ c (Proc.devRef .tc main_v15)
    _ = W6 m ρ c (Proc.devRef .tc main_v15) := by host_skip hostOps2
    _ = W5 m ρ c (Proc.devRef .tc main_v15) := (W6_arr m ρ c 1).trans (((dat1 (V5 m ρ) c).arrAt_in 1 rfl _).trans (A_eq1 (V5 m ρ) c 1))
    _ = W3 m ρ c (Proc.devRef .tc main_v15) := W5_v15 m ρ c

end Cert.KernelIdeal.Walk

end
-- ==== Proof.LibHostIdx.lean ====
/-
  Layout operations of the host programs read at an index, over literal ranks: a vector broadcast into a one-column
  matrix, a vector cast to a one-column or one-row matrix and back.  Each moves no data: the element at (e, 0) or (0, k)
  of the matrix is the vector's element e or k.
-/
import Idealize.ShloMosaic.Lib.ValueIdx
import Idealize.ShloMosaic.Lib.Pipeline.Value

noncomputable section

namespace Cert.Lib.HostIdx

open Idealize.ShloMosaic Idealize.ShloMosaic.ValueIdx

variable {α : Type}

/-- A vector broadcast along axis 0 into a one-column matrix: entry (e, 0) is the vector's entry e. -/
theorem bcastCol_apply {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) :=
  broadcastInDim_apply _ h v (ix2 e (0 : Fin 1)) (ix1 e) (fun a => match a with
    | ⟨0, _⟩ => by
      show e.val = if E = 1 then 0 else e.val
      split
      · have := e.isLt; omega
      · rfl)

/-- A vector cast to a one-column matrix: entry (n, 0) is the vector's entry n. -/
theorem castCol_apply {N : Nat} (h : (⟨1, ![N]⟩ : Shape).ShapeCasts ⟨2, ![N, 1]⟩)
    (v : (⟨1, ![N]⟩ : Shape).Idx → α) (n : Fin N) :
    shapeCast ⟨2, ![N, 1]⟩ v h (ix2 n (0 : Fin 1)) = v (ix1 n) :=
  shapeCast_apply v h (ix2 n (0 : Fin 1)) (ix1 n) (by
    rw [Shape.rowMajor_val_one, Shape.rowMajor_val_two]
    show n.val = n.val * 1 + 0
    omega)

/-- A one-column matrix cast to a vector: entry n is the matrix's entry (n, 0). -/
theorem castFlat_apply {N : Nat} (h : (⟨2, ![N, 1]⟩ : Shape).ShapeCasts ⟨1, ![N]⟩)
    (v : (⟨2, ![N, 1]⟩ : Shape).Idx → α) (n : Fin N) :
    shapeCast ⟨1, ![N]⟩ v h (ix1 n) = v (ix2 n (0 : Fin 1)) :=
  shapeCast_apply v h (ix1 n) (ix2 n (0 : Fin 1)) (by
    rw [Shape.rowMajor_val_one, Shape.rowMajor_val_two]
    show n.val * 1 + 0 = n.val
    omega)

/-- A vector cast to a one-row matrix: entry (0, k) is the vector's entry k. -/
theorem castRow_apply {D : Nat} (h : (⟨1, ![D]⟩ : Shape).ShapeCasts ⟨2, ![1, D]⟩)
    (v : (⟨1, ![D]⟩ : Shape).Idx → α) (k : Fin D) :
    shapeCast ⟨2, ![1, D]⟩ v h (ix2 (0 : Fin 1) k) = v (ix1 k) :=
  shapeCast_apply v h (ix2 (0 : Fin 1) k) (ix1 k) (by
    rw [Shape.rowMajor_val_one, Shape.rowMajor_val_two]
    show k.val = 0 * D + k.val
    omega)

/-- A one-column matrix cast to a one-row matrix: entry (0, q) is the column's entry (q, 0). -/
theorem castColRow_apply {D : Nat} (h : (⟨2, ![D, 1]⟩ : Shape).ShapeCasts ⟨2, ![1, D]⟩)
    (v : (⟨2, ![D, 1]⟩ : Shape).Idx → α) (q : Fin D) :
    shapeCast ⟨2, ![1, D]⟩ v h (ix2 (0 : Fin 1) q) = v (ix2 q (0 : Fin 1)) :=
  shapeCast_apply v h (ix2 (0 : Fin 1) q) (ix2 q (0 : Fin 1)) (by
    rw [Shape.rowMajor_val_two, Shape.rowMajor_val_two]
    show q.val * 1 + 0 = 0 * D + q.val
    omega)

end Cert.Lib.HostIdx

end
-- ==== Proof.KernelPre.lean ====
/-
  What the kernel program's first host stretches leave, named by the reference program's own stages.  Both programs begin
  with the same operations on the edge list: the two index vectors (source and target of every edge, self loops appended),
  the degree of every node (a scatter-add of ones), and the per-node factor (its inverse square root where the degree is
  positive, zero elsewhere).  The kernel program then reshapes the factor into a column.
-/
import proofs.«130974_j17119739641949_2_alg».proof.Proof.Gen.KernelIdeal.Frame
import proofs.«130974_j17119739641949_2_alg».proof.Proof.RefReadP
import proofs.«130974_j17119739641949_2_alg».proof.Proof.Names
import proofs.«130974_j17119739641949_2_alg».proof.Proof.KernelWalk
import proofs.«130974_j17119739641949_2_alg».proof.Proof.LibHostIdx
import Idealize.ShloMosaic.Lib.StableHlo.Run

set_option maxRecDepth 16384

noncomputable section

namespace Cert.KernelIdeal.Pre

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The edge list as launched. -/
abbrev edges (c : Dev nD) : (⟨S2x800000, .i32⟩ : BufTy).Contents (Elt Ideal) := m ((c : Thread nD τ).loc main_arg0)

set_option maxHeartbeats 1600000 in
/-- The source index vector. -/
theorem W1_v3 (c : Dev nD) : W1 m ρ c (Proc.devRef .tc main_v3) = Cert.ReferenceIdeal.ReadP.val_main_v3 (F := Ideal) (edges m c) := by
  show StableHlo.after hostOps0 (W0 m ρ c) (Proc.devRef .tc main_v3) = _
  after_results
  rfl

set_option maxHeartbeats 1600000 in
/-- The target index vector. -/
theorem W1_v6 (c : Dev nD) : W1 m ρ c (Proc.devRef .tc main_v6) = Cert.ReferenceIdeal.ReadP.val_main_v6 (F := Ideal) (edges m c) := by
  show StableHlo.after hostOps0 (W0 m ρ c) (Proc.devRef .tc main_v6) = _
  after_results
  rfl

set_option maxHeartbeats 1600000 in
/-- "The degree is positive", node by node. -/
theorem W1_v12 (c : Dev nD) : W1 m ρ c (Proc.devRef .tc main_v12) = Cert.ReferenceIdeal.ReadP.val_main_v12 (F := Ideal) (edges m c) := by
  show StableHlo.after hostOps0 (W0 m ρ c) (Proc.devRef .tc main_v12) = _
  after_results
  rfl

set_option maxHeartbeats 1600000 in
/-- The inverse square root of the degree, node by node. -/
theorem W1_v13 (c : Dev nD) : W1 m ρ c (Proc.devRef .tc main_v13) = Cert.ReferenceIdeal.ReadP.val_main_v13 (F := Ideal) (edges m c) := by
  show StableHlo.after hostOps0 (W0 m ρ c) (Proc.devRef .tc main_v13) = _
  after_results
  rfl

/-- The zero the guard falls back to. -/
theorem W1_cst_2 (c : Dev nD) : W1 m ρ c (Proc.devRef .tc main_cst_2) = Cert.ReferenceIdeal.ReadP.val_main_cst_2 (F := Ideal) := by
  show StableHlo.after hostOps0 (W0 m ρ c) (Proc.devRef .tc main_cst_2) = _
  after_results
  rfl

/-- The per-node factor: the guard's select of the inverse square root and the zero. -/
theorem W2_v14 (c : Dev nD) : W2 m ρ c (Proc.devRef .tc main_v14) = Cert.ReferenceIdeal.ReadP.val_main_v14 (F := Ideal) (edges m c) := by
  have h12 := W1_v12 m ρ c
  have h13 := W1_v13 m ρ c
  have hc := W1_cst_2 m ρ c
  show StableHlo.after hostOps0_1 (W1 m ρ c) (Proc.devRef .tc main_v14) = _
  revert h12 h13 hc
  generalize W1 m ρ c = U
  intro h12 h13 hc
  after_results
  rw [h12, h13, hc]
  -- a typed reference's transport of contents is the identity at a literal reference
  have t14 : ∀ v : (⟨S50000, .f32⟩ : BufTy).Contents (Elt Ideal), (TRef.of (sig := sig) (T := ⟨S50000, .f32⟩) main_v14).toBuf v = v := fun _ => rfl
  have o12 : ∀ v, (TRef.of (sig := sig) (T := ⟨S50000, .i1⟩) main_v12).ofBuf (Val := Elt Ideal) v = v := fun _ => rfl
  have o13 : ∀ v, (TRef.of (sig := sig) (T := ⟨S50000, .f32⟩) main_v13).ofBuf (Val := Elt Ideal) v = v := fun _ => rfl
  have o1 : ∀ v, (TRef.of (sig := sig) (T := ⟨S50000, .f32⟩) main_call0_v1).ofBuf (Val := Elt Ideal) v = v := fun _ => rfl
  have t1 : ∀ v : (⟨S50000, .f32⟩ : BufTy).Contents (Elt Ideal), (TRef.of (sig := sig) (T := ⟨S50000, .f32⟩) main_call0_v1).toBuf v = v := fun _ => rfl
  have o0 : ∀ v, (TRef.of (sig := sig) (T := ⟨S_, .f32⟩) main_call0_v0).ofBuf (Val := Elt Ideal) v = v := fun _ => rfl
  have t0 : ∀ v : (⟨S_, .f32⟩ : BufTy).Contents (Elt Ideal), (TRef.of (sig := sig) (T := ⟨S_, .f32⟩) main_call0_v0).toBuf v = v := fun _ => rfl
  have oc : ∀ v, (TRef.of (sig := sig) (T := ⟨S_, .f32⟩) main_cst_2).ofBuf (Val := Elt Ideal) v = v := fun _ => rfl
  rw [t14, o12, o13, o1, t1, o0, t0, oc]
  rfl

/-- The source index vector at the first region's entry. -/
theorem W3_v3 (c : Dev nD) : W3 m ρ c (Proc.devRef .tc main_v3) = Cert.ReferenceIdeal.ReadP.val_main_v3 (F := Ideal) (edges m c) :=
  calc W3 m ρ c (Proc.devRef .tc main_v3)
    _ = W2 m ρ c (Proc.devRef .tc main_v3) := by host_skip hostOps0_2
    _ = W1 m ρ c (Proc.devRef .tc main_v3) := by host_skip hostOps0_1
    _ = _ := W1_v3 m ρ c

/-- The target index vector at the first region's entry. -/
theorem W3_v6 (c : Dev nD) : W3 m ρ c (Proc.devRef .tc main_v6) = Cert.ReferenceIdeal.ReadP.val_main_v6 (F := Ideal) (edges m c) :=
  calc W3 m ρ c (Proc.devRef .tc main_v6)
    _ = W2 m ρ c (Proc.devRef .tc main_v6) := by host_skip hostOps0_2
    _ = W1 m ρ c (Proc.devRef .tc main_v6) := by host_skip hostOps0_1
    _ = _ := W1_v6 m ρ c

/-- The factor's column at the first region's entry: row n holds node n's factor. -/
theorem W3_col (c : Dev nD) (n : Fin 50000) :
    W3 m ρ c (Proc.devRef .tc main_v15) (ix2 n (0 : Fin 1)) = Cert.Names.dNode (edges m c) n := by
  have h := W2_v14 m ρ c
  show StableHlo.after hostOps0_2 (W2 m ρ c) (Proc.devRef .tc main_v15) (ix2 n (0 : Fin 1)) = _
  revert h
  generalize W2 m ρ c = U
  intro h
  after_results
  show shapeCast S50000x1 (U (Proc.devRef .tc main_v14)) shapeCasts_S50000_S50000x1 (ix2 n (0 : Fin 1)) = _
  rw [h]
  exact Cert.Lib.HostIdx.castCol_apply (N := 50000) _ _ n

end Cert.KernelIdeal.Pre

end
-- ==== Proof.BodyOps.lean ====
import proofs.«130974_j17119739641949_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The non-pointwise operations of the two matrix-product bodies, read at an entry

Both bodies multiply a block of rows by a whole weight matrix and scale each row of the product by the
entry of a one-column block on that row. Read at the entry (p, k) of the result this needs two facts:
a one-column block broadcast along the lanes reads its entry on row p, and the product accumulated into
the zero block reads the sum over the contracted axis of the products of row p and column k.
-/

noncomputable section

namespace Cert.KernelIdeal.RegionValue

open Idealize.ShloMosaic Idealize.ShloMosaic.ValueIdx
open scoped BigOperators

/-- A one-column block `[a, 1]` broadcast to `[a, b]` reads, at `(p, k)`, the column's entry on row `p`. -/
theorem broadcastTo_a1_ab_apply {α : Type} {a b : ℕ} (ha : a ≠ 1) (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    rw [if_neg ha]
  | ⟨1, _⟩ => rfl

/-! ### The 5000×128 by 128×256 block product read at an entry -/

theorem mm_5000x128x256_lhs_row (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem mm_5000x128x256_lhs_col (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem mm_5000x128x256_rhs_row (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem mm_5000x128x256_rhs_col (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- Entry (p, k) of the product accumulated into the zero block is the sum over the contracted axis of
    row p of the left factor against column k of the right factor. -/
theorem mm_5000x128x256_apply {φ₁ φ₂ : FTy} (l : FVec Ideal S5000x128 φ₁) (r : FVec Ideal S128x256 φ₂) (p : Fin 5000) (k : Fin 256) :
    matmul dot_S5000x128_S128x256_S5000x256_1_0_0_1_n_n none l r (constant (F := Ideal) S5000x256 .f32 0x00000000#32) (ix2 p k)
      = ∑ q : Fin 128, l (ix2 p q) * r (ix2 q k) := by
  simp only [matmul]
  rw [Ideal.matmul_constant_zero_apply, ← Equiv.sum_comp (ValueIdx.contrEquiv1 dot_S5000x128_S128x256_S5000x256_1_0_0_1_n_n 128 rfl rfl).symm]
  refine Finset.sum_congr rfl fun q _ => ?_
  have hq := ValueIdx.contrEquiv1_symm_val dot_S5000x128_S128x256_S5000x256_1_0_0_1_n_n 128 rfl rfl q
  have el : dot_S5000x128_S128x256_S5000x256_1_0_0_1_n_n.lhsIdx (ix2 p k) ((ValueIdx.contrEquiv1 dot_S5000x128_S128x256_S5000x256_1_0_0_1_n_n 128 rfl rfl).symm q) = ix2 p q := funext fun a => Fin.ext (by
    match a with
    | ⟨0, _⟩ => exact mm_5000x128x256_lhs_row _ _
    | ⟨1, _⟩ => exact (mm_5000x128x256_lhs_col _ _).trans hq)
  have er : dot_S5000x128_S128x256_S5000x256_1_0_0_1_n_n.rhsIdx (ix2 p k) ((ValueIdx.contrEquiv1 dot_S5000x128_S128x256_S5000x256_1_0_0_1_n_n 128 rfl rfl).symm q) = ix2 q k := funext fun a => Fin.ext (by
    match a with
    | ⟨0, _⟩ => exact (mm_5000x128x256_rhs_row _ _).trans hq
    | ⟨1, _⟩ => exact mm_5000x128x256_rhs_col _ _)
  rw [el, er]

/-! ### The 5000×256 by 256×128 block product read at an entry -/

theorem mm_5000x256x128_lhs_row (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem mm_5000x256x128_lhs_col (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem mm_5000x256x128_rhs_row (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem mm_5000x256x128_rhs_col (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Entry (p, k) of the product accumulated into the zero block is the sum over the contracted axis of
    row p of the left factor against column k of the right factor. -/
theorem mm_5000x256x128_apply {φ₁ φ₂ : FTy} (l : FVec Ideal S5000x256 φ₁) (r : FVec Ideal S256x128 φ₂) (p : Fin 5000) (k : Fin 128) :
    matmul dot_S5000x256_S256x128_S5000x128_1_0_0_1_n_n none l r (constant (F := Ideal) S5000x128 .f32 0x00000000#32) (ix2 p k)
      = ∑ q : Fin 256, l (ix2 p q) * r (ix2 q k) := by
  simp only [matmul]
  rw [Ideal.matmul_constant_zero_apply, ← Equiv.sum_comp (ValueIdx.contrEquiv1 dot_S5000x256_S256x128_S5000x128_1_0_0_1_n_n 256 rfl rfl).symm]
  refine Finset.sum_congr rfl fun q _ => ?_
  have hq := ValueIdx.contrEquiv1_symm_val dot_S5000x256_S256x128_S5000x128_1_0_0_1_n_n 256 rfl rfl q
  have el : dot_S5000x256_S256x128_S5000x128_1_0_0_1_n_n.lhsIdx (ix2 p k) ((ValueIdx.contrEquiv1 dot_S5000x256_S256x128_S5000x128_1_0_0_1_n_n 256 rfl rfl).symm q) = ix2 p q := funext fun a => Fin.ext (by
    match a with
    | ⟨0, _⟩ => exact mm_5000x256x128_lhs_row _ _
    | ⟨1, _⟩ => exact (mm_5000x256x128_lhs_col _ _).trans hq)
  have er : dot_S5000x256_S256x128_S5000x128_1_0_0_1_n_n.rhsIdx (ix2 p k) ((ValueIdx.contrEquiv1 dot_S5000x256_S256x128_S5000x128_1_0_0_1_n_n 256 rfl rfl).symm q) = ix2 q k := funext fun a => Fin.ext (by
    match a with
    | ⟨0, _⟩ => exact (mm_5000x256x128_rhs_row _ _).trans hq
    | ⟨1, _⟩ => exact mm_5000x256x128_rhs_col _ _)
  rw [el, er]

end Cert.KernelIdeal.RegionValue

end
-- ==== Proof.Region0Value.lean ====
import proofs.«130974_j17119739641949_2_alg».proof.Proof.Gen.KernelIdeal.Frame
import proofs.«130974_j17119739641949_2_alg».proof.Proof.BodyOps
import Idealize.ShloMosaic.Lib.ValueIdx
import Idealize.ShloMosaic.Lib.Pipeline.Value
import Idealize.ShloMosaic.Lib.ValueLayout
import Idealize.ShloMosaic.PureOps.Ideal.Laws

/-!
# What the first region leaves in its output array

The first region walks ten blocks of 5000 rows. At each block it multiplies the block of rows of the
feature matrix by the whole weight matrix and scales every row of the product by that row's entry of the
one-column degree array. Hence entry (n, k) of the array it leaves is
`(∑ q, X (n, q) * W (q, k)) * d (n, 0)`, whatever the buffers hold when the region is entered.
-/

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zero_offsets0 : (![0, 0] : Fin 2 → Nat) = fun _ => 0 := funext fun a => by fin_cases a <;> rfl

/-! ## The body's result at an entry of its block -/

/-- Entry (r, k) of what the body stores: row r of the row block against column k of the weights,
    scaled by the one-column block's entry on row r. -/
theorem k0_pay1_apply (x0 : Vec Ideal S5000x128 .f32) (x1 : Vec Ideal S128x256 .f32) (x2 : Vec Ideal S5000x1 .f32)
    (r : Fin 5000) (k : Fin 256) :
    k0_pay1 (F := Ideal) x0 x1 x2 (ix2 r k)
      = (∑ q : Fin 128, x0 (ix2 r q) * x1 (ix2 q k)) * x2 (ix2 r (0 : Fin 1)) := by
  unfold k0_pay1
  refine (mulf_apply _ _ (ix2 r k)).trans ?_
  rw [mm_5000x128x256_apply, broadcastTo_a1_ab_apply (by decide), shapeCast_self]
  rfl

/-! ## The whole array as one function of the arrays the region reads -/

/-- Entry (n, k) of the scaled product of the whole arrays. -/
def scaledProduct0 (X : (⟨S50000x128, .f32⟩ : BufTy).Contents (Elt Ideal)) (W : (⟨S128x256, .f32⟩ : BufTy).Contents (Elt Ideal))
    (Dc : (⟨S50000x1, .f32⟩ : BufTy).Contents (Elt Ideal)) (n : Fin 50000) (k : Fin 256) : EReal :=
  (∑ q : Fin 128, X (ix2 n q) * W (ix2 q k)) * Dc (ix2 n (0 : Fin 1))

/-- The scaled product spelt out. -/
theorem scaledProduct0_eq (X : (⟨S50000x128, .f32⟩ : BufTy).Contents (Elt Ideal)) (W : (⟨S128x256, .f32⟩ : BufTy).Contents (Elt Ideal))
    (Dc : (⟨S50000x1, .f32⟩ : BufTy).Contents (Elt Ideal)) (n : Fin 50000) (k : Fin 256) :
    scaledProduct0 X W Dc n k = (∑ q : Fin 128, X (ix2 n q) * W (ix2 q k)) * Dc (ix2 n (0 : Fin 1)) := rfl

/-- The same as an array. -/
def scaledProductArr0 (X : (⟨S50000x128, .f32⟩ : BufTy).Contents (Elt Ideal)) (W : (⟨S128x256, .f32⟩ : BufTy).Contents (Elt Ideal))
    (Dc : (⟨S50000x1, .f32⟩ : BufTy).Contents (Elt Ideal)) : (⟨S50000x256, .f32⟩ : BufTy).Contents (Elt Ideal) :=
  fun i => scaledProduct0 X W Dc ⟨(i 0).val, idx2_lt0 i⟩ ⟨(i 1).val, idx2_lt1 i⟩

/-! ## The windows' index maps over the grid -/

/-- The row-blocked windows move together along the rows, the weight window stays, and no window moves
    along the columns. -/
theorem index_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (0 : Fin 2) = t.val
    ∧ win0_3.index t (1 : Fin 2) = 0 :=
  (by decide +kernel : ∀ t : Fin grid0.N, _)

/-! ## Each input block read off its array -/

/-- Row r of the row block at point t is row `5000 * t + r` of the feature matrix. -/
theorem iblk0_0_apply (c : Dev nD) (t : Fin cfg0.N) (r : Fin 5000) (q : Fin 128) (n : Fin 50000)
    (hn : n.val = t.val * 5000 + r.val) :
    (iblk0 V c 0 t : Vec Ideal S5000x128 .f32) (ix2 r q)
      = (V c main_arg1 : (⟨S50000x128, .f32⟩ : BufTy).Contents (Elt Ideal)) (ix2 n q) := by
  obtain ⟨e0, e1, -, -, -, -, e6, -⟩ := index_facts0 t
  unfold iblk0
  rw [View.read_apply]
  show V c main_arg1 (((cfg0.win 0).blk t).view.emb (ix2 r q)) = V c main_arg1 (ix2 n q)
  refine congrArg _ (funext fun a => Fin.ext ?_)
  match a with
  | ⟨0, _⟩ => show win0_0.index t (0 : Fin 2) * 5000 + 1 * r.val = n.val; omega
  | ⟨1, _⟩ => show win0_0.index t (1 : Fin 2) * 128 + 1 * q.val = q.val; omega

/-- The weight block at every point is the whole weight matrix. -/
theorem iblk0_1_apply (c : Dev nD) (t : Fin cfg0.N) (q : Fin 128) (k : Fin 256) :
    (iblk0 V c 1 t : Vec Ideal S128x256 .f32) (ix2 q k)
      = (V c main_arg3 : (⟨S128x256, .f32⟩ : BufTy).Contents (Elt Ideal)) (ix2 q k) := by
  obtain ⟨-, -, e2, e3, -, -, -, -⟩ := index_facts0 t
  unfold iblk0
  rw [View.read_apply]
  show V c main_arg3 (((cfg0.win 1).blk t).view.emb (ix2 q k)) = V c main_arg3 (ix2 q k)
  refine congrArg _ (funext fun a => Fin.ext ?_)
  match a with
  | ⟨0, _⟩ => show win0_1.index t (0 : Fin 2) * 128 + 1 * q.val = q.val; omega
  | ⟨1, _⟩ => show win0_1.index t (1 : Fin 2) * 256 + 1 * k.val = k.val; omega

/-- Row r of the one-column block at point t is row `5000 * t + r` of the one-column array. -/
theorem iblk0_2_apply (c : Dev nD) (t : Fin cfg0.N) (r : Fin 5000) (n : Fin 50000)
    (hn : n.val = t.val * 5000 + r.val) :
    (iblk0 V c 2 t : Vec Ideal S5000x1 .f32) (ix2 r (0 : Fin 1))
      = (V c main_v15 : (⟨S50000x1, .f32⟩ : BufTy).Contents (Elt Ideal)) (ix2 n (0 : Fin 1)) := by
  obtain ⟨-, -, -, -, e4, e5, e6, -⟩ := index_facts0 t
  unfold iblk0
  rw [View.read_apply]
  show V c main_v15 (((cfg0.win 2).blk t).view.emb (ix2 r (0 : Fin 1))) = V c main_v15 (ix2 n (0 : Fin 1))
  refine congrArg _ (funext fun a => Fin.ext ?_)
  match a with
  | ⟨0, _⟩ => show win0_2.index t (0 : Fin 2) * 5000 + 1 * r.val = n.val; omega
  | ⟨1, _⟩ => show win0_2.index t (1 : Fin 2) * 1 + 1 * 0 = 0; omega

/-! ## What each point writes back, and the array after the last point -/

/-- Point t writes back block t of the scaled product of the arrays as the region finds them. -/
theorem flushed0_3_eq (c : Dev nD) (t : Fin cfg0.N) :
    (dat0 V c).flushed 3 t
      = ((cfg0.win 3).blk t).view.read (Elt Ideal) (scaledProductArr0 (V c main_arg1) (V c main_arg3) (V c main_v15)) := by
  show (cfg0.win 3).cut (grid0.coords t) ((dat0 V c).after 3 t) = _
  rw [after0_3]
  unfold out0_3
  rw [View.canon_unit_zero zero_offsets0]
  simp only [View.ld_unit_zero (S := S5000x128) zero_offsets0, View.ld_unit_zero (S := S128x256) zero_offsets0,
    View.ld_unit_zero (S := S5000x1) zero_offsets0]
  obtain ⟨-, -, -, -, -, -, e6, e7⟩ := index_facts0 t
  have hN : cfg0.N = 10 := N_0
  have ht : t.val < 10 := hN ▸ t.isLt
  funext j
  obtain ⟨r, k, rfl⟩ : ∃ (r : Fin 5000) (k : Fin 256), j = ix2 r k := ⟨j 0, j 1, eq_ix2 j⟩
  have hr : r.val < 5000 := r.isLt
  show k0_pay1 (F := Ideal) (iblk0 V c 0 t) (iblk0 V c 1 t) (iblk0 V c 2 t) (ix2 r k)
    = scaledProductArr0 (V c main_arg1) (V c main_arg3) (V c main_v15) (((cfg0.win 3).blk t).view.emb (ix2 r k))
  refine (k0_pay1_apply (iblk0 V c 0 t) (iblk0 V c 1 t) (iblk0 V c 2 t) r k).trans ?_
  have h0 : ((((cfg0.win 3).blk t).view.emb (ix2 r k)) 0).val = t.val * 5000 + r.val := by
    show win0_3.index t (0 : Fin 2) * 5000 + 1 * r.val = _; omega
  have h1 : ((((cfg0.win 3).blk t).view.emb (ix2 r k)) 1).val = k.val := by
    show win0_3.index t (1 : Fin 2) * 256 + 1 * k.val = _; omega
  unfold scaledProductArr0 scaledProduct0
  rw [iblk0_2_apply V c t r ⟨t.val * 5000 + r.val, by omega⟩ rfl]
  have ek : (⟨((((cfg0.win 3).blk t).view.emb (ix2 r k)) 1).val, idx2_lt1 _⟩ : Fin 256) = k := Fin.ext h1
  have en : (⟨((((cfg0.win 3).blk t).view.emb (ix2 r k)) 0).val, idx2_lt0 _⟩ : Fin 50000) = ⟨t.val * 5000 + r.val, by omega⟩ := Fin.ext h0
  rw [ek, en]
  refine congrArg (· * _) (Finset.sum_congr rfl fun q _ => ?_)
  rw [iblk0_0_apply V c t r q ⟨t.val * 5000 + r.val, by omega⟩ rfl, iblk0_1_apply V c t q k]

/-- An index of the array is in point t's block iff each coordinate is in the block's range on its axis. -/
theorem mem_blk0_3 (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v16).slice (win0_3.rect t)).set ↔ _
  rw [View.set_slice_whole, Rect.mem_set_unit]
  exact Iff.rfl

/-- Row n lies in the block of point `n / 5000`: the ten blocks cover the array. -/
theorem cover0_3_rows (i : S50000x256.Idx) :
    ∃ t : Fin cfg0.N, (cfg0.win 3).flush t = true ∧ i ∈ ((cfg0.win 3).blk t).view.set := by
  have hN : cfg0.N = 10 := N_0
  have hi0 : (i 0).val < 50000 := idx2_lt0 i
  have hi1 : (i 1).val < 256 := idx2_lt1 i
  have hlt : (i 0).val / 5000 < cfg0.N := by rw [hN]; omega
  obtain ⟨t, ht⟩ : ∃ t : Fin cfg0.N, t.val = (i 0).val / 5000 := ⟨⟨(i 0).val / 5000, hlt⟩, rfl⟩
  refine ⟨t, flush0_3 t, ?_⟩
  rw [mem_blk0_3]
  obtain ⟨-, -, -, -, -, -, e6, e7⟩ := index_facts0 t
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 256 ≤ (i 1).val ∧ (i 1).val < win0_3.index t (1 : Fin 2) * 256 + 256
    omega

/-- The array the region leaves is the scaled product of the arrays it finds. -/
theorem arr0_3_eq (c : Dev nD) :
    (dat0 V c).arrAt 3 cfg0.N = scaledProductArr0 (V c main_arg1) (V c main_arg3) (V c main_v15) :=
  (dat0 V c).arrAt_eq_of_cover 3 _ (fun t _ => flushed0_3_eq V c t) cover0_3_rows

/-- Entry (n, k) of the array the region leaves. -/
theorem region0_apply (c : Dev nD) (n : Fin 50000) (k : Fin 256) :
    (dat0 V c).arrAt 3 cfg0.N (ix2 n k) = scaledProduct0 (V c main_arg1) (V c main_arg3) (V c main_v15) n k := by
  rw [arr0_3_eq]
  rfl

end Cert.KernelIdeal.RegionValue

end
-- ==== Proof.KStage1.lean ====
/-
  The first region's array.  Its body multiplies each block of 5000 feature rows with the first weights and scales row n by
  node n's factor; over the ten blocks that is, for every node n and hidden unit k, (sum over q of X[n,q]·W1[q,k]) · d(n).
-/
import proofs.«130974_j17119739641949_2_alg».proof.Proof.KNames
import proofs.«130974_j17119739641949_2_alg».proof.Proof.KernelWalk
import proofs.«130974_j17119739641949_2_alg».proof.Proof.KernelPre
import proofs.«130974_j17119739641949_2_alg».proof.Proof.Region0Value

set_option maxRecDepth 16384

noncomputable section

namespace Cert.KernelIdeal.Stage1

open Cert.KernelIdeal Cert.KernelIdeal.Gen
open Idealize.ShloMosaic Idealize.ShloMosaic.TcCoe Idealize.SL.Sem Idealize.ShloMosaic.ValueIdx
open scoped BigOperators

/-- The scaled product at entry (n, k) depends on its three arrays only through row n of the first, column k of the
    second and entry n of the column. -/
theorem scaledProduct0_of (X : (⟨S50000x128, .f32⟩ : BufTy).Contents (Elt Ideal)) (W : (⟨S128x256, .f32⟩ : BufTy).Contents (Elt Ideal))
    (Dc : (⟨S50000x1, .f32⟩ : BufTy).Contents (Elt Ideal)) (n : Fin 50000) (k : Fin 256)
    (xK : Fin 128 → EReal) (d : EReal) (wK : Fin 128 → EReal)
    (hX : ∀ q, X (ix2 n q) = xK q) (hD : Dc (ix2 n (0 : Fin 1)) = d) (hW : ∀ q, W (ix2 q k) = wK q) :
    RegionValue.scaledProduct0 X W Dc n k = (∑ q : Fin 128, xK q * wK q) * d := by
  rw [RegionValue.scaledProduct0_eq, hD]
  refine congrArg (fun s : EReal => s * d) (Finset.sum_congr rfl fun q _ => ?_)
  rw [hX q, hW q]

variable (m : (ℓ : Loc nD τ sig) → Buf (Elt Ideal) ℓ) (ρ : Dev nD → PrngReg) (c : Dev nD)

theorem scaled1_value (n : Fin 50000) (k : Fin 256) :
    W4 m ρ c (Proc.devRef .tc main_v16) (ix2 n k) = KNames.scaled1K m c n k := by
  have hA := W4_arr m ρ c 3
  show W4 m ρ c (Proc.devRef .tc (Pipeline.arrRef spec0 3)) (ix2 n k) = _
  rw [hA, RegionValue.region0_apply (V3 m ρ) c n k]
  refine (scaledProduct0_of _ _ _ n k (fun q => KNames.Xf m c n q) (KNames.dK m c n) (fun q => KNames.W1f m c q k)
    ?_ ?_ ?_).trans ?_
  · intro q
    exact congrFun (Walk.W3_arg1 m ρ c) (ix2 n q)
  · exact Pre.W3_col m ρ c n
  · intro q
    exact congrFun (Walk.W3_arg3 m ρ c) (ix2 q k)
  · rfl

end Cert.KernelIdeal.Stage1

end
-- ==== Proof.LibGatherScatter.lean ====
/-
  GATHER AND SCATTER READ AT AN INDEX, for the two layouts an embedding lookup and its transpose lower to:
  `stablehlo.gather` of the ROWS of an `[N, D]` table (or of the entries of a flat `[N]` array) at an `[E, 1]`
  array of start indices, and `stablehlo.scatter` with an `add` body of an `[E, D]` array of update rows into an
  `[N, D]` operand at an `[E, 1]` array of scatter indices. Each lemma is generic in the sizes `N E D` and in the
  index width `w`; the dimension numbers are built from the sizes and a proof of their side conditions, so a
  literal record of a program is definitionally one of them.
-/
import Idealize.ShloMosaic.PureOps.Ideal
import Idealize.ShloMosaic.PureOps.Ideal.Laws
import Idealize.ShloMosaic.Lib.ValueIdx

noncomputable section

open scoped BigOperators

namespace Cert.Lib.GatherScatter

open Idealize.ShloMosaic
open Idealize.ShloMosaic.ValueIdx

/-! ## Rows gather: `table[idx]` of an `[N, D]` table at `[E, 1]` start indices -/

section RowsGather
variable {α : Type}

/-- The dimension numbers of a rows gather: operand `[N, D]`, start indices `[E, 1]`, result `[E, D]`; the result's
    axis 1 is the offset axis, operand axis 0 is collapsed and is the one the start index names, the index vector
    lies along start-indices axis 1, and a slice is one whole row (`slice_sizes = [1, D]`). -/
abbrev rowsGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROWS GATHER READ AT `j = (e, k)`: the table at row `idx[e, 0]` — read as a signed integer and clamped into
    `[0, N − 1]` — and column `k`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (j : (⟨2, ![E, D]⟩ : Shape).Idx) :
    Host.gather (rowsGatherDims N E D wf) x idx j
      = x (ix2 (⟨min (idx (ix2 (j 0 : Fin E) (0 : Fin 1))).toInt.toNat (N - 1), by omega⟩ : Fin N) (j 1 : Fin D)) := by
  unfold Host.gather
  congr 1
  funext a
  refine Fin.ext ?_
  match a with
  | ⟨0, _⟩ =>
    show (rowsGatherDims N E D wf).start j idx 0 + (rowsGatherDims N E D wf).batchCoord j 0
      + (rowsGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims N E D wf).startIndexMap from List.mem_singleton.mpr rfl)]
    have hsi : (rowsGatherDims N E D wf).siIdx j ⟨List.idxOf (0 : Fin 2) (rowsGatherDims N E D wf).startIndexMap,
        List.idxOf_lt_length_iff.2 (List.mem_singleton.mpr rfl)⟩ = ix2 (j 0 : Fin E) (0 : Fin 1) := by
      funext b; refine Fin.ext ?_
      match b with
      | ⟨0, _⟩ => rfl
      | ⟨1, _⟩ => rfl
    rw [hsi]
    rfl
  | ⟨1, _⟩ =>
    show (rowsGatherDims N E D wf).start j idx 1 + (rowsGatherDims N E D wf).batchCoord j 1
      + (rowsGatherDims N E D wf).offCoord j 1 = (j 1).val
    rw [GatherDims.batchCoord_eq_zero _ _ _ List.not_mem_nil]
    unfold GatherDims.start
    rw [dif_neg (show (1 : Fin 2) ∉ (rowsGatherDims N E D wf).startIndexMap from
      (show (1 : Fin 2) ∉ [(0 : Fin 2)] by decide))]
    simp only [Nat.add_zero, Nat.zero_add]
    unfold GatherDims.offCoord
    rw [dif_pos (show (1 : Fin 2) ∈ (rowsGatherDims N E D wf).sKept from
      (GatherDims.mem_sKept _ _).mpr ⟨(show (1 : Fin 2) ∉ [(0 : Fin 2)] by decide), List.not_mem_nil⟩)]
    rfl

/-- The rows gather read at explicit coordinates `(e, k)`. -/
theorem gather_rows_apply_ix2 {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsGatherDims N E D wf) x idx (ix2 e k)
      = x (ix2 (⟨min (idx (ix2 e (0 : Fin 1))).toInt.toNat (N - 1), by omega⟩ : Fin N) k) :=
  gather_rows_apply hN wf x idx (ix2 e k)

/-- The rows gather read at `j`, for ANY record `d` of dimension numbers that is `rowsGatherDims` (the side
    condition `hd` closes by `rfl` on a literal record); the left side mentions `d` itself, so the lemma
    rewrites a goal that names the record. -/
theorem gather_rows_apply_of_eq {N E D w : Nat} (hN : 0 < N)
    (d : GatherDims ⟨2, ![N, D]⟩ ⟨2, ![E, 1]⟩ ⟨2, ![E, D]⟩)
    {wf : GatherDims.WF ⟨2, ![N, D]⟩ ⟨2, ![E, 1]⟩ ⟨2, ![E, D]⟩ [1] [0] [] [0] [] 1 ![1, D]}
    (hd : d = rowsGatherDims N E D wf)
    (x : (⟨2, ![N, D]⟩ : Shape).Idx → α) (idx : IVec ⟨2, ![E, 1]⟩ w) (j : (⟨2, ![E, D]⟩ : Shape).Idx) :
    Host.gather d x idx j
      = x (ix2 (⟨min (idx (ix2 (j 0 : Fin E) (0 : Fin 1))).toInt.toNat (N - 1), by omega⟩ : Fin N) (j 1 : Fin D)) := by
  subst hd; exact gather_rows_apply hN wf x idx j

/-- The same at explicit coordinates `(e, k)`. -/
theorem gather_rows_apply_ix2_of_eq {N E D w : Nat} (hN : 0 < N)
    (d : GatherDims ⟨2, ![N, D]⟩ ⟨2, ![E, 1]⟩ ⟨2, ![E, D]⟩)
    {wf : GatherDims.WF ⟨2, ![N, D]⟩ ⟨2, ![E, 1]⟩ ⟨2, ![E, D]⟩ [1] [0] [] [0] [] 1 ![1, D]}
    (hd : d = rowsGatherDims N E D wf)
    (x : (⟨2, ![N, D]⟩ : Shape).Idx → α) (idx : IVec ⟨2, ![E, 1]⟩ w) (e : Fin E) (k : Fin D) :
    Host.gather d x idx (ix2 e k)
      = x (ix2 (⟨min (idx (ix2 e (0 : Fin 1))).toInt.toNat (N - 1), by omega⟩ : Fin N) k) := by
  subst hd; exact gather_rows_apply_ix2 hN wf x idx e k

end RowsGather

/-! ## Flat gather: `x[idx]` of a flat `[N]` array at `[E, 1]` start indices -/

section FlatGather
variable {α : Type}

/-- The dimension numbers of a flat gather: operand `[N]`, start indices `[E, 1]`, result `[E]`; no offset axis,
    the operand's one axis collapsed and named by the start index, the index vector along start-indices axis 1, and
    a slice is one element (`slice_sizes = [1]`). -/
abbrev flatGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `j = (e)`: the array at position `idx[e, 0]`, read as a signed integer and clamped into
    `[0, N − 1]`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (flatGatherDims N E wf) x idx j
      = x (ix1 (⟨min (idx (ix2 (j 0 : Fin E) (0 : Fin 1))).toInt.toNat (N - 1), by omega⟩ : Fin N)) := by
  unfold Host.gather
  congr 1
  funext a
  obtain rfl : a = 0 := Subsingleton.elim _ _
  refine Fin.ext ?_
  show (flatGatherDims N E wf).start j idx 0 + (flatGatherDims N E wf).batchCoord j 0
    + (flatGatherDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N E wf).startIndexMap from List.mem_singleton.mpr rfl)]
  have hsi : (flatGatherDims N E wf).siIdx j ⟨List.idxOf (0 : Fin 1) (flatGatherDims N E wf).startIndexMap,
      List.idxOf_lt_length_iff.2 (List.mem_singleton.mpr rfl)⟩ = ix2 (j 0 : Fin E) (0 : Fin 1) := by
    funext b; refine Fin.ext ?_
    match b with
    | ⟨0, _⟩ => rfl
    | ⟨1, _⟩ => rfl
  rw [hsi]
  rfl

/-- The flat gather read at an explicit coordinate `e`. -/
theorem gather_flat_apply_ix1 {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGatherDims N E wf) x idx (ix1 e)
      = x (ix1 (⟨min (idx (ix2 e (0 : Fin 1))).toInt.toNat (N - 1), by omega⟩ : Fin N)) :=
  gather_flat_apply hN wf x idx (ix1 e)

/-- The flat gather read at `e`, for ANY record `d` of dimension numbers that is `flatGatherDims` (`hd` closes by
    `rfl` on a literal record); the left side mentions `d` itself. -/
theorem gather_flat_apply_ix1_of_eq {N E w : Nat} (hN : 0 < N)
    (d : GatherDims ⟨1, ![N]⟩ ⟨2, ![E, 1]⟩ ⟨1, ![E]⟩)
    {wf : GatherDims.WF ⟨1, ![N]⟩ ⟨2, ![E, 1]⟩ ⟨1, ![E]⟩ [] [0] [] [0] [] 1 ![1]}
    (hd : d = flatGatherDims N E wf)
    (x : (⟨1, ![N]⟩ : Shape).Idx → α) (idx : IVec ⟨2, ![E, 1]⟩ w) (e : Fin E) :
    Host.gather d x idx (ix1 e)
      = x (ix1 (⟨min (idx (ix2 e (0 : Fin 1))).toInt.toNat (N - 1), by omega⟩ : Fin N)) := by
  subst hd; exact gather_flat_apply_ix1 hN wf x idx e

end FlatGather

/-! ## Rows scatter: update rows `[E, D]` added into an `[N, D]` operand at `[E, 1]` scatter indices -/

section RowsScatter

/-- An axis is among the kept ones exactly when it is not in the list that was dropped. -/
theorem mem_kept {s : Shape} (axes : List (Fin s.rank)) (a : Fin s.rank) : a ∈ s.kept axes ↔ a ∉ axes := by
  simp [Shape.kept, List.mem_filter, List.mem_finRange]

/-- WHERE AN UPDATE LANDS, for any scatter dimension numbers: update index `j` lands at operand index `i` exactly
    when on every operand axis the signed start plus the window coordinate is `i`'s coordinate. (The in-range
    test inside `resultIdx?` is then automatic, `i`'s coordinates being in range.) -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      exact (Int.toNat_of_nonneg (h a).1).symm
    · intro H
      funext a
      apply Fin.ext
      show (d.start j idx a + (d.window j a : Int)).toNat = (i a).val
      rw [H a, Int.toNat_natCast]
  · rename_i h
    constructor
    · intro hh; cases hh
    · intro H
      exfalso
      apply h
      intro a
      rw [H a]
      exact ⟨Int.natCast_nonneg _, by exact_mod_cast (i a).isLt⟩

/-- The dimension numbers of a rows scatter: operand `[N, D]`, scatter indices `[E, 1]`, updates `[E, D]`; the
    updates' axis 1 is the window axis, operand axis 0 is inserted and is the one the scatter index names, and the
    index vector lies along scatter-indices axis 1. -/
abbrev rowsScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

/-- On the row axis the window of update `(e, k)` starts at the scatter index `idx[e, 0]`, read signed. -/
theorem scatter_rows_start0 (idx : IVec ⟨2, ![E, 1]⟩ w) (j : (⟨2, ![E, D]⟩ : Shape).Idx) :
    (rowsScatterDims N E D wf).start j idx 0 = (idx (ix2 (j 0 : Fin E) (0 : Fin 1))).toInt := by
  unfold ScatterDims.start
  rw [dif_pos (show (0 : Fin 2) ∈ (rowsScatterDims N E D wf).scatterDimsToOperandDims from
    List.mem_singleton.mpr rfl)]
  have hsi : (rowsScatterDims N E D wf).siIdx j
      ⟨List.idxOf (0 : Fin 2) (rowsScatterDims N E D wf).scatterDimsToOperandDims,
        List.idxOf_lt_length_iff.2 (List.mem_singleton.mpr rfl)⟩ = ix2 (j 0 : Fin E) (0 : Fin 1) := by
    funext b; refine Fin.ext ?_
    match b with
    | ⟨0, _⟩ => rfl
    | ⟨1, _⟩ => rfl
  rw [hsi]
  rfl

/-- On the column axis the window starts at `0`: the scatter index does not name that axis. -/
theorem scatter_rows_start1 (idx : IVec ⟨2, ![E, 1]⟩ w) (j : (⟨2, ![E, D]⟩ : Shape).Idx) :
    (rowsScatterDims N E D wf).start j idx 1 = 0 := by
  unfold ScatterDims.start
  rw [dif_neg (show (1 : Fin 2) ∉ (rowsScatterDims N E D wf).scatterDimsToOperandDims from
    (show (1 : Fin 2) ∉ [(0 : Fin 2)] by decide))]

/-- The row axis is inserted: the window coordinate on it is `0`. -/
theorem scatter_rows_window0 (j : (⟨2, ![E, D]⟩ : Shape).Idx) :
    (rowsScatterDims N E D wf).window j 0 = 0 := by
  unfold ScatterDims.window
  rw [dif_neg (show (0 : Fin 2) ∉ (rowsScatterDims N E D wf).sKept from
    fun h => (mem_kept _ _).mp h (List.mem_singleton.mpr rfl))]

/-- The window coordinate on the column axis is the update's column. -/
theorem scatter_rows_window1 (j : (⟨2, ![E, D]⟩ : Shape).Idx) :
    (rowsScatterDims N E D wf).window j 1 = (j 1).val := by
  unfold ScatterDims.window
  rw [dif_pos (show (1 : Fin 2) ∈ (rowsScatterDims N E D wf).sKept from
    (mem_kept _ _).mpr (show (1 : Fin 2) ∉ [(0 : Fin 2)] by decide))]
  rfl

/-- WHERE A ROW UPDATE LANDS: update element `(e, k)` lands at operand element `(n, k')` exactly when the scatter
    index `idx[e, 0]`, read as a signed integer, is `n`, and the columns agree. An index outside `[0, N)` lands
    nowhere. -/
theorem scatter_rows_resultIdx?_iff (idx : IVec ⟨2, ![E, 1]⟩ w) (e : Fin E) (k : Fin D) (n : Fin N) (k' : Fin D) :
    (rowsScatterDims N E D wf).resultIdx? (ix2 e k) idx = some (ix2 n k')
      ↔ (idx (ix2 e (0 : Fin 1))).toInt = (n.val : Int) ∧ k = k' := by
  rw [resultIdx?_eq_some_iff]
  have hs0 : (rowsScatterDims N E D wf).start (ix2 e k) idx 0 = (idx (ix2 e (0 : Fin 1))).toInt :=
    scatter_rows_start0 wf idx (ix2 e k)
  have hs1 := scatter_rows_start1 wf idx (ix2 e k)
  have hw0 := scatter_rows_window0 (N := N) wf (ix2 e k)
  have hw1 : (rowsScatterDims N E D wf).window (ix2 e k) 1 = k.val := scatter_rows_window1 (N := N) wf (ix2 e k)
  constructor
  · intro H
    have H0 : (rowsScatterDims N E D wf).start (ix2 e k) idx 0
        + ((rowsScatterDims N E D wf).window (ix2 e k) 0 : Int) = (n.val : Int) := H 0
    have H1 : (rowsScatterDims N E D wf).start (ix2 e k) idx 1
        + ((rowsScatterDims N E D wf).window (ix2 e k) 1 : Int) = (k'.val : Int) := H 1
    rw [hs0, hw0] at H0
    rw [hs1, hw1] at H1
    refine ⟨by simpa using H0, Fin.ext ?_⟩
    have : (k.val : Int) = (k'.val : Int) := by simpa using H1
    exact_mod_cast this
  · rintro ⟨hI, rfl⟩ a
    match a with
    | ⟨0, _⟩ =>
      show (rowsScatterDims N E D wf).start (ix2 e k) idx 0
        + ((rowsScatterDims N E D wf).window (ix2 e k) 0 : Int) = (n.val : Int)
      rw [hs0, hw0, hI]; simp
    | ⟨1, _⟩ =>
      show (rowsScatterDims N E D wf).start (ix2 e k) idx 1
        + ((rowsScatterDims N E D wf).window (ix2 e k) 1 : Int) = (k.val : Int)
      rw [hs1, hw1]; simp

/-- THE IDEAL SCATTER-ADD OF ROWS READ AT `(n, k)`: the operand's element plus the sum, over the update rows `e`
    whose scatter index `idx[e, 0]` (read as a signed integer) is `n`, of the update's element `(e, k)`. The
    update elements that land at `(n, k)` are exactly the `(e, k)` with `idx[e, 0] = n`, one per such row. -/
theorem hostScatterAdd_rows_apply (x : (⟨2, ![N, D]⟩ : Shape).Idx → EReal) (idx : IVec ⟨2, ![E, 1]⟩ w)
    (upd : (⟨2, ![E, D]⟩ : Shape).Idx → EReal) (n : Fin N) (k : Fin D) :
    Ideal.hostScatterAdd (rowsScatterDims N E D wf) x idx upd (ix2 n k)
      = x (ix2 n k) + ∑ e ∈ Finset.univ.filter (fun e : Fin E => (idx (ix2 e (0 : Fin 1))).toInt = (n.val : Int)),
          upd (ix2 e k) := by
  unfold Ideal.hostScatterAdd
  congr 1
  symm
  apply Finset.sum_bij (fun (e : Fin E) _ => (ix2 e k : (⟨2, ![E, D]⟩ : Shape).Idx))
  · intro e he
    rw [Finset.mem_filter] at he ⊢
    exact ⟨Finset.mem_univ _, (scatter_rows_resultIdx?_iff wf idx e k n k).mpr ⟨he.2, rfl⟩⟩
  · intro e₁ _ e₂ _ h
    exact congrFun h 0
  · intro j hj
    rw [Finset.mem_filter] at hj
    obtain ⟨e, k₀, rfl⟩ : ∃ (e : Fin E) (k₀ : Fin D), j = ix2 e k₀ := ⟨j 0, j 1, eq_ix2 j⟩
    obtain ⟨hI, rfl⟩ := (scatter_rows_resultIdx?_iff wf idx e k₀ n k).mp hj.2
    exact ⟨e, Finset.mem_filter.mpr ⟨Finset.mem_univ _, hI⟩, rfl⟩
  · intro e _
    rfl

/-- Where a row update lands, for ANY record `d` of dimension numbers that is `rowsScatterDims` (the side
    condition `hd` closes by `rfl` on a literal record); the left side mentions `d` itself. -/
theorem scatter_rows_resultIdx?_iff_of_eq (d : ScatterDims ⟨2, ![N, D]⟩ ⟨2, ![E, 1]⟩ ⟨2, ![E, D]⟩)
    {wf : ScatterDims.WF ⟨2, ![N, D]⟩ ⟨2, ![E, 1]⟩ ⟨2, ![E, D]⟩ [1] [0] [0] 1}
    (hd : d = rowsScatterDims N E D wf)
    (idx : IVec ⟨2, ![E, 1]⟩ w) (e : Fin E) (k : Fin D) (n : Fin N) (k' : Fin D) :
    d.resultIdx? (ix2 e k) idx = some (ix2 n k')
      ↔ (idx (ix2 e (0 : Fin 1))).toInt = (n.val : Int) ∧ k = k' := by
  subst hd; exact scatter_rows_resultIdx?_iff wf idx e k n k'

/-- The ideal scatter-add of rows read at `(n, k)`, for ANY record `d` of dimension numbers that is
    `rowsScatterDims` (`hd` closes by `rfl` on a literal record); the left side mentions `d` itself, so the
    lemma rewrites a goal that names the record. -/
theorem hostScatterAdd_rows_apply_of_eq (d : ScatterDims ⟨2, ![N, D]⟩ ⟨2, ![E, 1]⟩ ⟨2, ![E, D]⟩)
    {wf : ScatterDims.WF ⟨2, ![N, D]⟩ ⟨2, ![E, 1]⟩ ⟨2, ![E, D]⟩ [1] [0] [0] 1}
    (hd : d = rowsScatterDims N E D wf)
    (x : (⟨2, ![N, D]⟩ : Shape).Idx → EReal) (idx : IVec ⟨2, ![E, 1]⟩ w)
    (upd : (⟨2, ![E, D]⟩ : Shape).Idx → EReal) (n : Fin N) (k : Fin D) :
    Ideal.hostScatterAdd d x idx upd (ix2 n k)
      = x (ix2 n k) + ∑ e ∈ Finset.univ.filter (fun e : Fin E => (idx (ix2 e (0 : Fin 1))).toInt = (n.val : Int)),
          upd (ix2 e k) := by
  subst hd; exact hostScatterAdd_rows_apply wf x idx upd n k

end RowsScatter

end Cert.Lib.GatherScatter

end
-- ==== Proof.KStage24.lean ====
/-
  The two aggregation stages of the kernel program's host code.  Each stage wraps the edges' source indices, gathers the
  rows of a per-node array at them, and adds the gathered rows into a zero array at the edges' raw target indices.  Read at
  (n, k) the result is the sum, over the edges whose raw target index is n, of the array at the edge's source node and
  feature k: the mathematics' `agg`.
-/
import proofs.«130974_j17119739641949_2_alg».proof.Proof.KNames
import proofs.«130974_j17119739641949_2_alg».proof.Proof.KernelWalk
import proofs.«130974_j17119739641949_2_alg».proof.Proof.KernelPre
import proofs.«130974_j17119739641949_2_alg».proof.Proof.LibGatherScatter
import proofs.«130974_j17119739641949_2_alg».proof.Proof.LibHostIdx
import Idealize.ShloMosaic.Lib.StableHlo.Run
import Idealize.ShloMosaic.PureOps.Ideal.Laws

set_option maxRecDepth 16384

noncomputable section

namespace Cert.KernelIdeal.Stage24

open Cert.KernelIdeal Cert.KernelIdeal.Gen
open Idealize.ShloMosaic Idealize.ShloMosaic.TcCoe Idealize.SL.Sem
open Idealize.ShloMosaic.ValueIdx Idealize.ShloMosaic.StableHlo
open Cert.Lib.GatherScatter Cert.Lib.HostIdx

/-- The host's wrap of a vector of index words, read at an index: select (v <s 0) (v + N) v on the element. -/
theorem wrapVec_apply (v z f : IVec ⟨1, ![850000]⟩ 32) (hz : ∀ i, z i = 0#32) (hf : ∀ i, f i = 50000#32) (e : Fin 850000) :
    select (cmpi .slt v z) (addi v f) v (ix1 e) = Cert.Spec.wrap (v (ix1 e)) := by
  rw [select_apply]
  show Scalar.select (IntOp.cmpi .slt (v (ix1 e)) (z (ix1 e))) (IntOp.addi (v (ix1 e)) (f (ix1 e))) (v (ix1 e)) = _
  rw [hz, hf]
  rfl

/-- The clamp of a start index into the node range is `node`. -/
theorem clamp_eq_node (v : BitVec 32) (h : min v.toInt.toNat (50000 - 1) < 50000) :
    (⟨min v.toInt.toNat (50000 - 1), h⟩ : Fin 50000) = Cert.Spec.node v := Fin.ext rfl

/-- ONE GATHER + SCATTER-ADD STAGE, free of the program: gathering the rows of `x` at the wrapped source indices and
    adding them into a zero array at the raw target indices gives, at `(n, k)`, the sum over the edges whose raw
    target index is `n` of `x` at the edge's source node. -/
theorem stage_value {D : Nat}
    (sc : ScatterDims ⟨2, ![50000, D]⟩ ⟨2, ![850000, 1]⟩ ⟨2, ![850000, D]⟩)
    {wfs : ScatterDims.WF ⟨2, ![50000, D]⟩ ⟨2, ![850000, 1]⟩ ⟨2, ![850000, D]⟩ [1] [0] [0] 1}
    (hsc : sc = rowsScatterDims 50000 850000 D wfs)
    (ga : GatherDims ⟨2, ![50000, D]⟩ ⟨2, ![850000, 1]⟩ ⟨2, ![850000, D]⟩)
    {wfg : GatherDims.WF ⟨2, ![50000, D]⟩ ⟨2, ![850000, 1]⟩ ⟨2, ![850000, D]⟩ [1] [0] [] [0] [] 1 ![1, D]}
    (hga : ga = rowsGatherDims 50000 850000 D wfg)
    (hb : (⟨1, ![850000]⟩ : Shape).BroadcastsInDim ⟨2, ![850000, 1]⟩ ![0])
    (zero : (⟨2, ![50000, D]⟩ : Shape).Idx → EReal) (hzero : ∀ i, zero i = 0)
    (x : (⟨2, ![50000, D]⟩ : Shape).Idx → EReal) (v3w v6 : IVec ⟨1, ![850000]⟩ 32)
    (n : Fin 50000) (k : Fin D) :
    Host.scatterAdd (F := Ideal) (φ := .f32) sc zero (broadcastInDim ⟨2, ![850000, 1]⟩ ![0] hb v6)
        (Host.gather ga x (broadcastInDim ⟨2, ![850000, 1]⟩ ![0] hb v3w)) (ix2 n k)
      = Cert.Spec.agg (fun e => v6 (ix1 e)) (fun e k => x (ix2 (Cert.Spec.node (v3w (ix1 e))) k)) n k := by
  unfold Host.scatterAdd
  rw [Ideal.hostScatterAdd_def, hostScatterAdd_rows_apply_of_eq sc hsc, hzero, zero_add]
  unfold Cert.Spec.agg
  refine Finset.sum_congr (Finset.filter_congr fun e _ => ?_) fun e _ => ?_
  · rw [bcastCol_apply]
  · rw [gather_rows_apply_ix2_of_eq (by decide) ga hga, clamp_eq_node, bcastCol_apply]

/-- The zero array the scatter-add starts from is zero at every index. -/
theorem zero256_apply (i : S50000x256.Idx) :
    broadcastInDim S50000x256 ![] bcast_S_S50000x256 (constant (F := Ideal) S_ .f32 0x00000000#32) i = 0 :=
  Ideal.ofBits_zero_f32

/-- The broadcast index constants, read at an index. -/
theorem c0_apply (i : S850000.Idx) : broadcastInDim S850000 ![] bcast_S_S850000 (constantI S_ 32 0#32) i = 0#32 := rfl
theorem cN_apply (i : S850000.Idx) : broadcastInDim S850000 ![] bcast_S_S850000 (constantI S_ 32 50000#32) i = 50000#32 := rfl

/-- The second stage's zero array is zero at every index. -/
theorem zero128_apply (i : S50000x128.Idx) :
    broadcastInDim S50000x128 ![] bcast_S_S50000x128 (constant (F := Ideal) S_ .f32 0x00000000#32) i = 0 :=
  Ideal.ofBits_zero_f32

set_option maxHeartbeats 1600000 in
/-- THE FIRST STAGE over any names for what it reads: if the gathered array is `g` and the two index vectors are `rowR`
    and `colR`, the stage's result at (n, k) is the sum over the edges with raw target index n of `g` at the edge's
    wrapped and clamped source node. -/
theorem agg1_stage (m : (ℓ : Loc nD τ sig) → Buf (Elt Ideal) ℓ) (ρ : Dev nD → PrngReg) (c : Dev nD)
    (rowR colR : Fin 850000 → BitVec 32) (g : Fin 50000 → Fin 256 → EReal)
    (hg : ∀ (n : Fin 50000) (k : Fin 256), W4 m ρ c (Proc.devRef .tc main_v16) (ix2 n k) = g n k)
    (hv3 : ∀ e : Fin 850000, W4 m ρ c (Proc.devRef .tc main_v3) (ix1 e) = rowR e)
    (hv6 : ∀ e : Fin 850000, W4 m ρ c (Proc.devRef .tc main_v6) (ix1 e) = colR e)
    (n : Fin 50000) (k : Fin 256) :
    W5 m ρ c (Proc.devRef .tc main_v26) (ix2 n k)
      = Cert.Spec.agg colR (fun e k => g (Cert.Spec.node (Cert.Spec.wrap (rowR e))) k) n k := by
  show StableHlo.after hostOps1 (W4 m ρ c) (Proc.devRef .tc main_v26) (ix2 n k) = _
  revert hg hv3 hv6
  generalize W4 m ρ c = U
  intro hg hv3 hv6
  after_results
  refine (stage_value (D := 256) scatter_S50000x256_S850000x1_S850000x256_1_0_0_1 rfl gather_S50000x256_S850000x1_S850000x256_1_0_n_n_0_1_1256 rfl bcast_S850000_S850000x1_0 _ zero256_apply _ _ _ n k).trans ?_
  have e1 : (fun e : Fin 850000 => U (Proc.devRef .tc main_v6) (ix1 e)) = colR := funext hv6
  rw [e1]
  congr 1
  funext e k'
  rw [wrapVec_apply _ _ _ c0_apply cN_apply, hv3, hg]

set_option maxHeartbeats 1600000 in
/-- THE SECOND STAGE over any names for what it reads: the same statement at 128 features. -/
theorem agg2_stage (m : (ℓ : Loc nD τ sig) → Buf (Elt Ideal) ℓ) (ρ : Dev nD → PrngReg) (c : Dev nD)
    (rowR colR : Fin 850000 → BitVec 32) (g : Fin 50000 → Fin 128 → EReal)
    (hg : ∀ (n : Fin 50000) (k : Fin 128), W6 m ρ c (Proc.devRef .tc main_v28) (ix2 n k) = g n k)
    (hv3 : ∀ e : Fin 850000, W6 m ρ c (Proc.devRef .tc main_v3) (ix1 e) = rowR e)
    (hv6 : ∀ e : Fin 850000, W6 m ρ c (Proc.devRef .tc main_v6) (ix1 e) = colR e)
    (n : Fin 50000) (k : Fin 128) :
    W7 m ρ c (Proc.devRef .tc main_v38) (ix2 n k)
      = Cert.Spec.agg colR (fun e k => g (Cert.Spec.node (Cert.Spec.wrap (rowR e))) k) n k := by
  show StableHlo.after hostOps2 (W6 m ρ c) (Proc.devRef .tc main_v38) (ix2 n k) = _
  revert hg hv3 hv6
  generalize W6 m ρ c = U
  intro hg hv3 hv6
  after_results
  refine (stage_value (D := 128) scatter_S50000x128_S850000x1_S850000x128_1_0_0_1 rfl gather_S50000x128_S850000x1_S850000x128_1_0_n_n_0_1_1128 rfl bcast_S850000_S850000x1_0 _ zero128_apply _ _ _ n k).trans ?_
  have e1 : (fun e : Fin 850000 => U (Proc.devRef .tc main_v6) (ix1 e)) = colR := funext hv6
  rw [e1]
  congr 1
  funext e k'
  rw [wrapVec_apply _ _ _ c0_apply cN_apply, hv3, hg]

/-- The first aggregation: the scaled first-layer rows summed into their target nodes. -/
theorem agg1_value (m : (ℓ : Loc nD τ sig) → Buf (Elt Ideal) ℓ) (ρ : Dev nD → PrngReg) (c : Dev nD)
    (h1 : ∀ (n : Fin 50000) (k : Fin 256), W4 m ρ c (Proc.devRef .tc main_v16) (ix2 n k) = KNames.scaled1K m c n k) :
    ∀ (n : Fin 50000) (k : Fin 256), W5 m ρ c (Proc.devRef .tc main_v26) (ix2 n k) = KNames.agg1KK m c n k := by
  intro n k
  have hv3 : ∀ e : Fin 850000, W4 m ρ c (Proc.devRef .tc main_v3) (ix1 e) = KNames.rowK m c e := fun e => by
    rw [Walk.W4_v3, Pre.W3_v3]; rfl
  have hv6 : ∀ e : Fin 850000, W4 m ρ c (Proc.devRef .tc main_v6) (ix1 e) = KNames.colK m c e := fun e => by
    rw [Walk.W4_v6, Pre.W3_v6]; rfl
  exact agg1_stage m ρ c (KNames.rowK m c) (KNames.colK m c) (KNames.scaled1K m c) h1 hv3 hv6 n k

/-- The second aggregation: the scaled second-layer rows summed into their target nodes. -/
theorem agg2_value (m : (ℓ : Loc nD τ sig) → Buf (Elt Ideal) ℓ) (ρ : Dev nD → PrngReg) (c : Dev nD)
    (h3 : ∀ (n : Fin 50000) (k : Fin 128), W6 m ρ c (Proc.devRef .tc main_v28) (ix2 n k) = KNames.scaled2K m c n k) :
    ∀ (n : Fin 50000) (k : Fin 128), W7 m ρ c (Proc.devRef .tc main_v38) (ix2 n k) = KNames.agg2KK m c n k := by
  intro n k
  have hv3 : ∀ e : Fin 850000, W6 m ρ c (Proc.devRef .tc main_v3) (ix1 e) = KNames.rowK m c e := fun e => by
    rw [Walk.W6_v3, Pre.W3_v3]; rfl
  have hv6 : ∀ e : Fin 850000, W6 m ρ c (Proc.devRef .tc main_v6) (ix1 e) = KNames.colK m c e := fun e => by
    rw [Walk.W6_v6, Pre.W3_v6]; rfl
  exact agg2_stage m ρ c (KNames.rowK m c) (KNames.colK m c) (KNames.scaled2K m c) h3 hv3 hv6 n k

end Cert.KernelIdeal.Stage24

end
-- ==== Proof.Region1Value.lean ====
import proofs.«130974_j17119739641949_2_alg».proof.Proof.Gen.KernelIdeal.Frame
import proofs.«130974_j17119739641949_2_alg».proof.Proof.BodyOps
import Idealize.ShloMosaic.Lib.ValueIdx
import Idealize.ShloMosaic.Lib.Pipeline.Value
import Idealize.ShloMosaic.Lib.ValueLayout
import Idealize.ShloMosaic.PureOps.Ideal.Laws

/-!
# What the second region leaves in its output array

The second region walks ten blocks of 5000 rows. At each block it scales every row of the block of the
aggregated matrix by that row's entry of the one-column degree array, adds the bias row, takes the maximum
with zero, multiplies the result by the whole second weight matrix and scales every row of the product by
the same degree entry again. Hence entry (n, k) of the array it leaves is
`(∑ q, max (A (n, q) * d (n, 0) + b (0, q)) 0 * W (q, k)) * d (n, 0)`, the zero being the word the body
broadcasts, whatever the buffers hold when the region is entered.
-/

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zero_offsets1 : (![0, 0] : Fin 2 → Nat) = fun _ => 0 := funext fun a => by fin_cases a <;> rfl

/-! ## The body's result at an entry of its block -/

/-- Entry (r, q) of the rectified block: the row block's entry scaled by the one-column block's entry on
    row r, plus the bias row's entry on column q, against the broadcast zero word. -/
theorem rectified1_apply (x0 : Vec Ideal S5000x256 .f32) (x1 : Vec Ideal S5000x1 .f32) (x2 : Vec Ideal S1x256 .f32)
    (r : Fin 5000) (q : Fin 256) :
    (maximumf
        (addf (mulf x0 (broadcastTo S5000x256 x1 broadcasts_S5000x1_S5000x256))
          (broadcastTo S5000x256 x2 broadcasts_S1x256_S5000x256))
        (broadcast S5000x256 (Scalar.ofBits (F := Ideal) .f32 0x00000000#32)) : FVec Ideal S5000x256 .f32) (ix2 r q)
      = max (x0 (ix2 r q) * x1 (ix2 r (0 : Fin 1)) + x2 (ix2 (0 : Fin 1) q)) (Ideal.ofBits .f32 0x00000000#32) := by
  refine (maximumf_apply _ _ (ix2 r q)).trans ?_
  refine congrArg₂ max ?_ rfl
  refine (addf_apply _ _ (ix2 r q)).trans ?_
  refine congrArg₂ (· + ·) ?_ ?_
  · refine (mulf_apply _ _ (ix2 r q)).trans ?_
    rw [broadcastTo_a1_ab_apply (by decide)]
  · rw [broadcastTo_1b_ab_apply]

/-- Entry (r, k) of what the body stores: the rectified row r against column k of the weights, scaled by
    the one-column block's entry on row r. -/
theorem k1_pay1_apply (x0 : Vec Ideal S5000x256 .f32) (x1 : Vec Ideal S5000x1 .f32) (x2 : Vec Ideal S1x256 .f32)
    (x3 : Vec Ideal S256x128 .f32) (x4 : Vec Ideal S5000x1 .f32) (r : Fin 5000) (k : Fin 128) :
    k1_pay1 (F := Ideal) x0 x1 x2 x3 x4 (ix2 r k)
      = (∑ q : Fin 256, max (x0 (ix2 r q) * x1 (ix2 r (0 : Fin 1)) + x2 (ix2 (0 : Fin 1) q)) (Ideal.ofBits .f32 0x00000000#32)
            * x3 (ix2 q k)) * x4 (ix2 r (0 : Fin 1)) := by
  unfold k1_pay1
  refine (mulf_apply _ _ (ix2 r k)).trans ?_
  rw [mm_5000x256x128_apply, broadcastTo_a1_ab_apply (by decide)]
  simp only [shapeCast_self]
  refine congrArg (fun s : EReal => s * x4 (ix2 r (0 : Fin 1))) (Finset.sum_congr rfl fun q _ => ?_)
  exact congrArg (fun s : EReal => s * x3 (ix2 q k)) (rectified1_apply x0 x1 x2 r q)

/-! ## The whole array as one function of the arrays the region reads -/

/-- Entry (n, k) of the rectified, scaled product of the whole arrays. -/
def reluProduct1 (A : (⟨S50000x256, .f32⟩ : BufTy).Contents (Elt Ideal)) (Dc : (⟨S50000x1, .f32⟩ : BufTy).Contents (Elt Ideal))
    (B : (⟨S1x256, .f32⟩ : BufTy).Contents (Elt Ideal)) (W : (⟨S256x128, .f32⟩ : BufTy).Contents (Elt Ideal))
    (n : Fin 50000) (k : Fin 128) : EReal :=
  (∑ q : Fin 256, max (A (ix2 n q) * Dc (ix2 n (0 : Fin 1)) + B (ix2 (0 : Fin 1) q)) (Ideal.ofBits .f32 0x00000000#32)
      * W (ix2 q k)) * Dc (ix2 n (0 : Fin 1))

/-- The rectified, scaled product spelt out. -/
theorem reluProduct1_eq (A : (⟨S50000x256, .f32⟩ : BufTy).Contents (Elt Ideal)) (Dc : (⟨S50000x1, .f32⟩ : BufTy).Contents (Elt Ideal))
    (B : (⟨S1x256, .f32⟩ : BufTy).Contents (Elt Ideal)) (W : (⟨S256x128, .f32⟩ : BufTy).Contents (Elt Ideal))
    (n : Fin 50000) (k : Fin 128) :
    reluProduct1 A Dc B W n k
      = (∑ q : Fin 256, max (A (ix2 n q) * Dc (ix2 n (0 : Fin 1)) + B (ix2 (0 : Fin 1) q)) (Ideal.ofBits .f32 0x00000000#32)
          * W (ix2 q k)) * Dc (ix2 n (0 : Fin 1)) := rfl

/-- The same as an array. -/
def reluProductArr1 (A : (⟨S50000x256, .f32⟩ : BufTy).Contents (Elt Ideal)) (Dc : (⟨S50000x1, .f32⟩ : BufTy).Contents (Elt Ideal))
    (B : (⟨S1x256, .f32⟩ : BufTy).Contents (Elt Ideal)) (W : (⟨S256x128, .f32⟩ : BufTy).Contents (Elt Ideal)) :
    (⟨S50000x128, .f32⟩ : BufTy).Contents (Elt Ideal) :=
  fun i => reluProduct1 A Dc B W ⟨(i 0).val, idx2_lt0 i⟩ ⟨(i 1).val, idx2_lt1 i⟩

/-! ## The windows' index maps over the grid -/

/-- The row-blocked windows move together along the rows, the bias and weight windows stay, and no
    window moves along the columns. -/
theorem index_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

/-! ## Each input block read off its array -/

/-- Row r of the row block at point t is row `5000 * t + r` of the aggregated matrix. -/
theorem iblk1_0_apply (c : Dev nD) (t : Fin cfg1.N) (r : Fin 5000) (q : Fin 256) (n : Fin 50000)
    (hn : n.val = t.val * 5000 + r.val) :
    (iblk1 V c 0 t : Vec Ideal S5000x256 .f32) (ix2 r q)
      = (V c main_v26 : (⟨S50000x256, .f32⟩ : BufTy).Contents (Elt Ideal)) (ix2 n q) := by
  obtain ⟨e0, e1, -⟩ := index_facts1 t
  unfold iblk1
  rw [View.read_apply]
  show V c main_v26 (((cfg1.win 0).blk t).view.emb (ix2 r q)) = V c main_v26 (ix2 n q)
  refine congrArg _ (funext fun a => Fin.ext ?_)
  match a with
  | ⟨0, _⟩ => show win1_0.index t (0 : Fin 2) * 5000 + 1 * r.val = n.val; omega
  | ⟨1, _⟩ => show win1_0.index t (1 : Fin 2) * 256 + 1 * q.val = q.val; omega

/-- Row r of the one-column block at point t is row `5000 * t + r` of the one-column array. -/
theorem iblk1_1_apply (c : Dev nD) (t : Fin cfg1.N) (r : Fin 5000) (n : Fin 50000)
    (hn : n.val = t.val * 5000 + r.val) :
    (iblk1 V c 1 t : Vec Ideal S5000x1 .f32) (ix2 r (0 : Fin 1))
      = (V c main_v15 : (⟨S50000x1, .f32⟩ : BufTy).Contents (Elt Ideal)) (ix2 n (0 : Fin 1)) := by
  obtain ⟨-, -, e2, e3, -⟩ := index_facts1 t
  unfold iblk1
  rw [View.read_apply]
  show V c main_v15 (((cfg1.win 1).blk t).view.emb (ix2 r (0 : Fin 1))) = V c main_v15 (ix2 n (0 : Fin 1))
  refine congrArg _ (funext fun a => Fin.ext ?_)
  match a with
  | ⟨0, _⟩ => show win1_1.index t (0 : Fin 2) * 5000 + 1 * r.val = n.val; omega
  | ⟨1, _⟩ => show win1_1.index t (1 : Fin 2) * 1 + 1 * 0 = 0; omega

/-- The bias block at every point is the whole bias row. -/
theorem iblk1_2_apply (c : Dev nD) (t : Fin cfg1.N) (q : Fin 256) :
    (iblk1 V c 2 t : Vec Ideal S1x256 .f32) (ix2 (0 : Fin 1) q)
      = (V c main_v27 : (⟨S1x256, .f32⟩ : BufTy).Contents (Elt Ideal)) (ix2 (0 : Fin 1) q) := by
  obtain ⟨-, -, -, -, e4, e5, -⟩ := index_facts1 t
  unfold iblk1
  rw [View.read_apply]
  show V c main_v27 (((cfg1.win 2).blk t).view.emb (ix2 (0 : Fin 1) q)) = V c main_v27 (ix2 (0 : Fin 1) q)
  refine congrArg _ (funext fun a => Fin.ext ?_)
  match a with
  | ⟨0, _⟩ => show win1_2.index t (0 : Fin 2) * 1 + 1 * 0 = 0; omega
  | ⟨1, _⟩ => show win1_2.index t (1 : Fin 2) * 256 + 1 * q.val = q.val; omega

/-- The weight block at every point is the whole weight matrix. -/
theorem iblk1_3_apply (c : Dev nD) (t : Fin cfg1.N) (q : Fin 256) (k : Fin 128) :
    (iblk1 V c 3 t : Vec Ideal S256x128 .f32) (ix2 q k)
      = (V c main_arg5 : (⟨S256x128, .f32⟩ : BufTy).Contents (Elt Ideal)) (ix2 q k) := by
  obtain ⟨-, -, -, -, -, -, e6, e7, -⟩ := index_facts1 t
  unfold iblk1
  rw [View.read_apply]
  show V c main_arg5 (((cfg1.win 3).blk t).view.emb (ix2 q k)) = V c main_arg5 (ix2 q k)
  refine congrArg _ (funext fun a => Fin.ext ?_)
  match a with
  | ⟨0, _⟩ => show win1_3.index t (0 : Fin 2) * 256 + 1 * q.val = q.val; omega
  | ⟨1, _⟩ => show win1_3.index t (1 : Fin 2) * 128 + 1 * k.val = k.val; omega

/-! ## What each point writes back, and the array after the last point -/

/-- Point t writes back block t of the rectified, scaled product of the arrays as the region finds them. -/
theorem flushed1_4_eq (c : Dev nD) (t : Fin cfg1.N) :
    (dat1 V c).flushed 4 t
      = ((cfg1.win 4).blk t).view.read (Elt Ideal)
          (reluProductArr1 (V c main_v26) (V c main_v15) (V c main_v27) (V c main_arg5)) := by
  show (cfg1.win 4).cut (grid1.coords t) ((dat1 V c).after 4 t) = _
  rw [after1_4]
  unfold out1_4
  rw [View.canon_unit_zero zero_offsets1]
  simp only [View.ld_unit_zero (S := S5000x256) zero_offsets1, View.ld_unit_zero (S := S5000x1) zero_offsets1,
    View.ld_unit_zero (S := S1x256) zero_offsets1, View.ld_unit_zero (S := S256x128) zero_offsets1]
  obtain ⟨-, -, -, -, -, -, -, -, e8, e9⟩ := index_facts1 t
  have hN : cfg1.N = 10 := N_1
  have ht : t.val < 10 := hN ▸ t.isLt
  funext j
  obtain ⟨r, k, rfl⟩ : ∃ (r : Fin 5000) (k : Fin 128), j = ix2 r k := ⟨j 0, j 1, eq_ix2 j⟩
  have hr : r.val < 5000 := r.isLt
  show k1_pay1 (F := Ideal) (iblk1 V c 0 t) (iblk1 V c 1 t) (iblk1 V c 2 t) (iblk1 V c 3 t) (iblk1 V c 1 t) (ix2 r k)
    = reluProductArr1 (V c main_v26) (V c main_v15) (V c main_v27) (V c main_arg5) (((cfg1.win 4).blk t).view.emb (ix2 r k))
  refine (k1_pay1_apply (iblk1 V c 0 t) (iblk1 V c 1 t) (iblk1 V c 2 t) (iblk1 V c 3 t) (iblk1 V c 1 t) r k).trans ?_
  have h0 : ((((cfg1.win 4).blk t).view.emb (ix2 r k)) 0).val = t.val * 5000 + r.val := by
    show win1_4.index t (0 : Fin 2) * 5000 + 1 * r.val = _; omega
  have h1 : ((((cfg1.win 4).blk t).view.emb (ix2 r k)) 1).val = k.val := by
    show win1_4.index t (1 : Fin 2) * 128 + 1 * k.val = _; omega
  unfold reluProductArr1 reluProduct1
  rw [iblk1_1_apply V c t r ⟨t.val * 5000 + r.val, by omega⟩ rfl]
  have ek : (⟨((((cfg1.win 4).blk t).view.emb (ix2 r k)) 1).val, idx2_lt1 _⟩ : Fin 128) = k := Fin.ext h1
  have en : (⟨((((cfg1.win 4).blk t).view.emb (ix2 r k)) 0).val, idx2_lt0 _⟩ : Fin 50000) = ⟨t.val * 5000 + r.val, by omega⟩ := Fin.ext h0
  rw [ek, en]
  refine congrArg (· * _) (Finset.sum_congr rfl fun q _ => ?_)
  rw [iblk1_0_apply V c t r q ⟨t.val * 5000 + r.val, by omega⟩ rfl, iblk1_2_apply V c t q, iblk1_3_apply V c t q k]

/-- An index of the array is in point t's block iff each coordinate is in the block's range on its axis. -/
theorem mem_blk1_4 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v28).slice (win1_4.rect t)).set ↔ _
  rw [View.set_slice_whole, Rect.mem_set_unit]
  exact Iff.rfl

/-- Row n lies in the block of point `n / 5000`: the ten blocks cover the array. -/
theorem cover1_4_rows (i : S50000x128.Idx) :
    ∃ t : Fin cfg1.N, (cfg1.win 4).flush t = true ∧ i ∈ ((cfg1.win 4).blk t).view.set := by
  have hN : cfg1.N = 10 := N_1
  have hi0 : (i 0).val < 50000 := idx2_lt0 i
  have hi1 : (i 1).val < 128 := idx2_lt1 i
  have hlt : (i 0).val / 5000 < cfg1.N := by rw [hN]; omega
  obtain ⟨t, ht⟩ : ∃ t : Fin cfg1.N, t.val = (i 0).val / 5000 := ⟨⟨(i 0).val / 5000, hlt⟩, rfl⟩
  refine ⟨t, flush1_4 t, ?_⟩
  rw [mem_blk1_4]
  obtain ⟨-, -, -, -, -, -, -, -, e8, e9⟩ := index_facts1 t
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- The array the region leaves is the rectified, scaled product of the arrays it finds. -/
theorem arr1_4_eq (c : Dev nD) :
    (dat1 V c).arrAt 4 cfg1.N = reluProductArr1 (V c main_v26) (V c main_v15) (V c main_v27) (V c main_arg5) :=
  (dat1 V c).arrAt_eq_of_cover 4 _ (fun t _ => flushed1_4_eq V c t) cover1_4_rows

/-- Entry (n, k) of the array the region leaves. -/
theorem region1_apply (c : Dev nD) (n : Fin 50000) (k : Fin 128) :
    (dat1 V c).arrAt 4 cfg1.N (ix2 n k)
      = reluProduct1 (V c main_v26) (V c main_v15) (V c main_v27) (V c main_arg5) n k := by
  rw [arr1_4_eq]
  rfl

end Cert.KernelIdeal.RegionValue

end
-- ==== Proof.KStage3.lean ====
/-
  The second region's array.  Its body scales each block of 5000 rows of the first aggregate by the node's factor, adds the
  first bias, rectifies, multiplies with the second weights and scales row n by node n's factor again; over the ten blocks
  that is, for every node n and unit k, (sum over q of max(agg1[n,q]·d(n) + b1[q], 0)·W2[q,k]) · d(n).
-/
import proofs.«130974_j17119739641949_2_alg».proof.Proof.KNames
import proofs.«130974_j17119739641949_2_alg».proof.Proof.KernelWalk
import proofs.«130974_j17119739641949_2_alg».proof.Proof.KernelPre
import proofs.«130974_j17119739641949_2_alg».proof.Proof.LibHostIdx
import proofs.«130974_j17119739641949_2_alg».proof.Proof.Region1Value
import Idealize.ShloMosaic.Lib.StableHlo.Run

set_option maxRecDepth 16384

noncomputable section

namespace Cert.KernelIdeal.Stage3

open Cert.KernelIdeal Cert.KernelIdeal.Gen
open Idealize.ShloMosaic Idealize.ShloMosaic.TcCoe Idealize.SL.Sem Idealize.ShloMosaic.StableHlo Idealize.ShloMosaic.ValueIdx
open Cert.KernelIdeal.Walk
open scoped BigOperators

/-- The rectified, scaled product at entry (n, k) depends on its four arrays only through row n of the first, entry n of
    the column, the bias row and column k of the weights. -/
theorem reluProduct1_of (A : (⟨S50000x256, .f32⟩ : BufTy).Contents (Elt Ideal)) (Dc : (⟨S50000x1, .f32⟩ : BufTy).Contents (Elt Ideal))
    (B : (⟨S1x256, .f32⟩ : BufTy).Contents (Elt Ideal)) (W : (⟨S256x128, .f32⟩ : BufTy).Contents (Elt Ideal))
    (n : Fin 50000) (k : Fin 128) (aK : Fin 256 → EReal) (d : EReal) (bK : Fin 256 → EReal) (wK : Fin 256 → EReal)
    (hA : ∀ q, A (ix2 n q) = aK q) (hD : Dc (ix2 n (0 : Fin 1)) = d) (hB : ∀ q, B (ix2 (0 : Fin 1) q) = bK q)
    (hW : ∀ q, W (ix2 q k) = wK q) :
    RegionValue.reluProduct1 A Dc B W n k
      = (∑ q : Fin 256, max (aK q * d + bK q) (Ideal.ofBits .f32 0x00000000#32) * wK q) * d := by
  rw [RegionValue.reluProduct1_eq, hD]
  refine congrArg (fun s : EReal => s * d) (Finset.sum_congr rfl fun q _ => ?_)
  rw [hA q, hB q, hW q]

variable (m : (ℓ : Loc nD τ sig) → Buf (Elt Ideal) ℓ) (ρ : Dev nD → PrngReg) (c : Dev nD)

set_option maxHeartbeats 1600000 in
/-- The first bias as a one-row matrix at the second region's entry: entry (0, q) is the bias's entry q. -/
theorem W5_bias (q : Fin 256) :
    W5 m ρ c (Proc.devRef .tc main_v27) (ix2 (0 : Fin 1) q) = KNames.b1f m c q := by
  have h := Walk.W4_arg4 m ρ c
  show StableHlo.after hostOps1 (W4 m ρ c) (Proc.devRef .tc main_v27) (ix2 (0 : Fin 1) q) = _
  revert h
  generalize W4 m ρ c = U
  intro h
  after_results
  show shapeCast S1x256 (U (Proc.devRef .tc main_arg4)) shapeCasts_S256_S1x256 (ix2 (0 : Fin 1) q) = _
  rw [h]
  exact Cert.Lib.HostIdx.castRow_apply (D := 256) _ _ q

theorem scaled2_value
    (h2 : ∀ (n : Fin 50000) (k : Fin 256), W5 m ρ c (Proc.devRef .tc main_v26) (ix2 n k) = KNames.agg1KK m c n k) :
    ∀ (n : Fin 50000) (k : Fin 128), W6 m ρ c (Proc.devRef .tc main_v28) (ix2 n k) = KNames.scaled2K m c n k := by
  intro n k
  have hA := W6_arr m ρ c 4
  show W6 m ρ c (Proc.devRef .tc (Pipeline.arrRef spec1 4)) (ix2 n k) = _
  rw [hA, RegionValue.region1_apply (V5 m ρ) c n k]
  refine (reluProduct1_of _ _ _ _ n k (fun q => KNames.agg1KK m c n q) (KNames.dK m c n) (KNames.b1f m c)
    (fun q => KNames.W2f m c q k) ?_ ?_ ?_ ?_).trans ?_
  · intro q
    exact h2 n q
  · exact (congrFun (Walk.W5_v15 m ρ c) (ix2 n (0 : Fin 1))).trans (Pre.W3_col m ρ c n)
  · intro q
    exact W5_bias m ρ c q
  · intro q
    exact congrFun (Walk.W5_arg5 m ρ c) (ix2 q k)
  · rfl

end Cert.KernelIdeal.Stage3

end
-- ==== Proof.Region2Value.lean ====
import proofs.«130974_j17119739641949_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

/-!
# The bias-and-head region, read as whole arrays

The third region takes a row block of a matrix `A`, the matching rows of a column `d`, and three
rows `b`, `w₁`, `w₂`. With `h = A ⊙ d + b` (the column and the row each broadcast over the block) it
leaves, in each of its two column outputs, the lane sums `∑ q, h(n, q) · wᵢ(q)`. This module states that
for the whole output arrays, index by index, at the ideal values and for any contents the region is
entered with.
-/

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## Layout operations on a column -/

section Column
variable {α : Type}

/-- An `[a]` array cast to `[a, 1]` reads, at `(i, u)`, the operand at `i`, whatever the unit coordinate `u`. -/
theorem head_columnCast_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem head_columnBroadcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The body's arithmetic at an index -/

/-- The hidden block `h = A ⊙ d + b` at row `r`, lane `q`. -/
theorem head_hidden_apply (x0 : Vec Ideal S5000x128 .f32) (x1 : Vec Ideal S5000x1 .f32) (x2 : Vec Ideal S1x128 .f32)
    (r : Fin 5000) (q : Fin 128) :
    k2_pay1 x0 x1 x2 (ix2 r q) = x0 (ix2 r q) * x1 (ix2 r (0 : Fin 1)) + x2 (ix2 (0 : Fin 1) q) := by
  unfold k2_pay1
  simp only [shapeCast_self]
  rw [addf_apply, mulf_apply, head_columnBroadcast_apply, broadcastTo_1b_ab_apply]

/-- A lane sum of a `[5000, 128]` block at row `r` is the sum over the 128 lanes. -/
theorem head_laneSum_apply (src : FVec Ideal S5000x128 .f32) (h : S5000x128.Reduces [1] S5000) (hφ : FKind.Formats .f32)
    (hacc : (0x00000000#32 : BitVec 32) = 0x00000000#32) (r : Fin 5000) :
    multiReduction (F := Ideal) .add [1] S5000 src 0x00000000#32 h hφ hacc (ix1 r) = ∑ q : Fin 128, src (ix2 r q) := by
  refine (Ideal.multiReduction_add_single src 0x00000000#32 h hφ hacc (ix1 r)).trans ?_
  show ∑ q : Fin 128, src (h.lift (ix1 r) q) = ∑ q : Fin 128, src (ix2 r q)
  refine Finset.sum_congr rfl fun q _ => congrArg src ?_
  funext ax
  apply Fin.ext
  match ax with
  | ⟨0, _⟩ => rfl
  | ⟨1, _⟩ => rfl

/-- The first head's stored column at row `r`: the lane sum of `h ⊙ w₁`. -/
theorem head1_apply (x0 : Vec Ideal S5000x128 .f32) (x1 : Vec Ideal S5000x1 .f32) (x2 : Vec Ideal S1x128 .f32)
    (x3 : Vec Ideal S1x128 .f32) (r : Fin 5000) :
    k2_pay2 x0 x1 x2 x3 (ix2 r (0 : Fin 1))
      = ∑ q : Fin 128, (x0 (ix2 r q) * x1 (ix2 r (0 : Fin 1)) + x2 (ix2 (0 : Fin 1) q)) * x3 (ix2 (0 : Fin 1) q) := by
  unfold k2_pay2
  simp only [shapeCast_self]
  rw [head_columnCast_apply, head_laneSum_apply]
  refine Finset.sum_congr rfl fun q _ => ?_
  rw [mulf_apply, head_hidden_apply, broadcastTo_1b_ab_apply]

/-- The second head's stored column at row `r`: the lane sum of `h ⊙ w₂`. -/
theorem head2_apply (x0 : Vec Ideal S5000x128 .f32) (x1 : Vec Ideal S5000x1 .f32) (x2 : Vec Ideal S1x128 .f32)
    (x4 : Vec Ideal S1x128 .f32) (r : Fin 5000) :
    k2_pay3 x0 x1 x2 x4 (ix2 r (0 : Fin 1))
      = ∑ q : Fin 128, (x0 (ix2 r q) * x1 (ix2 r (0 : Fin 1)) + x2 (ix2 (0 : Fin 1) q)) * x4 (ix2 (0 : Fin 1) q) := by
  unfold k2_pay3
  simp only [shapeCast_self]
  rw [head_columnCast_apply, head_laneSum_apply]
  refine Finset.sum_congr rfl fun q _ => ?_
  rw [mulf_apply, head_hidden_apply, broadcastTo_1b_ab_apply]

/-! ## From blocks to the arrays -/

section Arrays
variable (V : (c : Dev nD) → (b : Ref sig .tc) → Buf (Elt Ideal) ((c : Thread nD τ).loc b))

theorem head_offsets_zero : (![0, 0] : Fin 2 → Nat) = fun _ => 0 := funext fun a => by fin_cases a <;> rfl

/-- The index maps over the grid: the row-blocked windows sit at block `t` of the rows, the three single rows at
    their one block. -/
theorem head_index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Row `r`, lane `q` of the matrix block at point `t` is row `5000 t + r` of the matrix. -/
theorem head_matrixBlock_apply (c : Dev nD) (t : Fin cfg2.N) (r : Fin 5000) (q : Fin 128) (n : Fin 50000)
    (hn : n.val = 5000 * t.val + r.val) :
    (iblk2 V c 0 t : Vec Ideal S5000x128 .f32) (ix2 r q) = (V c main_v38 : Vec Ideal S50000x128 .f32) (ix2 n q) := by
  obtain ⟨e0, e1, -⟩ := head_index_facts t
  unfold iblk2
  rw [View.read_apply]
  show V c main_v38 _ = V c main_v38 _
  refine congrArg (V c main_v38 : Vec Ideal S50000x128 .f32) ?_
  funext a
  apply Fin.ext
  match a with
  | ⟨0, _⟩ => show win2_0.index t (0 : Fin 2) * 5000 + 1 * r.val = n.val; rw [e0, hn]; omega
  | ⟨1, _⟩ => show win2_0.index t (1 : Fin 2) * 128 + 1 * q.val = q.val; rw [e1]; omega

/-- Row `r` of the column block at point `t` is row `5000 t + r` of the column. -/
theorem head_columnBlock_apply (c : Dev nD) (t : Fin cfg2.N) (r : Fin 5000) (n : Fin 50000)
    (hn : n.val = 5000 * t.val + r.val) :
    (iblk2 V c 1 t : Vec Ideal S5000x1 .f32) (ix2 r (0 : Fin 1)) = (V c main_v15 : Vec Ideal S50000x1 .f32) (ix2 n (0 : Fin 1)) := by
  obtain ⟨-, -, e0, e1, -⟩ := head_index_facts t
  unfold iblk2
  rw [View.read_apply]
  show V c main_v15 _ = V c main_v15 _
  refine congrArg (V c main_v15 : Vec Ideal S50000x1 .f32) ?_
  funext a
  apply Fin.ext
  match a with
  | ⟨0, _⟩ => show win2_1.index t (0 : Fin 2) * 5000 + 1 * r.val = n.val; rw [e0, hn]; omega
  | ⟨1, _⟩ => show win2_1.index t (1 : Fin 2) * 1 + 1 * (0 : Fin 1).val = (0 : Fin 1).val; rw [e1]; rfl

/-- The bias row's block at any point is the bias row. -/
theorem head_biasBlock_apply (c : Dev nD) (t : Fin cfg2.N) (q : Fin 128) :
    (iblk2 V c 2 t : Vec Ideal S1x128 .f32) (ix2 (0 : Fin 1) q) = (V c main_v43 : Vec Ideal S1x128 .f32) (ix2 (0 : Fin 1) q) := by
  obtain ⟨-, -, -, -, e0, e1, -⟩ := head_index_facts t
  unfold iblk2
  rw [View.read_apply]
  show V c main_v43 _ = V c main_v43 _
  refine congrArg (V c main_v43 : Vec Ideal S1x128 .f32) ?_
  funext a
  apply Fin.ext
  match a with
  | ⟨0, _⟩ => show win2_2.index t (0 : Fin 2) * 1 + 1 * (0 : Fin 1).val = (0 : Fin 1).val; rw [e0]; rfl
  | ⟨1, _⟩ => show win2_2.index t (1 : Fin 2) * 128 + 1 * q.val = q.val; rw [e1]; omega

/-- The first head row's block at any point is that row. -/
theorem head1Block_apply (c : Dev nD) (t : Fin cfg2.N) (q : Fin 128) :
    (iblk2 V c 3 t : Vec Ideal S1x128 .f32) (ix2 (0 : Fin 1) q) = (V c main_v40 : Vec Ideal S1x128 .f32) (ix2 (0 : Fin 1) q) := by
  obtain ⟨-, -, -, -, -, -, e0, e1, -⟩ := head_index_facts t
  unfold iblk2
  rw [View.read_apply]
  show V c main_v40 _ = V c main_v40 _
  refine congrArg (V c main_v40 : Vec Ideal S1x128 .f32) ?_
  funext a
  apply Fin.ext
  match a with
  | ⟨0, _⟩ => show win2_3.index t (0 : Fin 2) * 1 + 1 * (0 : Fin 1).val = (0 : Fin 1).val; rw [e0]; rfl
  | ⟨1, _⟩ => show win2_3.index t (1 : Fin 2) * 128 + 1 * q.val = q.val; rw [e1]; omega

/-- The second head row's block at any point is that row. -/
theorem head2Block_apply (c : Dev nD) (t : Fin cfg2.N) (q : Fin 128) :
    (iblk2 V c 4 t : Vec Ideal S1x128 .f32) (ix2 (0 : Fin 1) q) = (V c main_v42 : Vec Ideal S1x128 .f32) (ix2 (0 : Fin 1) q) := by
  obtain ⟨-, -, -, -, -, -, -, -, e0, e1, -⟩ := head_index_facts t
  unfold iblk2
  rw [View.read_apply]
  show V c main_v42 _ = V c main_v42 _
  refine congrArg (V c main_v42 : Vec Ideal S1x128 .f32) ?_
  funext a
  apply Fin.ext
  match a with
  | ⟨0, _⟩ => show win2_4.index t (0 : Fin 2) * 1 + 1 * (0 : Fin 1).val = (0 : Fin 1).val; rw [e0]; rfl
  | ⟨1, _⟩ => show win2_4.index t (1 : Fin 2) * 128 + 1 * q.val = q.val; rw [e1]; omega

/-- One head at row `n`: the lane sum of `(A(n, ·) · d(n) + b) ⊙ w`. -/
def headRow (A : Vec Ideal S50000x128 .f32) (D : Vec Ideal S50000x1 .f32) (B W : Vec Ideal S1x128 .f32)
    (n : Fin 50000) : Elt Ideal .f32 :=
  ∑ q : Fin 128, (A (ix2 n q) * D (ix2 n (0 : Fin 1)) + B (ix2 (0 : Fin 1) q)) * W (ix2 (0 : Fin 1) q)

/-- One head as a whole column. -/
def headCol (A : Vec Ideal S50000x128 .f32) (D : Vec Ideal S50000x1 .f32) (B W : Vec Ideal S1x128 .f32) :
    Vec Ideal S50000x1 .f32 := fun i => headRow A D B W (i 0)

/-- A head's column read at row `n`. -/
theorem headCol_apply (A : Vec Ideal S50000x128 .f32) (D : Vec Ideal S50000x1 .f32) (B W : Vec Ideal S1x128 .f32)
    (n : Fin 50000) :
    headCol A D B W (ix2 n (0 : Fin 1))
      = ∑ q : Fin 128, (A (ix2 n q) * D (ix2 n (0 : Fin 1)) + B (ix2 (0 : Fin 1) q)) * W (ix2 (0 : Fin 1) q) := rfl

/-! ### The first head (output window 5) -/

/-- What point `t` stores for the first head, at a block index, is the first head's column under that index. -/
theorem head1_block_point (c : Dev nD) (t : Fin cfg2.N) (y : S5000x1.Idx) :
    k2_pay2 (iblk2 V c 0 t) (iblk2 V c 1 t) (iblk2 V c 2 t) (iblk2 V c 3 t) y
      = headCol (V c main_v38) (V c main_v15) (V c main_v43) (V c main_v40) (((cfg2.win 5).blk t).view.emb y) := by
  obtain ⟨r, u, rfl⟩ : ∃ (r : Fin 5000) (u : Fin 1), y = ix2 r u := ⟨y 0, y 1, eq_ix2 y⟩
  obtain rfl : u = 0 := Subsingleton.elim _ _
  obtain ⟨-, -, -, -, -, -, -, -, -, -, e0, e1, -⟩ := head_index_facts t
  refine (head1_apply _ _ _ _ r).trans ?_
  have hn : ((((cfg2.win 5).blk t).view.emb (ix2 r (0 : Fin 1))) 0 : Fin 50000).val = 5000 * t.val + r.val := by
    show win2_5.index t (0 : Fin 2) * 5000 + 1 * r.val = _
    rw [e0]; omega
  show _ = headRow _ _ _ _ ((((cfg2.win 5).blk t).view.emb (ix2 r (0 : Fin 1))) 0)
  unfold headRow
  refine Finset.sum_congr rfl fun q _ => ?_
  rw [head_matrixBlock_apply V c t r q _ hn, head_columnBlock_apply V c t r _ hn, head_biasBlock_apply V c t q, head1Block_apply V c t q]

/-- What point `t` writes back to the first head's array is block `t` of the first head's column. -/
theorem head1_flushed (c : Dev nD) (t : Fin cfg2.N) :
    (dat2 (F := Ideal) V c).flushed 5 t
      = ((cfg2.win 5).blk t).view.read (Elt Ideal) (headCol (V c main_v38) (V c main_v15) (V c main_v43) (V c main_v40)) := by
  show (cfg2.win 5).cut (grid2.coords t) ((dat2 V c).after 5 t) = _
  rw [after2_5]
  unfold out2_5
  rw [View.canon_unit_zero head_offsets_zero]
  simp only [View.ld_unit_zero (S := S5000x128) head_offsets_zero, View.ld_unit_zero (S := S5000x1) head_offsets_zero,
    View.ld_unit_zero (S := S1x128) head_offsets_zero]
  funext j
  exact head1_block_point V c t j

/-- An index of the first head's array is in point `t`'s block iff each coordinate is in the block's range. -/
theorem head1_mem_block (t : Fin cfg2.N) (i : S50000x1.Idx) :
    i ∈ ((cfg2.win 5).blk t).view.set ↔ ∀ a : Fin 2, win2_5.index t a * S5000x1.size a ≤ (i a).val ∧ (i a).val < win2_5.index t a * S5000x1.size a + S5000x1.size a := by
  show i ∈ ((View.whole main_v44_0).slice (win2_5.rect t)).set ↔ _
  rw [View.set_slice_whole, Rect.mem_set_unit]
  exact Iff.rfl

/-- Row `n` is written back by point `n / 5000`. -/
theorem head1_cover (i : S50000x1.Idx) :
    ∃ t : Fin cfg2.N, (cfg2.win 5).flush t = true ∧ i ∈ ((cfg2.win 5).blk t).view.set := by
  have hi0 : (i 0).val < 50000 := (i 0).isLt
  have hi1 : (i 1).val < 1 := (i 1).isLt
  have hN : grid2.N = 10 := N_2
  obtain ⟨t, ht⟩ : ∃ t : Fin cfg2.N, t.val = (i 0).val / 5000 := ⟨⟨(i 0).val / 5000, by show _ < grid2.N; omega⟩, rfl⟩
  obtain ⟨-, -, -, -, -, -, -, -, -, -, e0, e1, -⟩ := head_index_facts t
  refine ⟨t, flush2_5 t, ?_⟩
  rw [head1_mem_block]
  intro a
  match a with
  | ⟨0, _⟩ => show win2_5.index t (0 : Fin 2) * 5000 ≤ (i 0).val ∧ (i 0).val < win2_5.index t (0 : Fin 2) * 5000 + 5000; rw [e0]; omega
  | ⟨1, _⟩ => show win2_5.index t (1 : Fin 2) * 1 ≤ (i 1).val ∧ (i 1).val < win2_5.index t (1 : Fin 2) * 1 + 1; rw [e1]; omega

/-- THE FIRST HEAD'S ARRAY after the region: the first head's column of the arrays the region is entered with. -/
theorem head1_array (c : Dev nD) :
    (dat2 (F := Ideal) V c).arrAt 5 cfg2.N = headCol (V c main_v38) (V c main_v15) (V c main_v43) (V c main_v40) :=
  (dat2 (F := Ideal) V c).arrAt_eq_of_cover 5 _ (fun t _ => head1_flushed V c t) head1_cover

/-- … read at row `n`, the entry arrays named `A`, `D`, `B`, `W` at their literal shapes. -/
theorem head1_array_apply (c : Dev nD) (n : Fin 50000)
    (A : Vec Ideal S50000x128 .f32) (D : Vec Ideal S50000x1 .f32) (B W : Vec Ideal S1x128 .f32)
    (hA : A = V c main_v38) (hD : D = V c main_v15) (hB : B = V c main_v43) (hW : W = V c main_v40) :
    @Eq (Elt Ideal .f32) ((dat2 (F := Ideal) V c).arrAt 5 cfg2.N (ix2 n (0 : Fin 1)))
      (∑ q : Fin 128, (A (ix2 n q) * D (ix2 n (0 : Fin 1)) + B (ix2 (0 : Fin 1) q)) * W (ix2 (0 : Fin 1) q)) := by
  subst hA hD hB hW
  rw [head1_array]; rfl

/-! ### The second head (output window 6) -/

/-- What point `t` stores for the second head, at a block index, is the second head's column under that index. -/
theorem head2_block_point (c : Dev nD) (t : Fin cfg2.N) (y : S5000x1.Idx) :
    k2_pay3 (iblk2 V c 0 t) (iblk2 V c 1 t) (iblk2 V c 2 t) (iblk2 V c 4 t) y
      = headCol (V c main_v38) (V c main_v15) (V c main_v43) (V c main_v42) (((cfg2.win 6).blk t).view.emb y) := by
  obtain ⟨r, u, rfl⟩ : ∃ (r : Fin 5000) (u : Fin 1), y = ix2 r u := ⟨y 0, y 1, eq_ix2 y⟩
  obtain rfl : u = 0 := Subsingleton.elim _ _
  obtain ⟨-, -, -, -, -, -, -, -, -, -, -, -, e0, e1⟩ := head_index_facts t
  refine (head2_apply _ _ _ _ r).trans ?_
  have hn : ((((cfg2.win 6).blk t).view.emb (ix2 r (0 : Fin 1))) 0 : Fin 50000).val = 5000 * t.val + r.val := by
    show win2_6.index t (0 : Fin 2) * 5000 + 1 * r.val = _
    rw [e0]; omega
  show _ = headRow _ _ _ _ ((((cfg2.win 6).blk t).view.emb (ix2 r (0 : Fin 1))) 0)
  unfold headRow
  refine Finset.sum_congr rfl fun q _ => ?_
  rw [head_matrixBlock_apply V c t r q _ hn, head_columnBlock_apply V c t r _ hn, head_biasBlock_apply V c t q, head2Block_apply V c t q]

/-- What point `t` writes back to the second head's array is block `t` of the second head's column. -/
theorem head2_flushed (c : Dev nD) (t : Fin cfg2.N) :
    (dat2 (F := Ideal) V c).flushed 6 t
      = ((cfg2.win 6).blk t).view.read (Elt Ideal) (headCol (V c main_v38) (V c main_v15) (V c main_v43) (V c main_v42)) := by
  show (cfg2.win 6).cut (grid2.coords t) ((dat2 V c).after 6 t) = _
  rw [after2_6]
  unfold out2_6
  rw [View.canon_unit_zero head_offsets_zero]
  simp only [View.ld_unit_zero (S := S5000x128) head_offsets_zero, View.ld_unit_zero (S := S5000x1) head_offsets_zero,
    View.ld_unit_zero (S := S1x128) head_offsets_zero]
  funext j
  exact head2_block_point V c t j

/-- An index of the second head's array is in point `t`'s block iff each coordinate is in the block's range. -/
theorem head2_mem_block (t : Fin cfg2.N) (i : S50000x1.Idx) :
    i ∈ ((cfg2.win 6).blk t).view.set ↔ ∀ a : Fin 2, win2_6.index t a * S5000x1.size a ≤ (i a).val ∧ (i a).val < win2_6.index t a * S5000x1.size a + S5000x1.size a := by
  show i ∈ ((View.whole main_v44_1).slice (win2_6.rect t)).set ↔ _
  rw [View.set_slice_whole, Rect.mem_set_unit]
  exact Iff.rfl

/-- Row `n` is written back by point `n / 5000`. -/
theorem head2_cover (i : S50000x1.Idx) :
    ∃ t : Fin cfg2.N, (cfg2.win 6).flush t = true ∧ i ∈ ((cfg2.win 6).blk t).view.set := by
  have hi0 : (i 0).val < 50000 := (i 0).isLt
  have hi1 : (i 1).val < 1 := (i 1).isLt
  have hN : grid2.N = 10 := N_2
  obtain ⟨t, ht⟩ : ∃ t : Fin cfg2.N, t.val = (i 0).val / 5000 := ⟨⟨(i 0).val / 5000, by show _ < grid2.N; omega⟩, rfl⟩
  obtain ⟨-, -, -, -, -, -, -, -, -, -, -, -, e0, e1⟩ := head_index_facts t
  refine ⟨t, flush2_6 t, ?_⟩
  rw [head2_mem_block]
  intro a
  match a with
  | ⟨0, _⟩ => show win2_6.index t (0 : Fin 2) * 5000 ≤ (i 0).val ∧ (i 0).val < win2_6.index t (0 : Fin 2) * 5000 + 5000; rw [e0]; omega
  | ⟨1, _⟩ => show win2_6.index t (1 : Fin 2) * 1 ≤ (i 1).val ∧ (i 1).val < win2_6.index t (1 : Fin 2) * 1 + 1; rw [e1]; omega

/-- THE SECOND HEAD'S ARRAY after the region: the second head's column of the arrays the region is entered with. -/
theorem head2_array (c : Dev nD) :
    (dat2 (F := Ideal) V c).arrAt 6 cfg2.N = headCol (V c main_v38) (V c main_v15) (V c main_v43) (V c main_v42) :=
  (dat2 (F := Ideal) V c).arrAt_eq_of_cover 6 _ (fun t _ => head2_flushed V c t) head2_cover

/-- … read at row `n`, the entry arrays named `A`, `D`, `B`, `W` at their literal shapes. -/
theorem head2_array_apply (c : Dev nD) (n : Fin 50000)
    (A : Vec Ideal S50000x128 .f32) (D : Vec Ideal S50000x1 .f32) (B W : Vec Ideal S1x128 .f32)
    (hA : A = V c main_v38) (hD : D = V c main_v15) (hB : B = V c main_v43) (hW : W = V c main_v42) :
    @Eq (Elt Ideal .f32) ((dat2 (F := Ideal) V c).arrAt 6 cfg2.N (ix2 n (0 : Fin 1)))
      (∑ q : Fin 128, (A (ix2 n q) * D (ix2 n (0 : Fin 1)) + B (ix2 (0 : Fin 1) q)) * W (ix2 (0 : Fin 1) q)) := by
  subst hA hD hB hW
  rw [head2_array]; rfl

end Arrays

end Cert.KernelIdeal.RegionValue

end
-- ==== Proof.KStage56.lean ====
/-
  The last two stages of the kernel program's value.

  The third region's two outputs: with h(n, q) = agg(n, q) · d(n) + b(q) the second layer's features, each output is a
  node's row contracted with one half of the head weights, half_i(n) = ∑ q, h(n, q) · Wl(128 i + q).  The region is entered
  with the aggregated features, the per-node factor as a column, and three rows the stretch before it cuts from the
  arguments: the second bias, and the two halves of the head's weight column laid out as rows.

  The closing stretch: each query names two nodes by index words; a negative word is wrapped by the number of nodes and the
  result clamped into the node range; the two halves are looked up at those nodes and added, the bias is added, and the
  logistic function 1 / (1 + exp (−s)) is taken.
-/
import proofs.«130974_j17119739641949_2_alg».proof.Proof.KNames
import proofs.«130974_j17119739641949_2_alg».proof.Proof.KernelWalk
import proofs.«130974_j17119739641949_2_alg».proof.Proof.KernelPre
import proofs.«130974_j17119739641949_2_alg».proof.Proof.Region2Value
import proofs.«130974_j17119739641949_2_alg».proof.Proof.LibGatherScatter
import proofs.«130974_j17119739641949_2_alg».proof.Proof.LibHostIdx
import Idealize.ShloMosaic.Lib.StableHlo.Run
import Idealize.ShloMosaic.PureOps.Ideal.Laws

set_option maxRecDepth 16384

noncomputable section

namespace Cert.KernelIdeal.Stage56

open Cert.KernelIdeal Cert.KernelIdeal.Gen
open Idealize.ShloMosaic Idealize.ShloMosaic.TcCoe Idealize.SL.Sem
open Idealize.ShloMosaic.ValueIdx Idealize.ShloMosaic.StableHlo

/-! ## The closing host stretch as one term -/

/-- Column 0 of the query pairs, as a vector. -/
def pairCol0 (P : IVec S100000x2 32) : IVec S100000 32 :=
  shapeCast S100000 (extractStridedSlice S100000x1 ![0, 0] P slices_S100000x2_S100000x1_0_0) shapeCasts_S100000x1_S100000

/-- Column 1 of the query pairs, as a vector. -/
def pairCol1 (P : IVec S100000x2 32) : IVec S100000 32 :=
  shapeCast S100000 (extractStridedSlice S100000x1 ![0, 1] P slices_S100000x2_S100000x1_0_1) shapeCasts_S100000x1_S100000

/-- Index words with the negative ones wrapped by the number of nodes. -/
def wrapVec (v : IVec S100000 32) : IVec S100000 32 :=
  select (cmpi .slt v (broadcastInDim S100000 ![] bcast_S_S100000 (constantI S_ 32 0#32)))
    (addi v (broadcastInDim S100000 ![] bcast_S_S100000 (constantI S_ 32 50000#32))) v

/-- A head's column looked up at the wrapped index words. -/
def lookup (H : FVec Ideal S50000x1 .f32) (v : IVec S100000 32) : FVec Ideal S100000 .f32 :=
  Host.gather gather_S50000_S100000x1_S100000_n_0_n_n_0_1_1 (shapeCast S50000 H shapeCasts_S50000x1_S50000)
    (broadcastInDim S100000x1 ![0] bcast_S100000_S100000x1_0 (wrapVec v))

/-- The score of every query: the two looked-up scalars added, plus the bias. -/
def scoreVec (P : IVec S100000x2 32) (H0 H1 : FVec Ideal S50000x1 .f32) (B : FVec Ideal S1 .f32) : FVec Ideal S100000 .f32 :=
  addf (addf (lookup H0 (pairCol0 P)) (lookup H1 (pairCol1 P)))
    (broadcastInDim S100000 ![] bcast_S_S100000 (shapeCast S_ B shapeCasts_S1_S_))

/-- The float word of one, at every query. -/
def oneVec : FVec Ideal S100000 .f32 :=
  broadcastInDim S100000 ![] bcast_S_S100000 (constant (F := Ideal) S_ .f32 0x3F800000#32)

/-- The result column: the logistic function of every score. -/
def resultCol (P : IVec S100000x2 32) (H0 H1 : FVec Ideal S50000x1 .f32) (B : FVec Ideal S1 .f32) : FVec Ideal S100000x1 .f32 :=
  shapeCast S100000x1
    (Host.divf (F := Ideal) oneVec (addf oneVec (Host.exp (F := Ideal) (Host.negf (F := Ideal) (scoreVec P H0 H1 B)))))
    shapeCasts_S100000_S100000x1

/-! ## The closing stretch read at a query -/

/-- A wrapped index vector at query `p`. -/
theorem wrapVec_apply (v : IVec S100000 32) (p : Fin 100000) : wrapVec v (ix1 p) = Cert.Spec.wrap (v (ix1 p)) := rfl

/-- Column 0 of the pairs at query `p`. -/
theorem pairCol0_apply (P : IVec S100000x2 32) (p : Fin 100000) : pairCol0 P (ix1 p) = P (ix2 p (0 : Fin 2)) := by
  unfold pairCol0
  refine (Cert.Lib.HostIdx.castFlat_apply _ _ p).trans ?_
  refine extractStridedSlice_apply _ _ _ (ix2 p (0 : Fin 1)) (ix2 p (0 : Fin 2)) (fun a => ?_)
  match a with
  | ⟨0, _⟩ => show p.val = 0 + p.val; omega
  | ⟨1, _⟩ => rfl

/-- Column 1 of the pairs at query `p`. -/
theorem pairCol1_apply (P : IVec S100000x2 32) (p : Fin 100000) : pairCol1 P (ix1 p) = P (ix2 p (1 : Fin 2)) := by
  unfold pairCol1
  refine (Cert.Lib.HostIdx.castFlat_apply _ _ p).trans ?_
  refine extractStridedSlice_apply _ _ _ (ix2 p (0 : Fin 1)) (ix2 p (1 : Fin 2)) (fun a => ?_)
  match a with
  | ⟨0, _⟩ => show p.val = 0 + p.val; omega
  | ⟨1, _⟩ => rfl

/-- A lookup at query `p`: the head's column at the wrapped and clamped index. -/
theorem lookup_apply (H : FVec Ideal S50000x1 .f32) (v : IVec S100000 32) (p : Fin 100000) :
    lookup H v (ix1 p) = H (ix2 (Cert.Spec.node (Cert.Spec.wrap (v (ix1 p)))) (0 : Fin 1)) := by
  unfold lookup
  refine (Cert.Lib.GatherScatter.gather_flat_apply_ix1_of_eq (by decide) gather_S50000_S100000x1_S100000_n_0_n_n_0_1_1
    (wf := gather_S50000_S100000x1_S100000_n_0_n_n_0_1_1_wf) rfl _ _ p).trans ?_
  refine (Cert.Lib.HostIdx.castFlat_apply _ H _).trans ?_
  refine congrArg H ?_
  refine congrArg (fun k : Fin 50000 => ix2 k (0 : Fin 1)) ?_
  apply Fin.ext
  show min ((broadcastInDim S100000x1 ![0] bcast_S100000_S100000x1_0 (wrapVec v)) (ix2 p (0 : Fin 1))).toInt.toNat (50000 - 1)
    = min (Cert.Spec.wrap (v (ix1 p))).toInt.toNat 49999
  rw [Cert.Lib.HostIdx.bcastCol_apply bcast_S100000_S100000x1_0 (wrapVec v) p]
  rfl

/-- The bias, reshaped to a scalar and broadcast, at any query. -/
theorem biasVec_apply (B : FVec Ideal S1 .f32) (p : Fin 100000) :
    broadcastInDim S100000 ![] bcast_S_S100000 (shapeCast S_ B shapeCasts_S1_S_) (ix1 p) = B (ix1 (0 : Fin 1)) := by
  refine (broadcastInDim_apply _ _ _ (ix1 p) ix0 (fun a => a.elim0)).trans ?_
  refine shapeCast_apply B _ ix0 (ix1 (0 : Fin 1)) ?_
  rw [Shape.rowMajor_val_one]
  rfl

/-- The score at query `p`: the two looked-up scalars added, plus the bias. -/
theorem scoreVec_apply (P : IVec S100000x2 32) (H0 H1 : FVec Ideal S50000x1 .f32) (B : FVec Ideal S1 .f32) (p : Fin 100000) :
    scoreVec P H0 H1 B (ix1 p)
      = H0 (ix2 (Cert.Spec.node (Cert.Spec.wrap (P (ix2 p (0 : Fin 2))))) (0 : Fin 1))
          + H1 (ix2 (Cert.Spec.node (Cert.Spec.wrap (P (ix2 p (1 : Fin 2))))) (0 : Fin 1))
          + B (ix1 (0 : Fin 1)) := by
  unfold scoreVec
  rw [addf_apply, addf_apply, lookup_apply, lookup_apply, pairCol0_apply, pairCol1_apply, biasVec_apply]

/-- The result column at query `p`: the logistic function of the score. -/
theorem resultCol_apply (P : IVec S100000x2 32) (H0 H1 : FVec Ideal S50000x1 .f32) (B : FVec Ideal S1 .f32) (p : Fin 100000) :
    resultCol P H0 H1 B (ix2 p (0 : Fin 1))
      = KNames.logistic (H0 (ix2 (Cert.Spec.node (Cert.Spec.wrap (P (ix2 p (0 : Fin 2))))) (0 : Fin 1))
          + H1 (ix2 (Cert.Spec.node (Cert.Spec.wrap (P (ix2 p (1 : Fin 2))))) (0 : Fin 1))
          + B (ix1 (0 : Fin 1))) := by
  unfold resultCol
  refine (Cert.Lib.HostIdx.castCol_apply _ _ p).trans ?_
  rw [← scoreVec_apply P H0 H1 B p]
  rfl

section Boundaries
variable (m : (ℓ : Loc nD τ sig) → Buf (Elt Ideal) ℓ) (ρ : Dev nD → PrngReg) (c : Dev nD)

/-! ## The three rows the third region is entered with -/

/-- The second bias, as a row, at the third region's entry. -/
theorem biasRow_eq :
    (W7 m ρ c (Proc.devRef .tc main_v43) : Vec Ideal S1x128 .f32)
      = shapeCast S1x128 (W6 m ρ c (Proc.devRef .tc main_arg6) : Vec Ideal S128 .f32) shapeCasts_S128_S1x128 := by
  show StableHlo.after hostOps2 (W6 m ρ c) (Proc.devRef .tc main_v43) = _
  generalize W6 m ρ c = U
  after_results
  rfl

/-- … at lane `q`: the second bias's entry `q`. -/
theorem biasRow_apply (q : Fin 128) :
    (W7 m ρ c (Proc.devRef .tc main_v43) : Vec Ideal S1x128 .f32) (ix2 (0 : Fin 1) q) = KNames.b2f m c q := by
  refine (congrFun (biasRow_eq m ρ c) (ix2 (0 : Fin 1) q)).trans ?_
  refine (Cert.Lib.HostIdx.castRow_apply _ _ q).trans ?_
  exact congrFun (Walk.W6_arg6 m ρ c) (ix1 q)

/-- The first half of the head weights, as a row, at the third region's entry. -/
theorem headRow1_eq :
    (W7 m ρ c (Proc.devRef .tc main_v40) : Vec Ideal S1x128 .f32)
      = shapeCast S1x128 (extractStridedSlice S128x1 ![0, 0] (W6 m ρ c (Proc.devRef .tc main_arg7) : Vec Ideal S256x1 .f32) slices_S256x1_S128x1_0_0)
          shapeCasts_S128x1_S1x128 := by
  show StableHlo.after hostOps2 (W6 m ρ c) (Proc.devRef .tc main_v40) = _
  generalize W6 m ρ c = U
  after_results
  rfl

/-- … at lane `q`: head weight `q`. -/
theorem headRow1_apply (q : Fin 128) :
    (W7 m ρ c (Proc.devRef .tc main_v40) : Vec Ideal S1x128 .f32) (ix2 (0 : Fin 1) q) = KNames.Wlf m c ⟨q.val, by omega⟩ := by
  refine (congrFun (headRow1_eq m ρ c) (ix2 (0 : Fin 1) q)).trans ?_
  refine (Cert.Lib.HostIdx.castColRow_apply _ _ q).trans ?_
  refine (extractStridedSlice_apply _ _ _ (ix2 q (0 : Fin 1)) (ix2 (⟨q.val, by omega⟩ : Fin 256) (0 : Fin 1)) (fun a => ?_)).trans ?_
  · match a with
    | ⟨0, _⟩ => show q.val = 0 + q.val; omega
    | ⟨1, _⟩ => rfl
  · exact congrFun (Walk.W6_arg7 m ρ c) (ix2 (⟨q.val, by omega⟩ : Fin 256) (0 : Fin 1))

/-- The second half of the head weights, as a row, at the third region's entry. -/
theorem headRow2_eq :
    (W7 m ρ c (Proc.devRef .tc main_v42) : Vec Ideal S1x128 .f32)
      = shapeCast S1x128 (extractStridedSlice S128x1 ![128, 0] (W6 m ρ c (Proc.devRef .tc main_arg7) : Vec Ideal S256x1 .f32) slices_S256x1_S128x1_128_0)
          shapeCasts_S128x1_S1x128 := by
  show StableHlo.after hostOps2 (W6 m ρ c) (Proc.devRef .tc main_v42) = _
  generalize W6 m ρ c = U
  after_results
  rfl

/-- … at lane `q`: head weight `128 + q`. -/
theorem headRow2_apply (q : Fin 128) :
    (W7 m ρ c (Proc.devRef .tc main_v42) : Vec Ideal S1x128 .f32) (ix2 (0 : Fin 1) q) = KNames.Wlf m c ⟨128 + q.val, by omega⟩ := by
  refine (congrFun (headRow2_eq m ρ c) (ix2 (0 : Fin 1) q)).trans ?_
  refine (Cert.Lib.HostIdx.castColRow_apply _ _ q).trans ?_
  refine (extractStridedSlice_apply _ _ _ (ix2 q (0 : Fin 1)) (ix2 (⟨128 + q.val, by omega⟩ : Fin 256) (0 : Fin 1)) (fun a => ?_)).trans ?_
  · match a with
    | ⟨0, _⟩ => show 128 + q.val = 128 + q.val; rfl
    | ⟨1, _⟩ => rfl
  · exact congrFun (Walk.W6_arg7 m ρ c) (ix2 (⟨128 + q.val, by omega⟩ : Fin 256) (0 : Fin 1))

/-- The per-node factor's column at the third region's entry, at node `n`. -/
theorem factorCol_apply (n : Fin 50000) :
    (W7 m ρ c (Proc.devRef .tc main_v15) : Vec Ideal S50000x1 .f32) (ix2 n (0 : Fin 1)) = KNames.dK m c n :=
  (congrFun (Walk.W7_v15 m ρ c) (ix2 n (0 : Fin 1))).trans (Pre.W3_col m ρ c n)

/-! ## The closing stretch as the result column -/

set_option maxHeartbeats 1600000 in
/-- The closing stretch leaves the result column of the pairs, the two heads and the bias as it finds them. -/
theorem result_eq :
    (W9 m ρ c (Proc.devRef .tc main_v75) : FVec Ideal S100000x1 .f32)
      = resultCol (W8 m ρ c (Proc.devRef .tc main_arg2)) (W8 m ρ c (Proc.devRef .tc main_v44_0))
          (W8 m ρ c (Proc.devRef .tc main_v44_1)) (W8 m ρ c (Proc.devRef .tc main_arg8)) := by
  show StableHlo.after hostOps3 (W8 m ρ c) (Proc.devRef .tc main_v75) = _
  generalize W8 m ρ c = U
  after_results_simp
  rfl

end Boundaries

/-! ## The two stages -/

/-- THE TWO HEADS: given the aggregated features the third region is entered with, its two outputs are, at every node,
    the second layer's feature row contracted with the first and with the second half of the head weights. -/
theorem heads_value (m : (ℓ : Loc nD τ sig) → Buf (Elt Ideal) ℓ) (ρ : Dev nD → PrngReg) (c : Dev nD)
    (h4 : ∀ (n : Fin 50000) (k : Fin 128), W7 m ρ c (Proc.devRef .tc main_v38) (ix2 n k) = KNames.agg2KK m c n k) (n : Fin 50000) :
    W8 m ρ c (Proc.devRef .tc main_v44_0) (ix2 n (0 : Fin 1)) = Cert.Spec.half0 (KNames.featK m c) (KNames.Wlf m c) n
    ∧ W8 m ρ c (Proc.devRef .tc main_v44_1) (ix2 n (0 : Fin 1)) = Cert.Spec.half1 (KNames.featK m c) (KNames.Wlf m c) n := by
  have e15 : (V7 m ρ c main_v15 : Vec Ideal S50000x1 .f32) (ix2 n (0 : Fin 1)) = KNames.dK m c n := factorCol_apply m ρ c n
  constructor
  · refine (congrFun (W8_arr m ρ c 5) (ix2 n (0 : Fin 1))).trans ?_
    refine (RegionValue.head1_array_apply (V7 m ρ) c n _ _ _ _ rfl rfl rfl rfl).trans ?_
    unfold Cert.Spec.half0
    refine Finset.sum_congr rfl fun q _ => ?_
    have e38 : (V7 m ρ c main_v38 : Vec Ideal S50000x128 .f32) (ix2 n q) = KNames.agg2KK m c n q := h4 n q
    have e43 : (V7 m ρ c main_v43 : Vec Ideal S1x128 .f32) (ix2 (0 : Fin 1) q) = KNames.b2f m c q := biasRow_apply m ρ c q
    have e40 : (V7 m ρ c main_v40 : Vec Ideal S1x128 .f32) (ix2 (0 : Fin 1) q) = KNames.Wlf m c ⟨q.val, by omega⟩ := headRow1_apply m ρ c q
    rw [e38, e15, e43, e40]
    rfl
  · refine (congrFun (W8_arr m ρ c 6) (ix2 n (0 : Fin 1))).trans ?_
    refine (RegionValue.head2_array_apply (V7 m ρ) c n _ _ _ _ rfl rfl rfl rfl).trans ?_
    unfold Cert.Spec.half1
    refine Finset.sum_congr rfl fun q _ => ?_
    have e38 : (V7 m ρ c main_v38 : Vec Ideal S50000x128 .f32) (ix2 n q) = KNames.agg2KK m c n q := h4 n q
    have e43 : (V7 m ρ c main_v43 : Vec Ideal S1x128 .f32) (ix2 (0 : Fin 1) q) = KNames.b2f m c q := biasRow_apply m ρ c q
    have e42 : (V7 m ρ c main_v42 : Vec Ideal S1x128 .f32) (ix2 (0 : Fin 1) q) = KNames.Wlf m c ⟨128 + q.val, by omega⟩ := headRow2_apply m ρ c q
    rw [e38, e15, e43, e42]
    rfl

/-- THE RESULT: given the two heads, the program's result column is, at every query, the logistic function of the
    query's score. -/
theorem result_value (m : (ℓ : Loc nD τ sig) → Buf (Elt Ideal) ℓ) (ρ : Dev nD → PrngReg) (c : Dev nD)
    (h5 : ∀ n : Fin 50000, W8 m ρ c (Proc.devRef .tc main_v44_0) (ix2 n (0 : Fin 1)) = Cert.Spec.half0 (KNames.featK m c) (KNames.Wlf m c) n
                          ∧ W8 m ρ c (Proc.devRef .tc main_v44_1) (ix2 n (0 : Fin 1)) = Cert.Spec.half1 (KNames.featK m c) (KNames.Wlf m c) n)
    (p : Fin 100000) :
    W9 m ρ c (Proc.devRef .tc main_v75) (ix2 p (0 : Fin 1)) = KNames.logistic (KNames.scoreKK m c p) := by
  have e := result_eq m ρ c
  rw [Walk.W8_arg2 m ρ c, Walk.W8_arg8 m ρ c] at e
  refine (congrFun e (ix2 p (0 : Fin 1))).trans ?_
  refine (resultCol_apply _ _ _ _ p).trans ?_
  refine congrArg KNames.logistic ?_
  rw [(h5 _).1, (h5 _).2]
  rfl

end Cert.KernelIdeal.Stage56

end
-- ==== Proof.RefValue.lean ====
/-
  The reference program read as the specification's per-edge chain.

  The program weights every edge e by d(source e) * d(target e), where the source and target nodes are the raw index words
  wrapped (a negative word plus the node count) and clamped into the node range, and d is the per-node factor. A layer is:
  a dense product; a gather of the product's rows at the edges' sources; the rows scaled by the edge weights; a
  scatter-add of the scaled rows into the edges' raw targets (an edge whose raw target is not a node is dropped); a bias.
  Between the two layers sits a maximum with zero. The head gathers two feature rows per query, joins them side by side,
  contracts the joined row with the head weights and adds the head bias.

  Each operation is read at one index. A gather at index (e, k) reads its table at the clamped start index; a
  scatter-add at (n, k) is the operand's entry plus the sum of the update entries (e, k) over the edges e whose scatter
  index, read signed, is n; a concatenation along the columns reads the first piece at a column below 128 and the second
  piece, 128 columns to the left, otherwise. Chaining these readings from the arguments to the score gives, entry by
  entry, the functions of Spec: lin1, agg1R, act1R, lin2R, agg2R, feat2R, pair and scoreR.
-/
import proofs.«130974_j17119739641949_2_alg».proof.Proof.RefReadP
import proofs.«130974_j17119739641949_2_alg».proof.Proof.Spec
import proofs.«130974_j17119739641949_2_alg».proof.Proof.Names
import proofs.«130974_j17119739641949_2_alg».proof.Proof.LibGatherScatter
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.ReadP Cert.ReferenceIdeal.Gen Idealize.ShloMosaic Idealize.ShloMosaic.ValueIdx
open Cert.Names Cert.Lib.GatherScatter

/-! ## The arguments as the specification's functions -/

/-- The node features: entry (n, q) of the second argument. -/
abbrev feats (x1 : (⟨S50000x128, .f32⟩ : BufTy).Contents (Elt Ideal)) : Fin 50000 → Fin 128 → EReal :=
  fun n q => x1 (ix2 n q)
/-- The first layer's weights. -/
abbrev wts1 (x3 : (⟨S128x256, .f32⟩ : BufTy).Contents (Elt Ideal)) : Fin 128 → Fin 256 → EReal :=
  fun q k => x3 (ix2 q k)
/-- The first layer's bias. -/
abbrev bias1 (x4 : (⟨S256, .f32⟩ : BufTy).Contents (Elt Ideal)) : Fin 256 → EReal := fun k => x4 (ix1 k)
/-- The second layer's weights. -/
abbrev wts2 (x5 : (⟨S256x128, .f32⟩ : BufTy).Contents (Elt Ideal)) : Fin 256 → Fin 128 → EReal :=
  fun q k => x5 (ix2 q k)
/-- The second layer's bias. -/
abbrev bias2 (x6 : (⟨S128, .f32⟩ : BufTy).Contents (Elt Ideal)) : Fin 128 → EReal := fun k => x6 (ix1 k)
/-- The zero the first layer's output is compared with, as the word the program holds. -/
abbrev zeroW : EReal := Ideal.ofBits .f32 0x00000000#32
/-- The head's 256 weights. -/
abbrev wtsH (x7 : (⟨S256x1, .f32⟩ : BufTy).Contents (Elt Ideal)) : Fin 256 → EReal := fun q => x7 (ix2 q (0 : Fin 1))
/-- A query's first node index word. -/
abbrev mask0 (x2 : (⟨S100000x2, .i32⟩ : BufTy).Contents (Elt Ideal)) : Fin 100000 → BitVec 32 :=
  fun p => x2 (ix2 p (0 : Fin 2))
/-- A query's second node index word. -/
abbrev mask1 (x2 : (⟨S100000x2, .i32⟩ : BufTy).Contents (Elt Ideal)) : Fin 100000 → BitVec 32 :=
  fun p => x2 (ix2 p (1 : Fin 2))

/-! ## Three readings used throughout -/

/-- A start index word that is w, clamped, is the specification's node of w. -/
theorem node_of_eq {v w : BitVec 32} (hv : v = w) (h : min v.toInt.toNat (50000 - 1) < 50000) :
    (⟨min v.toInt.toNat (50000 - 1), h⟩ : Fin 50000) = Spec.node w := by
  subst hv
  rfl

/-- The host's accumulating scatter of rows read at (n, k): the operand's entry plus the sum of the update entries (e, k)
    over the rows e whose scatter index, read signed, is n. -/
theorem scatterAdd_rows_at {N E D w : Nat} (d : ScatterDims ⟨2, ![N, D]⟩ ⟨2, ![E, 1]⟩ ⟨2, ![E, D]⟩)
    {wf : ScatterDims.WF ⟨2, ![N, D]⟩ ⟨2, ![E, 1]⟩ ⟨2, ![E, D]⟩ [1] [0] [0] 1}
    (hd : d = rowsScatterDims N E D wf)
    (x : FVec Ideal ⟨2, ![N, D]⟩ .f32) (idx : IVec ⟨2, ![E, 1]⟩ w) (upd : FVec Ideal ⟨2, ![E, D]⟩ .f32)
    (n : Fin N) (k : Fin D) :
    Host.scatterAdd d x idx upd (ix2 n k)
      = x (ix2 n k) + ∑ e ∈ Finset.univ.filter (fun e : Fin E => (idx (ix2 e (0 : Fin 1))).toInt = (n.val : Int)),
          upd (ix2 e k) :=
  hostScatterAdd_rows_apply_of_eq d hd x idx upd n k

/-- Two blocks of 128 columns joined side by side, read at a column of the first block. -/
theorem concat_left {α : Type} (f g : S100000x128.Idx → α) (p : Fin 100000) (q : Fin 256) (h : q.val < 128) :
    concatenate S100000x256 1 [⟨S100000x128, f⟩, ⟨S100000x128, g⟩]
        Facts₀.concatenates_S100000x128_S100000x128_S100000x256_d1 (ix2 p q)
      = f (ix2 p (⟨q.val, h⟩ : Fin 128)) := by
  refine concatenate_apply_piece _ _ _ (ix2 p q) 0 (by show (0 : Nat) < 2; decide) S100000x128 f rfl rfl 0 rfl
    (ix2 p (⟨q.val, h⟩ : Fin 128)) ?_ ?_
  · intro b hb
    match b, hb with
    | ⟨0, _⟩, _ => rfl
    | ⟨1, _⟩, hb => exact absurd (Fin.ext rfl) hb
  · exact Nat.zero_add _

/-- The same read at a column of the second block: that block's entry 128 columns to the left. -/
theorem concat_right {α : Type} (f g : S100000x128.Idx → α) (p : Fin 100000) (q : Fin 256) (h : ¬ q.val < 128) :
    concatenate S100000x256 1 [⟨S100000x128, f⟩, ⟨S100000x128, g⟩]
        Facts₀.concatenates_S100000x128_S100000x128_S100000x256_d1 (ix2 p q)
      = g (ix2 p (⟨q.val - 128, by omega⟩ : Fin 128)) := by
  refine concatenate_apply_piece _ _ _ (ix2 p q) 1 (by show (1 : Nat) < 2; decide) S100000x128 g rfl rfl 128 rfl
    (ix2 p (⟨q.val - 128, by omega⟩ : Fin 128)) ?_ ?_
  · intro b hb
    match b, hb with
    | ⟨0, _⟩, _ => rfl
    | ⟨1, _⟩, hb => exact absurd (Fin.ext rfl) hb
  · show 128 + (q.val - 128) = q.val
    omega

section Chain

variable (x0 : (⟨S2x800000, .i32⟩ : BufTy).Contents (Elt Ideal))
  (x1 : (⟨S50000x128, .f32⟩ : BufTy).Contents (Elt Ideal))
  (x2 : (⟨S100000x2, .i32⟩ : BufTy).Contents (Elt Ideal))
  (x3 : (⟨S128x256, .f32⟩ : BufTy).Contents (Elt Ideal))
  (x4 : (⟨S256, .f32⟩ : BufTy).Contents (Elt Ideal))
  (x5 : (⟨S256x128, .f32⟩ : BufTy).Contents (Elt Ideal))
  (x6 : (⟨S128, .f32⟩ : BufTy).Contents (Elt Ideal))
  (x7 : (⟨S256x1, .f32⟩ : BufTy).Contents (Elt Ideal))
  (x8 : (⟨S1, .f32⟩ : BufTy).Contents (Elt Ideal))

/-! ## The per-node factor -/

/-- The per-node factor is a non-negative real number: it is an inverse square root taken only where the degree is
    positive, and zero elsewhere, whatever extended real the degree is. -/
theorem dNode_nonneg (n : Fin 50000) : 0 ≤ dNode x0 n ∧ dNode x0 n ≠ ⊤ := by
  unfold dNode
  rw [val_main_v14_apply, val_main_v12_apply, val_main_v13_apply, val_main_call0_v1_apply, val_main_call0_v0_apply,
    val_main_cst_2_apply, val_main_v11_apply, val_main_cst_1_apply]
  generalize val_main_v10 (F := Ideal) x0 (ix1 n) = v
  rw [Ideal.ofBits_def, Ideal.ofBits_zero_f32]
  exact Spec.guarded_rsqrt v

/-! ## (a) The wrapped index words -/

/-- The source index words, wrapped (first use: the edge weights). -/
theorem v19_at (e : Fin 850000) : val_main_v19 (F := Ideal) x0 (ix1 e) = Spec.wrap (rowW x0 e) := by
  unfold Spec.wrap rowW
  rw [val_main_v19_apply, val_main_v16_apply, val_main_v18_apply, val_main_v15_apply, val_main_v17_apply,
    val_main_c_apply, val_main_c_3_apply]

/-- The target index words, wrapped. -/
theorem v26_at (e : Fin 850000) : val_main_v26 (F := Ideal) x0 (ix1 e) = Spec.wrap (colW x0 e) := by
  unfold Spec.wrap colW
  rw [val_main_v26_apply, val_main_v23_apply, val_main_v25_apply, val_main_v22_apply, val_main_v24_apply,
    val_main_c_4_apply, val_main_c_5_apply]

/-- The source index words, wrapped (second use: the first layer's gather). -/
theorem v35_at (e : Fin 850000) : val_main_v35 (F := Ideal) x0 (ix1 e) = Spec.wrap (rowW x0 e) := by
  unfold Spec.wrap rowW
  rw [val_main_v35_apply, val_main_v32_apply, val_main_v34_apply, val_main_v31_apply, val_main_v33_apply,
    val_main_c_6_apply, val_main_c_7_apply]

/-- The source index words, wrapped (third use: the second layer's gather). -/
theorem v53_at (e : Fin 850000) : val_main_v53 (F := Ideal) x0 (ix1 e) = Spec.wrap (rowW x0 e) := by
  unfold Spec.wrap rowW
  rw [val_main_v53_apply, val_main_v50_apply, val_main_v52_apply, val_main_v49_apply, val_main_v51_apply,
    val_main_c_9_apply, val_main_c_10_apply]

/-- Column 0 of the query table, read through the transpose, the slice and the reshape. -/
theorem v67_at (p : Fin 100000) : val_main_v67 (F := Ideal) x2 (ix1 p) = mask0 x2 p := by
  have hi : idx_main_v65 (idx_main_v66 (idx_main_v67 (ix1 p))) = ix2 p (0 : Fin 2) :=
    funext fun a => match a with
      | ⟨0, _⟩ => Fin.ext (Nat.mod_eq_of_lt p.isLt)
      | ⟨1, _⟩ => rfl
  rw [val_main_v67_apply, val_main_v66_apply, val_main_v65_apply, hi]

/-- Column 1 of the query table. -/
theorem v76_at (p : Fin 100000) : val_main_v76 (F := Ideal) x2 (ix1 p) = mask1 x2 p := by
  have hi : idx_main_v65 (idx_main_v75 (idx_main_v76 (ix1 p))) = ix2 p (1 : Fin 2) :=
    funext fun a => match a with
      | ⟨0, _⟩ => Fin.ext (Nat.mod_eq_of_lt p.isLt)
      | ⟨1, _⟩ => rfl
  rw [val_main_v76_apply, val_main_v75_apply, val_main_v65_apply, hi]

/-- A query's first index word, wrapped. -/
theorem v72_at (p : Fin 100000) : val_main_v72 (F := Ideal) x2 (ix1 p) = Spec.wrap (mask0 x2 p) := by
  unfold Spec.wrap
  rw [val_main_v72_apply, val_main_v69_apply, val_main_v71_apply, val_main_v68_apply, val_main_v70_apply,
    val_main_c_12_apply, val_main_c_13_apply, v67_at]

/-- A query's second index word, wrapped. -/
theorem v81_at (p : Fin 100000) : val_main_v81 (F := Ideal) x2 (ix1 p) = Spec.wrap (mask1 x2 p) := by
  unfold Spec.wrap
  rw [val_main_v81_apply, val_main_v78_apply, val_main_v80_apply, val_main_v77_apply, val_main_v79_apply,
    val_main_c_14_apply, val_main_c_15_apply, v76_at]

/-! The same words as one-column tables: the form a gather and a scatter take their indices in. -/

theorem v20_at (e : Fin 850000) : val_main_v20 (F := Ideal) x0 (ix2 e (0 : Fin 1)) = Spec.wrap (rowW x0 e) := by
  have hi : idx_main_v20 (ix2 e (0 : Fin 1)) = ix1 e := funext fun a => match a with | ⟨0, _⟩ => rfl
  rw [val_main_v20_apply, hi, v19_at]

theorem v27_at (e : Fin 850000) : val_main_v27 (F := Ideal) x0 (ix2 e (0 : Fin 1)) = Spec.wrap (colW x0 e) := by
  have hi : idx_main_v27 (ix2 e (0 : Fin 1)) = ix1 e := funext fun a => match a with | ⟨0, _⟩ => rfl
  rw [val_main_v27_apply, hi, v26_at]

theorem v36_at (e : Fin 850000) : val_main_v36 (F := Ideal) x0 (ix2 e (0 : Fin 1)) = Spec.wrap (rowW x0 e) := by
  have hi : idx_main_v36 (ix2 e (0 : Fin 1)) = ix1 e := funext fun a => match a with | ⟨0, _⟩ => rfl
  rw [val_main_v36_apply, hi, v35_at]

theorem v54_at (e : Fin 850000) : val_main_v54 (F := Ideal) x0 (ix2 e (0 : Fin 1)) = Spec.wrap (rowW x0 e) := by
  have hi : idx_main_v54 (ix2 e (0 : Fin 1)) = ix1 e := funext fun a => match a with | ⟨0, _⟩ => rfl
  rw [val_main_v54_apply, hi, v53_at]

/-- The scatter index of edge e in the first layer is its raw target word. -/
theorem v42_at (e : Fin 850000) : val_main_v42 (F := Ideal) x0 (ix2 e (0 : Fin 1)) = colW x0 e := by
  have hi : idx_main_v42 (ix2 e (0 : Fin 1)) = ix1 e := funext fun a => match a with | ⟨0, _⟩ => rfl
  rw [val_main_v42_apply, hi]
  rfl

/-- The scatter index of edge e in the second layer is its raw target word. -/
theorem v60_at (e : Fin 850000) : val_main_v60 (F := Ideal) x0 (ix2 e (0 : Fin 1)) = colW x0 e := by
  have hi : idx_main_v60 (ix2 e (0 : Fin 1)) = ix1 e := funext fun a => match a with | ⟨0, _⟩ => rfl
  rw [val_main_v60_apply, hi]
  rfl

theorem v73_at (p : Fin 100000) : val_main_v73 (F := Ideal) x2 (ix2 p (0 : Fin 1)) = Spec.wrap (mask0 x2 p) := by
  have hi : idx_main_v73 (ix2 p (0 : Fin 1)) = ix1 p := funext fun a => match a with | ⟨0, _⟩ => rfl
  rw [val_main_v73_apply, hi, v72_at]

theorem v82_at (p : Fin 100000) : val_main_v82 (F := Ideal) x2 (ix2 p (0 : Fin 1)) = Spec.wrap (mask1 x2 p) := by
  have hi : idx_main_v82 (ix2 p (0 : Fin 1)) = ix1 p := funext fun a => match a with | ⟨0, _⟩ => rfl
  rw [val_main_v82_apply, hi, v81_at]

/-! ## (b) The edge weights -/

/-- The factor of an edge's source node. -/
theorem v21_at (e : Fin 850000) :
    val_main_v21 (F := Ideal) x0 (ix1 e) = dNode x0 (Spec.node (Spec.wrap (rowW x0 e))) := by
  unfold val_main_v21 dNode
  rw [gather_flat_apply_ix1_of_eq (by decide) gather_S50000_S850000x1_S850000_n_0_n_n_0_1_1 rfl, node_of_eq (v20_at x0 e)]

/-- The factor of an edge's target node. -/
theorem v28_at (e : Fin 850000) :
    val_main_v28 (F := Ideal) x0 (ix1 e) = dNode x0 (Spec.node (Spec.wrap (colW x0 e))) := by
  unfold val_main_v28 dNode
  rw [gather_flat_apply_ix1_of_eq (by decide) gather_S50000_S850000x1_S850000_n_0_n_n_0_1_1 rfl, node_of_eq (v27_at x0 e)]

/-- The weight of edge e: the factor of its source times the factor of its target. -/
theorem v29_at (e : Fin 850000) :
    val_main_v29 (F := Ideal) x0 (ix1 e)
      = dNode x0 (Spec.node (Spec.wrap (rowW x0 e))) * dNode x0 (Spec.node (Spec.wrap (colW x0 e))) := by
  rw [val_main_v29_apply, v21_at, v28_at, Ideal.mulf_def]

/-- The edge weights spread along the 256 columns of the first layer. -/
theorem v39_at (e : Fin 850000) (k : Fin 256) :
    val_main_v39 (F := Ideal) x0 (ix2 e k)
      = dNode x0 (Spec.node (Spec.wrap (rowW x0 e))) * dNode x0 (Spec.node (Spec.wrap (colW x0 e))) := by
  have h1 : idx_main_v39 (ix2 e k) = ix2 e (0 : Fin 1) :=
    funext fun a => match a with | ⟨0, _⟩ => rfl | ⟨1, _⟩ => rfl
  have h2 : idx_main_v38 (ix2 e (0 : Fin 1)) = ix1 e := funext fun a => match a with | ⟨0, _⟩ => rfl
  rw [val_main_v39_apply, h1, val_main_v38_apply, h2, v29_at]

/-- The edge weights spread along the 128 columns of the second layer. -/
theorem v57_at (e : Fin 850000) (k : Fin 128) :
    val_main_v57 (F := Ideal) x0 (ix2 e k)
      = dNode x0 (Spec.node (Spec.wrap (rowW x0 e))) * dNode x0 (Spec.node (Spec.wrap (colW x0 e))) := by
  have h1 : idx_main_v57 (ix2 e k) = ix2 e (0 : Fin 1) :=
    funext fun a => match a with | ⟨0, _⟩ => rfl | ⟨1, _⟩ => rfl
  have h2 : idx_main_v56 (ix2 e (0 : Fin 1)) = ix1 e := funext fun a => match a with | ⟨0, _⟩ => rfl
  rw [val_main_v57_apply, h1, val_main_v56_apply, h2, v29_at]

/-! ## (c) The first dense product -/

theorem v30_at (n : Fin 50000) (k : Fin 256) :
    val_main_v30 (F := Ideal) x1 x3 (ix2 n k) = Spec.lin1 (feats x1) (wts1 x3) n k := by
  rw [val_main_v30_apply]
  unfold Spec.lin1
  refine Finset.sum_congr rfl fun q _ => ?_
  have hl : lidx_main_v30 (ix2 n k) q = ix2 n q := funext fun a => match a with | ⟨0, _⟩ => rfl | ⟨1, _⟩ => rfl
  have hr : ridx_main_v30 (ix2 n k) q = ix2 q k := funext fun a => match a with | ⟨0, _⟩ => rfl | ⟨1, _⟩ => rfl
  rw [hl, hr]

/-! ## (d) The first aggregation -/

/-- The product's row of an edge's source node. -/
theorem v37_at (e : Fin 850000) (k : Fin 256) :
    val_main_v37 (F := Ideal) x0 x1 x3 (ix2 e k)
      = Spec.lin1 (feats x1) (wts1 x3) (Spec.node (Spec.wrap (rowW x0 e))) k := by
  unfold val_main_v37
  rw [gather_rows_apply_ix2_of_eq (by decide) gather_S50000x256_S850000x1_S850000x256_1_0_n_n_0_1_1256 rfl,
    node_of_eq (v36_at x0 e), v30_at]

/-- The message of edge e in the first layer. -/
theorem v40_at (e : Fin 850000) (k : Fin 256) :
    val_main_v40 (F := Ideal) x0 x1 x3 (ix2 e k)
      = Spec.lin1 (feats x1) (wts1 x3) (Spec.node (Spec.wrap (rowW x0 e))) k
          * (dNode x0 (Spec.node (Spec.wrap (rowW x0 e))) * dNode x0 (Spec.node (Spec.wrap (colW x0 e)))) := by
  rw [val_main_v40_apply, v37_at, v39_at, Ideal.mulf_def]

theorem v41_at (n : Fin 50000) (k : Fin 256) : val_main_v41 (F := Ideal) (ix2 n k) = (0 : EReal) := by
  rw [val_main_v41_apply, val_main_cst_8_apply, Ideal.ofBits_def, Ideal.ofBits_zero_f32]

/-- The first aggregation: the messages of the edges whose raw target word is n, summed into a zero table. -/
theorem v43_at (n : Fin 50000) (k : Fin 256) :
    val_main_v43 (F := Ideal) x0 x1 x3 (ix2 n k)
      = Spec.agg1R (dNode x0) (rowW x0) (colW x0) (feats x1) (wts1 x3) n k := by
  unfold val_main_v43
  rw [scatterAdd_rows_at scatter_S50000x256_S850000x1_S850000x256_1_0_0_1 rfl, v41_at, zero_add]
  unfold Spec.agg1R Spec.agg
  refine Finset.sum_congr (Finset.filter_congr fun e _ => ?_) fun e _ => ?_
  · rw [v42_at]
  · exact v40_at x0 x1 x3 e k

/-! ## (e) The bias and the maximum with zero -/

theorem v47_at (n : Fin 50000) (q : Fin 256) :
    val_main_v47 (F := Ideal) x0 x1 x3 x4 (ix2 n q)
      = Spec.act1R (dNode x0) (rowW x0) (colW x0) (feats x1) (wts1 x3) (bias1 x4) zeroW n q := by
  have h1 : idx_main_v45 (ix2 n q) = ix2 (0 : Fin 1) q :=
    funext fun a => match a with | ⟨0, _⟩ => rfl | ⟨1, _⟩ => rfl
  have h2 : idx_main_v44 (ix2 (0 : Fin 1) q) = ix1 q := funext fun a => match a with | ⟨0, _⟩ => rfl
  unfold Spec.act1R
  rw [val_main_v47_apply, val_main_v46_apply, val_main_call1_v0_apply, val_main_call1_cst_apply, val_main_v45_apply, h1,
    val_main_v44_apply, h2, v43_at, Ideal.ofBits_def, Ideal.addf_def, Ideal.maximumf_def]

/-! ## (f) The second dense product -/

theorem v48_at (n : Fin 50000) (k : Fin 128) :
    val_main_v48 (F := Ideal) x0 x1 x3 x4 x5 (ix2 n k)
      = Spec.lin2R (dNode x0) (rowW x0) (colW x0) (feats x1) (wts1 x3) (bias1 x4) (wts2 x5) zeroW n k := by
  rw [val_main_v48_apply]
  unfold Spec.lin2R
  refine Finset.sum_congr rfl fun q _ => ?_
  have hl : lidx_main_v48 (ix2 n k) q = ix2 n q := funext fun a => match a with | ⟨0, _⟩ => rfl | ⟨1, _⟩ => rfl
  have hr : ridx_main_v48 (ix2 n k) q = ix2 q k := funext fun a => match a with | ⟨0, _⟩ => rfl | ⟨1, _⟩ => rfl
  rw [hl, hr, v47_at]

/-! ## (g) The second aggregation -/

theorem v55_at (e : Fin 850000) (k : Fin 128) :
    val_main_v55 (F := Ideal) x0 x1 x3 x4 x5 (ix2 e k)
      = Spec.lin2R (dNode x0) (rowW x0) (colW x0) (feats x1) (wts1 x3) (bias1 x4) (wts2 x5) zeroW
          (Spec.node (Spec.wrap (rowW x0 e))) k := by
  unfold val_main_v55
  rw [gather_rows_apply_ix2_of_eq (by decide) gather_S50000x128_S850000x1_S850000x128_1_0_n_n_0_1_1128 rfl,
    node_of_eq (v54_at x0 e), v48_at]

/-- The message of edge e in the second layer. -/
theorem v58_at (e : Fin 850000) (k : Fin 128) :
    val_main_v58 (F := Ideal) x0 x1 x3 x4 x5 (ix2 e k)
      = Spec.lin2R (dNode x0) (rowW x0) (colW x0) (feats x1) (wts1 x3) (bias1 x4) (wts2 x5) zeroW
            (Spec.node (Spec.wrap (rowW x0 e))) k
          * (dNode x0 (Spec.node (Spec.wrap (rowW x0 e))) * dNode x0 (Spec.node (Spec.wrap (colW x0 e)))) := by
  rw [val_main_v58_apply, v55_at, v57_at, Ideal.mulf_def]

theorem v59_at (n : Fin 50000) (k : Fin 128) : val_main_v59 (F := Ideal) (ix2 n k) = (0 : EReal) := by
  rw [val_main_v59_apply, val_main_cst_11_apply, Ideal.ofBits_def, Ideal.ofBits_zero_f32]

theorem v61_at (n : Fin 50000) (k : Fin 128) :
    val_main_v61 (F := Ideal) x0 x1 x3 x4 x5 (ix2 n k)
      = Spec.agg2R (dNode x0) (rowW x0) (colW x0) (feats x1) (wts1 x3) (bias1 x4) (wts2 x5) zeroW n k := by
  unfold val_main_v61
  rw [scatterAdd_rows_at scatter_S50000x128_S850000x1_S850000x128_1_0_0_1 rfl, v59_at, zero_add]
  unfold Spec.agg2R Spec.agg
  refine Finset.sum_congr (Finset.filter_congr fun e _ => ?_) fun e _ => ?_
  · rw [v60_at]
  · exact v58_at x0 x1 x3 x4 x5 e k

/-! ## (h) The features after two layers -/

theorem v64_at (n : Fin 50000) (q : Fin 128) :
    val_main_v64 (F := Ideal) x0 x1 x3 x4 x5 x6 (ix2 n q)
      = Spec.feat2R (dNode x0) (rowW x0) (colW x0) (feats x1) (wts1 x3) (bias1 x4) (wts2 x5) (bias2 x6) zeroW n q := by
  have h1 : idx_main_v63 (ix2 n q) = ix2 (0 : Fin 1) q :=
    funext fun a => match a with | ⟨0, _⟩ => rfl | ⟨1, _⟩ => rfl
  have h2 : idx_main_v62 (ix2 (0 : Fin 1) q) = ix1 q := funext fun a => match a with | ⟨0, _⟩ => rfl
  unfold Spec.feat2R
  rw [val_main_v64_apply, val_main_v63_apply, h1, val_main_v62_apply, h2, v61_at, Ideal.addf_def]

/-! ## (i) A query's two feature rows, side by side -/

/-- The feature row of a query's first node. -/
theorem v74_at (p : Fin 100000) (q : Fin 128) :
    val_main_v74 (F := Ideal) x0 x1 x2 x3 x4 x5 x6 (ix2 p q)
      = Spec.feat2R (dNode x0) (rowW x0) (colW x0) (feats x1) (wts1 x3) (bias1 x4) (wts2 x5) (bias2 x6) zeroW
          (Spec.node (Spec.wrap (mask0 x2 p))) q := by
  unfold val_main_v74
  rw [gather_rows_apply_ix2_of_eq (by decide) gather_S50000x128_S100000x1_S100000x128_1_0_n_n_0_1_1128 rfl,
    node_of_eq (v73_at x2 p), v64_at]

/-- The feature row of a query's second node. -/
theorem v83_at (p : Fin 100000) (q : Fin 128) :
    val_main_v83 (F := Ideal) x0 x1 x2 x3 x4 x5 x6 (ix2 p q)
      = Spec.feat2R (dNode x0) (rowW x0) (colW x0) (feats x1) (wts1 x3) (bias1 x4) (wts2 x5) (bias2 x6) zeroW
          (Spec.node (Spec.wrap (mask1 x2 p))) q := by
  unfold val_main_v83
  rw [gather_rows_apply_ix2_of_eq (by decide) gather_S50000x128_S100000x1_S100000x128_1_0_n_n_0_1_1128 rfl,
    node_of_eq (v82_at x2 p), v64_at]

/-- The joined row of a query. -/
theorem v84_at (p : Fin 100000) (q : Fin 256) :
    val_main_v84 (F := Ideal) x0 x1 x2 x3 x4 x5 x6 (ix2 p q)
      = Spec.pair (Spec.feat2R (dNode x0) (rowW x0) (colW x0) (feats x1) (wts1 x3) (bias1 x4) (wts2 x5) (bias2 x6) zeroW)
          (mask0 x2) (mask1 x2) p q := by
  unfold val_main_v84 Spec.pair
  by_cases h : q.val < 128
  · rw [dif_pos h, concat_left _ _ p q h, v74_at]
  · rw [dif_neg h, concat_right _ _ p q h, v83_at]

/-! ## (j) The score -/

theorem v85_at (p : Fin 100000) :
    val_main_v85 (F := Ideal) x0 x1 x2 x3 x4 x5 x6 x7 (ix2 p (0 : Fin 1))
      = ∑ q : Fin 256,
          Spec.pair (Spec.feat2R (dNode x0) (rowW x0) (colW x0) (feats x1) (wts1 x3) (bias1 x4) (wts2 x5) (bias2 x6) zeroW)
            (mask0 x2) (mask1 x2) p q * wtsH x7 q := by
  rw [val_main_v85_apply]
  refine Finset.sum_congr rfl fun q _ => ?_
  have hl : lidx_main_v85 (ix2 p (0 : Fin 1)) q = ix2 p q :=
    funext fun a => match a with | ⟨0, _⟩ => rfl | ⟨1, _⟩ => rfl
  have hr : ridx_main_v85 (ix2 p (0 : Fin 1)) q = ix2 q (0 : Fin 1) :=
    funext fun a => match a with | ⟨0, _⟩ => rfl | ⟨1, _⟩ => rfl
  rw [hl, hr, v84_at]

/-- The head bias, spread along the queries. -/
theorem v87_at (p : Fin 100000) : val_main_v87 (F := Ideal) x8 (ix2 p (0 : Fin 1)) = x8 (ix1 (0 : Fin 1)) := by
  have hi : idx_main_v86 (idx_main_v87 (ix2 p (0 : Fin 1))) = ix1 (0 : Fin 1) :=
    funext fun a => match a with | ⟨0, _⟩ => rfl
  rw [val_main_v87_apply, val_main_v86_apply, hi]

/-- THE REFERENCE'S SCORE before the logistic function: the specification's per-edge chain, entry by entry. -/
theorem ref_score (p : Fin 100000) :
    val_main_v88 (F := Ideal) x0 x1 x2 x3 x4 x5 x6 x7 x8 (ix2 p (0 : Fin 1))
      = Spec.scoreR (Spec.feat2R (dNode x0) (rowW x0) (colW x0) (fun n q => x1 (ix2 n q)) (fun q k => x3 (ix2 q k))
            (fun k => x4 (ix1 k)) (fun q k => x5 (ix2 q k)) (fun k => x6 (ix1 k)) (Ideal.ofBits .f32 0x00000000#32))
          (fun q => x7 (ix2 q (0 : Fin 1))) (x8 (ix1 (0 : Fin 1))) (fun p => x2 (ix2 p (0 : Fin 2)))
          (fun p => x2 (ix2 p (1 : Fin 2))) p := by
  unfold Spec.scoreR
  rw [val_main_v88_apply, v85_at, v87_at, Ideal.addf_def]

end Chain

end Cert.ReferenceIdeal.RefValue

end
-- ==== Proof.Bridge.lean ====
/-
  The two programs' results are one array.  The kernel program's result, read stage by stage off its run (three regions and
  the host stretches between them), is the logistic function of the score in which every layer scales by the node factor
  before and after the edge sum; the reference program's result is the logistic function of the score in which every edge
  carries the product of its two node factors.  The node factor is a non-negative real number, so the two chains agree
  (Spec), and a query's concatenated 256-entry row contracts to the sum of its two 128-entry halves.
-/
import proofs.«130974_j17119739641949_2_alg».proof.Proof.KStage1
import proofs.«130974_j17119739641949_2_alg».proof.Proof.KStage24
import proofs.«130974_j17119739641949_2_alg».proof.Proof.KStage3
import proofs.«130974_j17119739641949_2_alg».proof.Proof.KStage56
import proofs.«130974_j17119739641949_2_alg».proof.Proof.RefValue

set_option maxRecDepth 16384

noncomputable section

namespace Cert.Bridge

open Cert.KernelIdeal Cert.KernelIdeal.Gen Cert.KernelIdeal.KNames
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The kernel program's result at query p: the logistic function of the split-factor score. -/
theorem kernel_value (p : Fin 100000) :
    W9 m ρ c (Proc.devRef .tc main_v75) (ix2 p (0 : Fin 1)) = logistic (scoreKK m c p) :=
  Stage56.result_value m ρ c
    (fun n => Stage56.heads_value m ρ c
      (Stage24.agg2_value m ρ c (Stage3.scaled2_value m ρ c (Stage24.agg1_value m ρ c (Stage1.scaled1_value m ρ c)))) n) p

/-- The node factor is a non-negative real number. -/
theorem dK_nonneg (n : Fin 50000) : 0 ≤ dK m c n ∧ dK m c n ≠ ⊤ :=
  Cert.ReferenceIdeal.RefValue.dNode_nonneg (a0 m c) n

/-- The reference's result at query p, at the kernel program's launched arrays, is the same number. -/
theorem reference_value (p : Fin 100000) :
    Cert.ReferenceIdeal.ReadP.val_main_v94 (F := Ideal) (a0 m c) (a1 m c) (a2 m c) (a3 m c) (a4 m c) (a5 m c) (a6 m c) (a7 m c) (a8 m c)
      (ix2 p (0 : Fin 1)) = logistic (scoreKK m c p) := by
  have hs := Cert.ReferenceIdeal.RefValue.ref_score (a0 m c) (a1 m c) (a2 m c) (a3 m c) (a4 m c) (a5 m c) (a6 m c) (a7 m c) (a8 m c) p
  rw [Cert.Spec.score_eq, Cert.Spec.feat2_eq _ _ _ _ _ _ _ _ _ (fun n => Cert.ReferenceIdeal.RefValue.dNode_nonneg (a0 m c) n)] at hs
  rw [Cert.ReferenceIdeal.ReadP.val_main_v94_apply, Cert.ReferenceIdeal.ReadP.val_main_v92_apply,
    Cert.ReferenceIdeal.ReadP.val_main_v90_apply, Cert.ReferenceIdeal.ReadP.val_main_v89_apply, hs]
  rfl

/-- The two results are one array. -/
theorem result_eq :
    W9 m ρ c (Proc.devRef .tc main_v75)
      = Cert.ReferenceIdeal.ReadP.val_main_v94 (F := Ideal) (a0 m c) (a1 m c) (a2 m c) (a3 m c) (a4 m c) (a5 m c) (a6 m c) (a7 m c) (a8 m c) := by
  funext i
  obtain ⟨p, q, rfl⟩ : ∃ (p : Fin 100000) (q : Fin 1), i = ix2 p q := ⟨i 0, i 1, eq_ix2 i⟩
  obtain rfl : q = 0 := Subsingleton.elim _ _
  rw [kernel_value, reference_value]

end Cert.Bridge

end
-- ==== Proof.lean ====
/-
  The certificate.  The three frames: each program terminates from any memory satisfying the precondition, nothing faults,
  and the arguments end as launched (the two kernel programs by their pipelined regions' frame; the reference by its run).
  The idealization rewrote no operation, so it preserves the kernel trivially.  At the ideal instance the idealized kernel
  and the idealized reference, run from memories agreeing on the arguments, end with the same result array: the kernel
  program's result read off its run equals the reference's composed term (Bridge).
-/
import proofs.«130974_j17119739641949_2_alg».proof.Defs
import proofs.«130974_j17119739641949_2_alg».proof.Proof.Gen.Kernel
import proofs.«130974_j17119739641949_2_alg».proof.Proof.Gen.Kernel.Frame
import proofs.«130974_j17119739641949_2_alg».proof.Proof.Gen.KernelIdeal
import proofs.«130974_j17119739641949_2_alg».proof.Proof.Gen.KernelIdeal.Frame
import proofs.«130974_j17119739641949_2_alg».proof.Proof.Gen.ReferenceIdeal
import proofs.«130974_j17119739641949_2_alg».proof.Proof.Gen.Pre_finite_inputs
import proofs.«130974_j17119739641949_2_alg».proof.Proof.KernelRun
import proofs.«130974_j17119739641949_2_alg».proof.Proof.RefRunS
import proofs.«130974_j17119739641949_2_alg».proof.Proof.RefReadP
import proofs.«130974_j17119739641949_2_alg».proof.Proof.Bridge
import Idealize.ShloMosaic.Adequacy
import Idealize.ShloMosaic.Init

noncomputable section

namespace Cert.Proof

open Idealize.ShloMosaic Idealize.SL.Sem

theorem frame_k : Cert.frame_Kernel :=
  fun m ρ _ => Cert.Kernel.Gen.frame m ρ

theorem frame_ki : Cert.frame_KernelIdeal :=
  fun m ρ _ => Cert.KernelIdeal.Gen.frame m ρ

theorem frame_ri : Cert.frame_ReferenceIdeal :=
  fun m ρ _ => (θ_run Cert.ReferenceIdeal.defs _ _).mono (fun _ h c => (h c).2) (Cert.ReferenceIdeal.RunS.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Gen.W9 m ρ c (Proc.devRef .tc Cert.KernelIdeal.main_v75),
    Cert.KernelIdeal.RunValue.run_result m ρ, ?_⟩
  refine (θ_run Cert.ReferenceIdeal.defs _ _).mono (fun _ h c => ⟨(h c).1.trans ?_, (h c).2⟩)
    (Cert.ReferenceIdeal.RunS.run (F := Ideal) m' ρ')
  rw [(hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
